-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S8192x256 : Shape := ⟨2, ![8192, 256]⟩
abbrev S8192x8192 : Shape := ⟨2, ![8192, 8192]⟩
abbrev S_ : Shape := ⟨0, ![]⟩
abbrev S8192 : Shape := ⟨1, ![8192]⟩

class Facts : Prop where
  bcast_S_S1 : S_.BroadcastsInDim S1 (![] : Fin 0 → Fin S1.rank)
  reducesTo_S1_S_d0 : S1.ReducesTo [0] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x8192 : S_.BroadcastsInDim S8192x8192 (![] : Fin 0 → Fin S8192x8192.rank)
  reducesTo_S8192x8192_S_d0_1 : S8192x8192.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .oge main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S1 .f32) (main_arg1 : FVec F S8192x256 .f32) (main_arg2 : FVec F S8192x8192 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg2 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S1 : Shape := ⟨1, ![1]⟩
abbrev S8192x256 : Shape := ⟨2, ![8192, 256]⟩
abbrev S8192x8192 : Shape := ⟨2, ![8192, 8192]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S_ : Shape := ⟨0, ![]⟩
abbrev S1x8192 : Shape := ⟨2, ![1, 8192]⟩
abbrev S8192 : Shape := ⟨1, ![8192]⟩
abbrev S1x1 : Shape := ⟨2, ![1, 1]⟩
abbrev S128x8192 : Shape := ⟨2, ![128, 8192]⟩
abbrev S128x256 : Shape := ⟨2, ![128, 256]⟩
abbrev S128x1 : Shape := ⟨2, ![128, 1]⟩
abbrev S128 : Shape := ⟨1, ![128]⟩

abbrev nBuf : Space → Nat
  | .hbm => 27
  | .vmem => 16
  | .smem => 0
  | _ => 0

abbrev bufTy : (tb : Table) → Fin (tcTables nBuf tb) → BufTy
  | .hbm, ⟨0, _⟩ => ⟨S1, .f32⟩
  | .hbm, ⟨1, _⟩ => ⟨S8192x256, .f32⟩
  | .hbm, ⟨2, _⟩ => ⟨S8192x8192, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S8192x256, .bf16⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S128x8192, .f32⟩
  | .local _ .vmem, ⟨5, _⟩ => ⟨S128x8192, .f32⟩
  | .local _ .vmem, ⟨6, _⟩ => ⟨S128x256, .bf16⟩
  | .local _ .vmem, ⟨7, _⟩ => ⟨S128x256, .bf16⟩
  | .local _ .vmem, ⟨8, _⟩ => ⟨S8192x256, .bf16⟩
  | .local _ .vmem, ⟨9, _⟩ => ⟨S128x1, .f32⟩
  | .local _ .vmem, ⟨10, _⟩ => ⟨S128x1, .f32⟩
  | .local _ .vmem, ⟨11, _⟩ => ⟨S1x8192, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v39 : BitVec 1 := Scalar.cmpi .eq arg0 c63_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x8192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  bcast_S_S8192x1 : S_.BroadcastsInDim S8192x1 (![] : Fin 0 → Fin S8192x1.rank)
  shapeCasts_S8192x1_S1x8192 : S8192x1.ShapeCasts S1x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S128x8192_S128x8192_0_0 : ∀ a, (![0, 0] : Fin 2 → Nat) a + S128x8192.size a ≤ S128x8192.size a
  h_S128x8192 : 0 < S128x8192.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .f32 = 32 ∨ (Rect.block (s := S8192x8192) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S8192x256.size a
  hwx1_1 : ∀ i : grid1.Coords, EltTy.bits .bf16 = 32 ∨ (Rect.block (s := S8192x256) S128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S8192x1.size a
  hwx1_3 : ∀ i : grid1.Coords, EltTy.bits .f32 = 32 ∨ (Rect.block (s := S8192x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8192.size a ≤ S1x8192.size a
  hwx1_4 : ∀ i : grid1.Coords, EltTy.bits .f32 = 32 ∨ (Rect.block (s := S1x8192) S1x8192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg2) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x8192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1 : Shape := ⟨1, ![1]⟩
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S256x8192 : Shape := ⟨2, ![256, 8192]⟩

abbrev nBuf : Space → Nat
  | .hbm => 40
  | .vmem => 0
  | .smem => 0
  | _ => 0

abbrev bufTy : (tb : Table) → Fin (tcTables nBuf tb) → BufTy
  | .hbm, ⟨0, _⟩ => ⟨S1, .f32⟩
  | .hbm, ⟨1, _⟩ => ⟨S8192x256, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x256, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x256, .f32⟩
  | .hbm, ⟨27, _⟩ => ⟨S8192x256, .f32⟩
  | .hbm, ⟨28, _⟩ => ⟨S256x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  reducesTo_S8192x8192_S_d0_1 : S8192x8192.ReducesTo [0, 1] S_
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Bits.DegreeBody.lean ====
/- The first kernel region of the program (custom_call 0, the row-degree kernel), at a parameter V:
   the buffer contents when the region is entered. Each of the 32 grid points loads one whole [256, 8192] block
   of the adjacency array, sums every row along the lanes from the zero word, casts the [256] vector of sums to
   the column [256, 1], and stores it whole into the output window's block. This file states, generically in the
   float type F, each window's block at a point, what the body leaves in the output window's buffer, the body's
   triple, the pipeline's proof data and the body obligation at every point. It uses no fact about a particular F. -/
import proofs.«125553_j27504970563869_1_alg».proof.Proof.Gen.Kernel.Launch
import proofs.«125553_j27504970563869_1_alg».proof.Proof.Gen.Kernel.Skeleton
import proofs.«125553_j27504970563869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Deg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is V's and whose body leaves the block in place: the window is uncut and never idle, and an
    unfetched point has the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block, as the one load reads it. -/
abbrev r0_0 : Rect S256x8192 := Rect.unit (s := S256x8192) ![0, 0] S256x8192.size inb_S256x8192_S256x8192_0_0
/-- The whole output block, as the one store writes it. -/
abbrev r0_1 : Rect S256x1 := Rect.unit (s := S256x1) ![0, 0] S256x1.size inb_S256x1_S256x1_0_0

/-! ## What the body leaves in the output window's buffer -/

/-- The output window's staging buffer after the body, from the input window's block: its one store, whose payload
    is the column of row sums of the block. -/
def out0_1 (x0 : Vec F S256x8192 .f32) : Vec F S256x1 .f32 :=
  View.canon [⟨r0_1, k0_pay1 (View.ld x0 r0_0)⟩]

/-- The one store tiles the buffer, so it covers it. -/
theorem cover0_1 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the input's at read contents x0 and the output's at anything, runs to
    the continuation holding the input's as it was and the output's at out0_1 of the input's: the load of the output
    block before the store reads whatever is there and its value is not used. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core c: the arrays as the region finds them (V); after the body at point t
    the input's buffer at its block and the output's at out0_1 of the input block; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Deg

end
-- ==== Proof.Bits.LossRuns.lean ====
/-
  The loss kernel's grid of 64 points, case by case.

  The body zeroes its two one-element accumulators at the first point only, adds the band's
  contribution to each at every point, and copies them into the two output blocks at the last point only.
  So there are three kinds of point: the first (zeroing, no copy out), the middle ones (neither) and the
  last (copy out, no zeroing). This module decides the two conditions over the grid, records where the
  two output windows are idle, and names the staging and accumulator memrefs the body is run on.
-/
import proofs.«125553_j27504970563869_1_alg».proof.Proof.Gen.Kernel.Launch
import proofs.«125553_j27504970563869_1_alg».proof.Proof.Gen.Kernel.Skeleton
import proofs.«125553_j27504970563869_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point": the body's first conditional, from the grid coordinate. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last point": the body's second conditional. -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last point nothing is stored into the first output block, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- The same for the second output block. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body runs on -/

abbrev ms1_0 (t : Fin cfg1.N) : Memref sig .tc .vmem S128x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1
/-- Views through which the accumulators' and the output blocks' contents are stated. -/
abbrev VS1_0 : View sig .tc .vmem S1x1 .f32 := scM1_0.view
abbrev VS1_1 : View sig .tc .vmem S1x1 .f32 := scM1_1.view
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view

/-- The other region's staging buffers, each at some contents: scoped buffers this kernel never names. -/
def otherStage (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- What the region hands the body besides the windows: the other region's staging buffers and the two
    accumulators, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.Kernel.Loss

end
-- ==== Proof.Bits.LossRunA.lean ====
/-
  The loss kernel's body at the first grid point: both accumulators are zeroed, then the band's two
  contributions are added; the output blocks are not touched. The run finds, as pieces, what the two
  accumulators hold afterwards.
-/
import proofs.«125553_j27504970563869_1_alg».proof.Proof.Bits.LossRuns

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- The body at the first point: inputs at their blocks, the output blocks handed back untouched, the
    accumulators at anything before and at their found pieces after. -/
noncomputable def kernelRun1_A (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : cond1_0 i) (hc1 : ¬cond1_1 i)
    (x1 : Vec F S128x8192 .f32) (x2 : Vec F S128x256 .bf16) (x3 : Vec F S8192x256 .bf16) (x4 : Vec F S128x1 .f32) (x5 : Vec F S1x8192 .f32) :
    Σ' (LS0 : List (View.Piece (Elt F) S1x1 .f32)), { LS1 : List (View.Piece (Elt F) S1x1 .f32) //
      ∀ (xi6 xi7 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, fun xi6 xi7 E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]
    · iexists _; iexact HS0
    iexists _; iexact HS1

end Cert.Kernel.Loss

end
-- ==== Proof.Bits.LossRunB.lean ====
/-
  The loss kernel's body at a middle grid point: nothing is zeroed and nothing copied out; each
  accumulator, holding what the point before left, takes the band's contribution.
-/
import proofs.«125553_j27504970563869_1_alg».proof.Proof.Bits.LossRuns

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point: inputs at their blocks, the output blocks handed back untouched, the
    accumulators at what the point before left (`xs8`, `xs9`) before and at their found pieces after. -/
noncomputable def kernelRun1_B (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : ¬cond1_0 i) (hc1 : ¬cond1_1 i)
    (x1 : Vec F S128x8192 .f32) (x2 : Vec F S128x256 .bf16) (x3 : Vec F S8192x256 .bf16) (x4 : Vec F S128x1 .f32) (x5 : Vec F S1x8192 .f32) (xs8 xs9 : Vec F S1x1 .f32) :
    Σ' (LS0 : List (View.Piece (Elt F) S1x1 .f32)), { LS1 : List (View.Piece (Elt F) S1x1 .f32) //
      ∀ (xi6 xi7 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, fun xi6 xi7 E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]
    · iexists _; iexact HS0
    iexists _; iexact HS1

end Cert.Kernel.Loss

end
-- ==== Proof.Bits.LossRunC.lean ====
/-
  The loss kernel's body at the last grid point: each accumulator takes the band's contribution and is
  then copied whole into its output block.
-/
import proofs.«125553_j27504970563869_1_alg».proof.Proof.Bits.LossRuns

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: inputs at their blocks, the accumulators at what the point before left
    (`xs8`, `xs9`), the output blocks at anything before; afterwards the accumulators and the output
    blocks at their found pieces. -/
noncomputable def kernelRun1_C (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : ¬cond1_0 i) (hc1 : cond1_1 i)
    (x1 : Vec F S128x8192 .f32) (x2 : Vec F S128x256 .bf16) (x3 : Vec F S8192x256 .bf16) (x4 : Vec F S128x1 .f32) (x5 : Vec F S1x8192 .f32) (xs8 xs9 : Vec F S1x1 .f32) :
    Σ' (L6 : List (View.Piece (Elt F) S1x1 .f32)) (L7 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩,
      ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [HS0]
    · iexists _; iexact HS0
    iexists _; iexact HS1

end Cert.Kernel.Loss

end
-- ==== Proof.Bits.LossQ.lean ====
/-
  The shares at which the loss kernel's region holds its windows' arrays. Windows 1 and 2 both read
  the normalised embeddings, so they hold the two halves of that buffer's share; every other window's
  array is held whole.
-/
import proofs.«125553_j27504970563869_1_alg».proof.Proof.Gen.Kernel.Launch

noncomputable section

namespace Cert.Kernel.LossShares

open Cert.Kernel Cert.Kernel.Gen Idealize.ShloMosaic Idealize.SL Idealize.SL.RA

/-- Window 1 the left half, window 2 the right half, every other window the full share. -/
def qs1 : Fin 7 → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨_ + 7, h⟩ => absurd h (Nat.not_lt.2 (Nat.le_add_left _ _))

end Cert.Kernel.LossShares

end
-- ==== Proof.Bits.LossPieces.lean ====
/-
  The loss kernel's region: each window's block at a grid point, read off the array as the region
  finds it (a parameter `V`), and what each kind of point leaves in the accumulators and in the output
  blocks — the pieces its run found, read back as one vector each, with the fact that they cover it.
-/
import proofs.«125553_j27504970563869_1_alg».proof.Proof.Bits.LossRunA
import proofs.«125553_j27504970563869_1_alg».proof.Proof.Bits.LossRunB
import proofs.«125553_j27504970563869_1_alg».proof.Proof.Bits.LossRunC
import proofs.«125553_j27504970563869_1_alg».proof.Proof.Bits.LossQ

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves: the found pieces read back -/

section Pieces
variable (c : Dev nD) (i : grid1.Coords) (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
variable (x1 : Vec F S128x8192 .f32) (x2 : Vec F S128x256 .bf16) (x3 : Vec F S8192x256 .bf16) (x4 : Vec F S128x1 .f32) (x5 : Vec F S1x8192 .f32)

/-- First point: the two accumulators. -/
def soutA_0 (hc0 : cond1_0 i) (hc1 : ¬cond1_1 i) : Vec F S1x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x1 x2 x3 x4 x5).1)
def soutA_1 (hc0 : cond1_0 i) (hc1 : ¬cond1_1 i) : Vec F S1x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x1 x2 x3 x4 x5).2.1)
theorem scoverA_0 (hc0 : cond1_0 i) (hc1 : ¬cond1_1 i) (y : S1x1.Idx) :
    ∃ pc ∈ (kernelRun1_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x1 x2 x3 x4 x5).1 S1x1.size (by sl_kernel_rfl) y
theorem scoverA_1 (hc0 : cond1_0 i) (hc1 : ¬cond1_1 i) (y : S1x1.Idx) :
    ∃ pc ∈ (kernelRun1_A c i arg1 harg1 arg2 harg2 arg3 harg3 arg4 harg4 arg5 harg5 arg6 harg6 arg7 harg7 arg8 harg8 arg9 harg9 hc0 hc1 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 hc1 x1 x2 x3 x4 x5).2.1 S1x1.size (by sl_kernel_rfl) y

variable (xs8 xs9 : Vec F S1x1 .f32)

/-- A middle point: the two accumulators, from what the point before left. -/
def soutB_0 (hc0 : ¬cond1_0 i) (hc1 : ¬cond1_1 i) : Vec F S1x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x1 x2 x3 x4 x5 xs8 xs9).1)
def soutB_1 (hc0 : ¬cond1_0 i) (hc1 : ¬cond1_1 i) : Vec F S1x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x1 x2 x3 x4 x5 xs8 xs9).2.1)
theorem scoverB_0 (hc0 : ¬cond1_0 i) (hc1 : ¬cond1_1 i) (y : S1x1.Idx) :
    ∃ pc ∈ (kernelRun1_B c i arg1 harg1 arg2 harg2 arg3 harg3 arg4 harg4 arg5 harg5 arg6 harg6 arg7 harg7 arg8 harg8 arg9 harg9 hc0 hc1 x1 x2 x3 x4 x5 xs8 xs9).1, y ∈ pc.1.set :=
  View.cover_of_tiledL (kernelRun1_B c i arg1 harg1 arg2 harg2 arg3 harg3 arg4 harg4 arg5 harg5 arg6 harg6 arg7 harg7 arg8 harg8 arg9 harg9 hc0 hc1 x1 x2 x3 x4 x5 xs8 xs9).1 S1x1.size (by sl_kernel_rfl) y
theorem scoverB_1 (hc0 : ¬cond1_0 i) (hc1 : ¬cond1_1 i) (y : S1x1.Idx) :
    ∃ pc ∈ (kernelRun1_B c i arg1 harg1 arg2 harg2 arg3 harg3 arg4 harg4 arg5 harg5 arg6 harg6 arg7 harg7 arg8 harg8 arg9 harg9 hc0 hc1 x1 x2 x3 x4 x5 xs8 xs9).2.1, y ∈ pc.1.set :=
  View.cover_of_tiledL (kernelRun1_B c i arg1 harg1 arg2 harg2 arg3 harg3 arg4 harg4 arg5 harg5 arg6 harg6 arg7 harg7 arg8 harg8 arg9 harg9 hc0 hc1 x1 x2 x3 x4 x5 xs8 xs9).2.1 S1x1.size (by sl_kernel_rfl) y

/-- The last point: the two output blocks and the two accumulators. -/
def outC_5 (hc0 : ¬cond1_0 i) (hc1 : cond1_1 i) : Vec F S1x1 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x1 x2 x3 x4 x5 xs8 xs9).1)
def outC_6 (hc0 : ¬cond1_0 i) (hc1 : cond1_1 i) : Vec F S1x1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x1 x2 x3 x4 x5 xs8 xs9).2.1)
def soutC_0 (hc0 : ¬cond1_0 i) (hc1 : cond1_1 i) : Vec F S1x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x1 x2 x3 x4 x5 xs8 xs9).2.2.1)
def soutC_1 (hc0 : ¬cond1_0 i) (hc1 : cond1_1 i) : Vec F S1x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x1 x2 x3 x4 x5 xs8 xs9).2.2.2.1)
theorem coverC_5 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).1 S1x1.size (by sl_kernel_rfl) y
theorem coverC_6 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.1 S1x1.size (by sl_kernel_rfl) y
theorem scoverC_0 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.2.1 S1x1.size (by sl_kernel_rfl) y
theorem scoverC_1 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.2.2.1 S1x1.size (by sl_kernel_rfl) y

end Pieces

end Cert.Kernel.Loss

end
-- ==== Proof.Bits.LossData.lean ====
/-
  What the loss kernel's region holds point by point, and its body obligation.

  The pair of accumulators after position `n` is defined by recursion on `n`: the first point's pair from
  nothing, every later point's from the pair the point before left. The region's invariant names the
  pair; the two output blocks are named at the last point, where the body copies the accumulators out.
  Stated at a parameter `V`, the buffers' contents when the region is entered.
-/
import proofs.«125553_j27504970563869_1_alg».proof.Proof.Bits.LossPieces

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.LossShares (qs1)

variable (V : (c : Dev nD) → (b : Ref sig .tc) → Buf (Elt F) ((c : Thread nD τ).loc b))

/-! ## The accumulators after each point -/

/-- The pair the first point leaves. -/
def accA (c : Dev nD) (t : Fin cfg1.N) (h0 : t.val = 0) (h1 : ¬t.val = 63) : Vec F S1x1 .f32 × Vec F S1x1 .f32 :=
  (soutA_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) ((hcond1_0 t).mpr h0) (fun h => h1 ((hcond1_1 t).mp h)),
   soutA_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) ((hcond1_0 t).mpr h0) (fun h => h1 ((hcond1_1 t).mp h)))
/-- The pair a middle point leaves, from the pair before. -/
def accB (c : Dev nD) (t : Fin cfg1.N) (h0 : ¬t.val = 0) (h1 : ¬t.val = 63) (p : Vec F S1x1 .f32 × Vec F S1x1 .f32) : Vec F S1x1 .f32 × Vec F S1x1 .f32 :=
  (soutB_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) (fun h => h1 ((hcond1_1 t).mp h)),
   soutB_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) (fun h => h1 ((hcond1_1 t).mp h)))
/-- The pair the last point leaves, from the pair before. -/
def accC (c : Dev nD) (t : Fin cfg1.N) (h0 : ¬t.val = 0) (h1 : t.val = 63) (p : Vec F S1x1 .f32 × Vec F S1x1 .f32) : Vec F S1x1 .f32 × Vec F S1x1 .f32 :=
  (soutC_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1),
   soutC_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1))
/-- The two output blocks the last point leaves. -/
def outC (c : Dev nD) (t : Fin cfg1.N) (h0 : ¬t.val = 0) (h1 : t.val = 63) (p : Vec F S1x1 .f32 × Vec F S1x1 .f32) : Vec F S1x1 .f32 × Vec F S1x1 .f32 :=
  (outC_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1),
   outC_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1))

/-- THE ACCUMULATION: the pair of accumulators after the body at position `n`. -/
def accAt (c : Dev nD) : (n : ℕ) → n < cfg1.N → Vec F S1x1 .f32 × Vec F S1x1 .f32
  | 0, hn => accA V c ⟨0, hn⟩ rfl (fun h => absurd h (by decide : ¬(0 : ℕ) = 63))
  | n + 1, hn =>
    if h1 : n + 1 = 63 then accC V c ⟨n + 1, hn⟩ (Nat.succ_ne_zero n) h1 (accAt c n (Nat.lt_of_succ_lt hn))
    else accB V c ⟨n + 1, hn⟩ (Nat.succ_ne_zero n) h1 (accAt c n (Nat.lt_of_succ_lt hn))

theorem accAt_A (c : Dev nD) (t : Fin cfg1.N) (h0 : t.val = 0) (h1 : ¬t.val = 63) : accAt V c t.val t.isLt = accA V c t h0 h1 := by
  obtain ⟨n, hn⟩ := t
  cases n with
  | zero => rfl
  | succ n => exact absurd h0 (Nat.succ_ne_zero n)
theorem accAt_B (c : Dev nD) (t : Fin cfg1.N) (h0 : ¬t.val = 0) (h1 : ¬t.val = 63) :
    accAt V c t.val t.isLt = accB V c t h0 h1 (accAt V c (t.val - 1) (Nat.lt_of_le_of_lt (Nat.sub_le _ _) t.isLt)) := by
  obtain ⟨n, hn⟩ := t
  cases n with
  | zero => exact absurd rfl h0
  | succ n => exact (dif_neg h1).trans rfl
theorem accAt_C (c : Dev nD) (t : Fin cfg1.N) (h0 : ¬t.val = 0) (h1 : t.val = 63) :
    accAt V c t.val t.isLt = accC V c t h0 h1 (accAt V c (t.val - 1) (Nat.lt_of_le_of_lt (Nat.sub_le _ _) t.isLt)) := by
  obtain ⟨n, hn⟩ := t
  cases n with
  | zero => exact absurd rfl h0
  | succ n => exact (dif_pos h1).trans rfl

/-- The two output blocks after the body at point `t`: at the last point what the body copies out; at the
    other points the windows are idle and the value is not consulted. -/
def outAt (c : Dev nD) (t : Fin cfg1.N) : Vec F S1x1 .f32 × Vec F S1x1 .f32 :=
  if h1 : t.val = 63 then
    outC V c t (by omega) h1 (accAt V c (t.val - 1) (Nat.lt_of_le_of_lt (Nat.sub_le _ _) t.isLt))
  else accAt V c t.val t.isLt

theorem outAt_C (c : Dev nD) (t : Fin cfg1.N) (h0 : ¬t.val = 0) (h1 : t.val = 63) :
    outAt V c t = outC V c t h0 h1 (accAt V c (t.val - 1) (Nat.lt_of_le_of_lt (Nat.sub_le _ _) t.isLt)) := by
  unfold outAt; exact dif_pos h1

/-! ## The region's invariant -/

/-- Before position `n`: before the first point every scoped buffer the kernel does not stage at anything;
    afterwards the two accumulators at the pair the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c n hn).1 ∗ owns (c : Thread nD τ) scM1_1 fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c n hn).1 ∗ owns (c : Thread nD τ) scM1_1 fullShare (accAt V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c (n - 1) (by omega)).1 ∗ owns (c : Thread nD τ) scM1_1 fullShare (accAt V c (n - 1) (by omega)).2) ∗ (∃ r, prngReg c r)) := by
  cases n with
  | zero => exact absurd rfl hz
  | succ n => rfl

/-! ## The proof data -/

/-- The region's proof data on core `c`: the arrays as the region finds them; after the body each input's
    buffer at its block, the two output blocks at `outAt`; the invariant `PhiS`; the twice-read array held
    in halves; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outAt V c t).1
    | ⟨6, _⟩ => (outAt V c t).2
  Φ t := PhiS V c t.val (Nat.le_of_lt_succ t.isLt)
  q := qs1
  owed _ := 0

theorem A_eq1 (c : Dev nD) (w : Fin cfg1.W) : (dat1 V c).A w = V c (Pipeline.arrRef spec1 w) := by
  dsimp only [dat1]
theorem q_eq1 (c : Dev nD) : (dat1 V c).q = qs1 := rfl
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outAt V c t).1 := by dsimp only [dat1]
theorem after1_6 (c : Dev nD) (t : Fin cfg1.N) : (dat1 V c).after 6 t = (outAt V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

/-! ## The body at any point -/

set_option maxHeartbeats 16000000 in
/-- The body at any point: the inputs' staging buffers hold their blocks; the point's position says which
    kind it is; the invariant hands the body the two accumulators at what the point before left (at
    anything at the first point) and takes them back at this point's pair; an output block is handed back
    untouched except at the last point, where it is left at what the body copies out. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · by_cases h1 : t.val = 63
    · exfalso; omega
    · -- the first point
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt_A V c t h0 h1]
      unfold accA soutA_0 soutA_1; (try dsimp only)
      rw [PhiS_castSucc V c t, PhiS_zero V c _ _ h0, PhiA1_eq]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val = 63
    · -- the last point
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outAt_C V c t h0 h1, accAt_C V c t h0 h1]
      unfold outC accC outC_5 outC_6 soutC_0 soutC_1; (try dsimp only)
      rw [PhiS_castSucc V c t, PhiS_pos V c _ _ h0]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _)
          unfold owns; iexists _; isplitr
          swap; · iexact HS1
          ipureintro; exact View.read_writes_of_cover _ _ _ _ _ (scoverC_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 c _ _ _ _ _ _ _ _ _ _ _ _ _ _ _ _ _ _ _ _ _ _ _ _ _ _ _ _)
      unfold owns; iexists _; isplitr
      swap; · iexact H6
      ipureintro; exact View.read_writes_of_cover _ _ _ _ _ (coverC_6 c _ _ _ _ _ _ _ _ _ _ _ _ _ _ _ _ _ _ _ _ _ _ _ _ _ _ _ _)
    · -- a middle point
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt_B V c t h0 h1]
      unfold accB soutB_0 soutB_1; (try dsimp only)
      rw [PhiS_castSucc V c t, PhiS_pos V c _ _ h0]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _)
          unfold owns; iexists _; isplitr
          swap; · iexact HS1
          ipureintro; exact View.read_writes_of_cover _ _ _ _ _ (scoverB_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HE0, HE1, HE2, HE3, HS0, HS1⟩, Hg⟩
  isplitl [HE0 HE1 HE2 HE3 HS0 HS1]
  · isplitl [HE0]; · iexact HE0
    isplitl [HE1]; · iexact HE1
    isplitl [HE2]; · iexact HE2
    isplitl [HE3]; · iexact HE3
    isplitl [HS0]; · iexists _; iexact HS0
    iexists _; iexact HS1
  iexact Hg

end Cert.Kernel.Loss

end
-- ==== Proof.Bits.LossShares.lean ====
/-
  One array read through two windows: how the second region's arrays are dealt out of, and returned to, a core's
  unscoped buffers.

  The region's seven windows stand on six distinct buffers: windows 1 and 2 both read the normalised embeddings.
  Each window holds its array at a share; the two windows on the common buffer hold the two halves of the full
  share, every other window the full share.  A points-to at the full share is the separating conjunction of the
  points-tos at its left and right halves, so the seven windows' arrays are exactly the six buffers, each whole
  at the full share; beside the buffers that are no window's array these are all of the core's unscoped buffers.
-/
import proofs.«125553_j27504970563869_1_alg».proof.Proof.Gen.Kernel.Launch
import proofs.«125553_j27504970563869_1_alg».proof.Proof.Bits.LossQ
import Idealize.ShloMosaic.Lib.Pipeline.Regions
import Idealize.ShloMosaic.Lib.Pipeline.RegionsLoop

noncomputable section

namespace Cert.Kernel.LossShares

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (UR sig nD τ) ℕ

/-- The buffers behind the seven windows' arrays are six. -/
theorem arrRefs1 : Finset.univ.image (Pipeline.arrRef spec1)
    = [main_arg2, main_v12, main_v5, main_v6, main_v13_0, main_v13_1].toFinset := by decide

/-- A whole buffer at the two halves of the full share is the buffer at the full share. -/
theorem halves_eq (ℓ : Loc nD τ sig) (f : Buf (Elt F) ℓ) :
    (iprop((ℓ ↦{fullShare.left} f) ∗ (ℓ ↦{fullShare.right} f)) : sProp 𝕄) = (ℓ ↦{fullShare} f) :=
  BI.Entails.antisymm (pointsTo_share (PosShare.mem_left_op_right fullShare)).2
    (pointsTo_share (PosShare.mem_left_op_right fullShare)).1

/-- The seven windows' arrays, read off a valuation of the buffers, are the six buffers behind them at that valuation,
    each whole at the full share. -/
theorem arrays_eq1 (c : Dev nD) (dat : Pipeline.Dat τ (Elt F) Unit ℕ (UR sig nD τ) ℕ cfg1 c) (hq : dat.q = qs1)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (dat.arrays G : sProp 𝕄) = Pipeline.arrBufs spec1 c V := by
  have e0 : ((cfg1.win 0).arr.view.loc (c : Thread nD τ) ↦[(cfg1.win 0).arr.view.set]{dat.share 0} G 0 : sProp 𝕄)
      = ((c : Thread nD τ).loc main_arg2 ↦{fullShare} V main_arg2) := by
    rw [hG 0, show dat.share 0 = fullShare from by unfold Pipeline.Dat.share; rw [hq]; rfl, (arr_whole1 0).set_eq_univ]
  have e1 : ((cfg1.win 1).arr.view.loc (c : Thread nD τ) ↦[(cfg1.win 1).arr.view.set]{dat.share 1} G 1 : sProp 𝕄)
      = ((c : Thread nD τ).loc main_v12 ↦{fullShare.left} V main_v12) := by
    rw [hG 1, show dat.share 1 = fullShare.left from by unfold Pipeline.Dat.share; rw [hq]; rfl, (arr_whole1 1).set_eq_univ]
  have e2 : ((cfg1.win 2).arr.view.loc (c : Thread nD τ) ↦[(cfg1.win 2).arr.view.set]{dat.share 2} G 2 : sProp 𝕄)
      = ((c : Thread nD τ).loc main_v12 ↦{fullShare.right} V main_v12) := by
    rw [hG 2, show dat.share 2 = fullShare.right from by unfold Pipeline.Dat.share; rw [hq]; rfl, (arr_whole1 2).set_eq_univ]
  have e3 : ((cfg1.win 3).arr.view.loc (c : Thread nD τ) ↦[(cfg1.win 3).arr.view.set]{dat.share 3} G 3 : sProp 𝕄)
      = ((c : Thread nD τ).loc main_v5 ↦{fullShare} V main_v5) := by
    rw [hG 3, show dat.share 3 = fullShare from by unfold Pipeline.Dat.share; rw [hq]; rfl, (arr_whole1 3).set_eq_univ]
  have e4 : ((cfg1.win 4).arr.view.loc (c : Thread nD τ) ↦[(cfg1.win 4).arr.view.set]{dat.share 4} G 4 : sProp 𝕄)
      = ((c : Thread nD τ).loc main_v6 ↦{fullShare} V main_v6) := by
    rw [hG 4, show dat.share 4 = fullShare from by unfold Pipeline.Dat.share; rw [hq]; rfl, (arr_whole1 4).set_eq_univ]
  have e5 : ((cfg1.win 5).arr.view.loc (c : Thread nD τ) ↦[(cfg1.win 5).arr.view.set]{dat.share 5} G 5 : sProp 𝕄)
      = ((c : Thread nD τ).loc main_v13_0 ↦{fullShare} V main_v13_0) := by
    rw [hG 5, show dat.share 5 = fullShare from by unfold Pipeline.Dat.share; rw [hq]; rfl, (arr_whole1 5).set_eq_univ]
  have e6 : ((cfg1.win 6).arr.view.loc (c : Thread nD τ) ↦[(cfg1.win 6).arr.view.set]{dat.share 6} G 6 : sProp 𝕄)
      = ((c : Thread nD τ).loc main_v13_1 ↦{fullShare} V main_v13_1) := by
    rw [hG 6, show dat.share 6 = fullShare from by unfold Pipeline.Dat.share; rw [hq]; rfl, (arr_whole1 6).set_eq_univ]
  unfold Pipeline.Dat.arrays Pipeline.arrBufs
  rw [bigSep_W1, bigSep_eq_bigSepL_of_eq _ arrRefs1 (by decide)]
  refine (congrArg₂ _ e0 (congrArg₂ _ e1 (congrArg₂ _ e2 (congrArg₂ _ e3 (congrArg₂ _ e4 (congrArg₂ _ e5 e6)))))).trans ?_
  refine congrArg (BI.sep _) ?_
  refine (Std.Associative.assoc (op := (BI.sep : sProp 𝕄 → _ → _)) _ _ _).symm.trans ?_
  exact congrArg (BI.sep · _) (halves_eq (F := F) ((c : Thread nD τ).loc main_v12) (V main_v12))

/-- A core's unscoped buffers are the six buffers behind the region's arrays and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY: a core's unscoped buffers at a valuation are the region's arrays at the proof data's entry contents, those
    being read off the valuation, and the buffers that are no window's array. -/
theorem arrays_of_unscopedBufs1 (c : Dev nD) (dat : Pipeline.Dat τ (Elt F) Unit ℕ (UR sig nD τ) ℕ cfg1 c) (hq : dat.q = qs1)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [unscopedBufs_split1 c V, arrays_eq1 c dat hq V (dat.arrAt · 0) (fun w => hA w)]

/-- EXIT: the region's arrays at contents `G` and the other unscoped buffers at `V` are the core's unscoped buffers at
    any valuation that has the arrays at `G` and agrees with `V` off them. -/
theorem unscopedBufs_of_arrays1 (c : Dev nD) (dat : Pipeline.Dat τ (Elt F) Unit ℕ (UR sig nD τ) ℕ cfg1 c) (hq : dat.q = qs1)
    (V V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hr : (Pipeline.unscopedRest spec1 c V : sProp 𝕄) = Pipeline.unscopedRest spec1 c V' := by
    unfold Pipeline.unscopedRest
    exact bigSep_congr fun b hb => by rw [hrest b (Finset.mem_sdiff.mp hb).2]
  rw [unscopedBufs_split1 c V', arrays_eq1 c dat hq V' G hG, hr]

end Cert.Kernel.LossShares

end
-- ==== Proof.Bits.KernelRun.lean ====
/-
  The run of the kernel program's @main from the launch to the return, at any float type `F`.

  @main is six items in order: the degree kernel's region, three stretches of host operations (the scales, the row
  norms, the normalised embeddings), the loss kernel's region, and a last stretch of two reshapes. The contents of a
  core's unscoped buffers at the seven boundaries are a fold from the launch memory: a stretch of host operations
  rewrites the buffers it writes (`StableHlo.after`), a region changes exactly its output windows' arrays, to what
  its write-backs leave (`Dat.arrAt … N`). Between two items a core holds every unscoped buffer whole at that
  boundary's contents, its generator register at some state, and owes nothing; each region splits its windows' arrays
  out of the buffers at its entry and puts them back, updated, at its exit. The loss kernel reads one array through
  two windows, so its arrays are split out at the shares `LossShares.qs1`.

  `run_all`: from any memory with zero counters every weakly fair execution of @main terminates and every unscoped
  buffer ends at the last boundary's contents `W6`. `frame`: the three arguments end as launched.
-/
import proofs.«125553_j27504970563869_1_alg».proof.Proof.Gen.Kernel.Launch
import proofs.«125553_j27504970563869_1_alg».proof.Proof.Gen.Kernel.Skeleton
import proofs.«125553_j27504970563869_1_alg».proof.Proof.Gen.Kernel.Points
import proofs.«125553_j27504970563869_1_alg».proof.Proof.Gen.Kernel.Regions
import proofs.«125553_j27504970563869_1_alg».proof.Proof.Bits.DegreeBody
import proofs.«125553_j27504970563869_1_alg».proof.Proof.Bits.LossData
import proofs.«125553_j27504970563869_1_alg».proof.Proof.Bits.LossShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references (the degree region's entry contents). -/
abbrev V0 : (c : Dev nD) → (b : Ref sig .tc) → Buf (Elt F) ((c : Thread nD τ).loc b) := fun c b => W0 m c b
/-- What the degree region leaves in its output array: the column of degrees, every block written back. -/
def o1 (c : Dev nD) : Buf (Elt F) ((c : Thread nD τ).loc main_v0) := (Deg.dat0 (V0 m) c).arrAt 1 cfg0.N
/-- After the degree region: the launch contents with the degree column updated. -/
def W1 (c : Dev nD) : Valuation τ sig (Elt F) := Function.update (W0 m c) (Proc.devRef .tc main_v0) (o1 m c)
/-- After the first stretch of host operations (the scales), -/
abbrev W2 : Dev nD → Valuation τ sig (Elt F) := fun c => StableHlo.after hostOps1 (W1 m c)
/-- after the second (the row norms), -/
abbrev W3 : Dev nD → Valuation τ sig (Elt F) := fun c => StableHlo.after hostOps1_1 (W2 m c)
/-- after the third (the normalised embeddings): the loss region's entry contents. -/
abbrev W4 : Dev nD → Valuation τ sig (Elt F) := fun c => StableHlo.after hostOps1_2 (W3 m c)
/-- The same read at the TensorCore's references. -/
abbrev V4 : (c : Dev nD) → (b : Ref sig .tc) → Buf (Elt F) ((c : Thread nD τ).loc b) := fun c b => W4 m c b
/-- What the loss region leaves in its two output arrays. -/
def o5 (c : Dev nD) : Buf (Elt F) ((c : Thread nD τ).loc main_v13_0) := (Loss.dat1 (V4 m) c).arrAt 5 cfg1.N
def o6 (c : Dev nD) : Buf (Elt F) ((c : Thread nD τ).loc main_v13_1) := (Loss.dat1 (V4 m) c).arrAt 6 cfg1.N
/-- After the loss region: its entry contents with the two results updated. -/
def W5 (c : Dev nD) : Valuation τ sig (Elt F) :=
  Function.update (Function.update (W4 m c) (Proc.devRef .tc main_v13_0) (o5 m c)) (Proc.devRef .tc main_v13_1) (o6 m c)
/-- After the last stretch of host operations: the contents at the return. -/
abbrev W6 : Dev nD → Valuation τ sig (Elt F) := fun c => StableHlo.after hostOps2 (W5 m c)

/-- The updates read back: at the updated buffer the new contents, elsewhere what was there. -/
theorem W1_v0 (c : Dev nD) : W1 m c (Proc.devRef .tc main_v0) = o1 m c := by
  unfold W1; exact Function.update_self _ _ _
theorem W1_of_ne (c : Dev nD) (b : Ref sig .tc) (hb : b ≠ main_v0) :
    W1 m c (Proc.devRef .tc b) = W0 m c (Proc.devRef .tc b) := by
  unfold W1; exact Function.update_of_ne (StableHlo.devRef_ne_of_ne hb) _ _
theorem W5_v13_1 (c : Dev nD) : W5 m c (Proc.devRef .tc main_v13_1) = o6 m c := by
  unfold W5; exact Function.update_self _ _ _
theorem W5_v13_0 (c : Dev nD) : W5 m c (Proc.devRef .tc main_v13_0) = o5 m c := by
  unfold W5
  rw [Function.update_of_ne (StableHlo.devRef_ne_of_ne (by decide : main_v13_0 ≠ main_v13_1))]
  exact Function.update_self _ _ _
theorem W5_of_ne (c : Dev nD) (b : Ref sig .tc) (h0 : b ≠ main_v13_0) (h1 : b ≠ main_v13_1) :
    W5 m c (Proc.devRef .tc b) = W4 m c (Proc.devRef .tc b) := by
  unfold W5
  rw [Function.update_of_ne (StableHlo.devRef_ne_of_ne h1), Function.update_of_ne (StableHlo.devRef_ne_of_ne h0)]
theorem W6_v14 (c : Dev nD) : W6 m c (Proc.devRef .tc main_v14) = StableHlo.after hostOps2 (W5 m c) (Proc.devRef .tc main_v14) := rfl
theorem W6_v15 (c : Dev nD) : W6 m c (Proc.devRef .tc main_v15) = StableHlo.after hostOps2 (W5 m c) (Proc.devRef .tc main_v15) := rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Deg.dat0 (V0 m) c
  | ⟨1, _⟩ => fun c => Loss.dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along;
    it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W6`, the generator register at some state. -/
abbrev Tₙ (c : Dev nD) : sProp 𝕄 := iprop(StableHlo.held (c : Thread nD τ) (Pipeline.ucRefs τ sig) (W6 m c) ∗ ∃ r, prngReg c r)

/-! ## Region 0 -/

/-- At the degree region's exit its input array holds what it held at entry (an input window never writes back, and
    the update misses it) and its output array the degree column. -/
theorem hF0 (c : Dev nD) (w : Fin cfg0.W) : (pdats m 0 c).arrAt w cfg0.N = (fun b : Ref sig .tc => W1 m c b) (Pipeline.arrRef spec0 w) := by
  match w with
  | ⟨0, _⟩ =>
    exact (((pdats m 0 c).arrAt_in 0 rfl _).trans (Deg.A_eq0 (V0 m) c 0)).trans (W1_of_ne m c main_arg2 (by decide)).symm
  | ⟨1, _⟩ => exact (W1_v0 m c).symm
/-- Every buffer that is no window's array is as at entry: the update is at a window's array. -/
theorem hrest0 (c : Dev nD) : ∀ b, b ∉ Finset.univ.image (Pipeline.arrRef spec0) → (fun b : Ref sig .tc => W1 m c b) b = V0 m c b :=
  fun b hb => W1_of_ne m c b fun e => hb (Finset.mem_image.mpr ⟨1, Finset.mem_univ _, e.symm⟩)

-- unification may unfold plain definitions in a metavariable's type (the pinned configuration at a numeral)
set_option backward.isDefEq.respectTransparency.types false in
/-- The degree region over the thread state: entered from every unscoped buffer at `W0`, left at `W1`. Its arrays are
    split out of the unscoped buffers and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At the loss region's exit each input window's array holds what it held at entry (the two updates miss it) and
    the two output arrays the two results. -/
theorem hF1 (c : Dev nD) (w : Fin cfg1.W) : (pdats m 1 c).arrAt w cfg1.N = (fun b : Ref sig .tc => W5 m c b) (Pipeline.arrRef spec1 w) := by
  match w with
  | ⟨0, _⟩ =>
    exact (((pdats m 1 c).arrAt_in 0 rfl _).trans (Loss.A_eq1 (V4 m) c 0)).trans (W5_of_ne m c main_arg2 (by decide) (by decide)).symm
  | ⟨1, _⟩ =>
    exact (((pdats m 1 c).arrAt_in 1 rfl _).trans (Loss.A_eq1 (V4 m) c 1)).trans (W5_of_ne m c main_v12 (by decide) (by decide)).symm
  | ⟨2, _⟩ =>
    exact (((pdats m 1 c).arrAt_in 2 rfl _).trans (Loss.A_eq1 (V4 m) c 2)).trans (W5_of_ne m c main_v12 (by decide) (by decide)).symm
  | ⟨3, _⟩ =>
    exact (((pdats m 1 c).arrAt_in 3 rfl _).trans (Loss.A_eq1 (V4 m) c 3)).trans (W5_of_ne m c main_v5 (by decide) (by decide)).symm
  | ⟨4, _⟩ =>
    exact (((pdats m 1 c).arrAt_in 4 rfl _).trans (Loss.A_eq1 (V4 m) c 4)).trans (W5_of_ne m c main_v6 (by decide) (by decide)).symm
  | ⟨5, _⟩ => exact (W5_v13_0 m c).symm
  | ⟨6, _⟩ => exact (W5_v13_1 m c).symm
/-- Every buffer that is no window's array is as at entry: both updates are at windows' arrays. -/
theorem hrest1 (c : Dev nD) : ∀ b, b ∉ Finset.univ.image (Pipeline.arrRef spec1) → (fun b : Ref sig .tc => W5 m c b) b = V4 m c b :=
  fun b hb => W5_of_ne m c b (fun e => hb (Finset.mem_image.mpr ⟨5, Finset.mem_univ _, e.symm⟩))
    (fun e => hb (Finset.mem_image.mpr ⟨6, Finset.mem_univ _, e.symm⟩))

-- as above
set_option backward.isDefEq.respectTransparency.types false in
/-- The loss region over the thread state: entered from every unscoped buffer at `W4`, left at `W5`. Two of its input
    windows read one array, so the arrays are split out of the unscoped buffers at the shares `qs1` (that array in two
    halves) and put back whole; the invariant before the first point is the class invariant, and after the last point
    it gives the scoped buffers back with the accumulators' contents forgotten. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := LossShares.arrays_of_unscopedBufs1 c (pdats m 1 c) (Loss.q_eq1 (V4 m) c) (V4 m c) (fun w => Loss.A_eq1 (V4 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Loss.hin1 (V4 m) c
    unfold Pipeline.ΦA at h
    rw [show (pdats m 1 c).Φ 0 = (Loss.dat1 (V4 m) c).Φ 0 from rfl]
    iintro ⟨Hp, -, Hr⟩
    iapply h
    isplitl [Hr]; · iexact Hr
    iexact Hp
  hout c := by
    rw [Pipeline.ownSems0_none]
    have h := Loss.hout1 (V4 m) c
    unfold Pipeline.ΦA at h
    rw [show (pdats m 1 c).Φ (Fin.last _) = (Loss.dat1 (V4 m) c).Φ (Fin.last cfg1.N) from rfl]
    iintro H
    ihave H2 := h $$ H
    icases H2 with ⟨Hr, Hp⟩
    isplitl [Hp]; · iexact Hp
    isplitr; · iempintro
    iexact Hr
  hexit c := by
    have hjoin := LossShares.unscopedBufs_of_arrays1 c (pdats m 1 c) (Loss.q_eq1 (V4 m) c)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

-- as above
set_option backward.isDefEq.respectTransparency.types false in
/-- From any memory with zero counters, every weakly fair execution of @main on the TensorCores terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The arguments end as launched -/

/-- No stretch of host operations writes an argument and no region changes one: the fold at an argument's buffer walks
    back to the launch memory. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide) (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide) (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide) (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-! ## The frame -/

/-- Every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c)⟩) (run_all m ρ)

end Cert.Kernel.Run

end
-- ==== Proof.DegreeBody.lean ====
/- The first kernel region of the program (custom_call 0, the row-degree kernel), at a parameter V:
   the buffer contents when the region is entered. Each of the 32 grid points loads one whole [256, 8192] block
   of the adjacency array, sums every row along the lanes from the zero word, casts the [256] vector of sums to
   the column [256, 1], and stores it whole into the output window's block. This file states, generically in the
   float type F, each window's block at a point, what the body leaves in the output window's buffer, the body's
   triple, the pipeline's proof data and the body obligation at every point. It uses no fact about a particular F. -/
import proofs.«125553_j27504970563869_1_alg».proof.Proof.Gen.KernelIdeal.Launch
import proofs.«125553_j27504970563869_1_alg».proof.Proof.Gen.KernelIdeal.Skeleton
import proofs.«125553_j27504970563869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Deg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is V's and whose body leaves the block in place: the window is uncut and never idle, and an
    unfetched point has the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input block, as the one load reads it. -/
abbrev r0_0 : Rect S256x8192 := Rect.unit (s := S256x8192) ![0, 0] S256x8192.size inb_S256x8192_S256x8192_0_0
/-- The whole output block, as the one store writes it. -/
abbrev r0_1 : Rect S256x1 := Rect.unit (s := S256x1) ![0, 0] S256x1.size inb_S256x1_S256x1_0_0

/-! ## What the body leaves in the output window's buffer -/

/-- The output window's staging buffer after the body, from the input window's block: its one store, whose payload
    is the column of row sums of the block. -/
def out0_1 (x0 : Vec F S256x8192 .f32) : Vec F S256x1 .f32 :=
  View.canon [⟨r0_1, k0_pay1 (View.ld x0 r0_0)⟩]

/-- The one store tiles the buffer, so it covers it. -/
theorem cover0_1 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the input's at read contents x0 and the output's at anything, runs to
    the continuation holding the input's as it was and the output's at out0_1 of the input's: the load of the output
    block before the store reads whatever is there and its value is not used. -/
theorem sound_kernel0 (c : Dev nD) (E : Set ℕ) (i : grid0.Coords) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core c: the arrays as the region finds them (V); after the body at point t
    the input's buffer at its block and the output's at out0_1 of the input block; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Deg

end
-- ==== Proof.LossRuns.lean ====
/-
  The loss kernel's grid of 64 points, case by case.

  The body zeroes its two one-element accumulators at the first point only, adds the band's
  contribution to each at every point, and copies them into the two output blocks at the last point only.
  So there are three kinds of point: the first (zeroing, no copy out), the middle ones (neither) and the
  last (copy out, no zeroing). This module decides the two conditions over the grid, records where the
  two output windows are idle, and names the staging and accumulator memrefs the body is run on.
-/
import proofs.«125553_j27504970563869_1_alg».proof.Proof.Gen.KernelIdeal.Launch
import proofs.«125553_j27504970563869_1_alg».proof.Proof.Gen.KernelIdeal.Skeleton
import proofs.«125553_j27504970563869_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- "This is the first point": the body's first conditional, from the grid coordinate. -/
abbrev cond1_0 (i : grid1.Coords) : Prop :=
  (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- "This is the last point": the body's second conditional. -/
abbrev cond1_1 (i : grid1.Coords) : Prop := k1_cond2 i = 1#1
/-- It holds at point 63 only. -/
theorem hcond1_1 : ∀ t : Fin cfg1.N, cond1_1 (grid1.coords t) ↔ t.val = 63 :=
  (by decide +kernel : ∀ t : Fin grid1.N, cond1_1 (grid1.coords t) ↔ t.val = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last point nothing is stored into the first output block, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- The same for the second output block. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body runs on -/

abbrev ms1_0 (t : Fin cfg1.N) : Memref sig .tc .vmem S128x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8192 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x1 .f32 := Memref.whole cc1_scratch0
abbrev scM1_1 : Memref sig .tc .vmem S1x1 .f32 := Memref.whole cc1_scratch1
/-- Views through which the accumulators' and the output blocks' contents are stated. -/
abbrev VS1_0 : View sig .tc .vmem S1x1 .f32 := scM1_0.view
abbrev VS1_1 : View sig .tc .vmem S1x1 .f32 := scM1_1.view
abbrev VO1_5 : View sig .tc .vmem S1x1 .f32 := (Memref.whole cc1_stg5_0 : Memref sig .tc .vmem S1x1 .f32).view
abbrev VO1_6 : View sig .tc .vmem S1x1 .f32 := (Memref.whole cc1_stg6_0 : Memref sig .tc .vmem S1x1 .f32).view

/-- The other region's staging buffers, each at some contents: scoped buffers this kernel never names. -/
def otherStage (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- What the region hands the body besides the windows: the other region's staging buffers and the two
    accumulators, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Loss

end
-- ==== Proof.LossRunA.lean ====
/-
  The loss kernel's body at the first grid point: both accumulators are zeroed, then the band's two
  contributions are added; the output blocks are not touched. The run finds, as pieces, what the two
  accumulators hold afterwards.
-/
import proofs.«125553_j27504970563869_1_alg».proof.Proof.LossRuns

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- The body at the first point: inputs at their blocks, the output blocks handed back untouched, the
    accumulators at anything before and at their found pieces after. -/
noncomputable def kernelRun1_A (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : cond1_0 i) (hc1 : ¬cond1_1 i)
    (x1 : Vec F S128x8192 .f32) (x2 : Vec F S128x256 .bf16) (x3 : Vec F S8192x256 .bf16) (x4 : Vec F S128x1 .f32) (x5 : Vec F S1x8192 .f32) :
    Σ' (LS0 : List (View.Piece (Elt F) S1x1 .f32)), { LS1 : List (View.Piece (Elt F) S1x1 .f32) //
      ∀ (xi6 xi7 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xi6 ∗ owns (c : Thread nD τ) arg7 fullShare xi7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, fun xi6 xi7 E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%ds0, %fs0, -, HS0⟩, ⟨%ds1, %fs1, -, HS1⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]
    · iexists _; iexact HS0
    iexists _; iexact HS1

end Cert.KernelIdeal.Loss

end
-- ==== Proof.LossRunB.lean ====
/-
  The loss kernel's body at a middle grid point: nothing is zeroed and nothing copied out; each
  accumulator, holding what the point before left, takes the band's contribution.
-/
import proofs.«125553_j27504970563869_1_alg».proof.Proof.LossRuns

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point: inputs at their blocks, the output blocks handed back untouched, the
    accumulators at what the point before left (`xs8`, `xs9`) before and at their found pieces after. -/
noncomputable def kernelRun1_B (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : ¬cond1_0 i) (hc1 : ¬cond1_1 i)
    (x1 : Vec F S128x8192 .f32) (x2 : Vec F S128x256 .bf16) (x3 : Vec F S8192x256 .bf16) (x4 : Vec F S128x1 .f32) (x5 : Vec F S1x8192 .f32) (xs8 xs9 : Vec F S1x1 .f32) :
    Σ' (LS0 : List (View.Piece (Elt F) S1x1 .f32)), { LS1 : List (View.Piece (Elt F) S1x1 .f32) //
      ∀ (xi6 xi7 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xi6 ∗ owns (c : Thread nD τ) arg7 fullShare xi7
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
                ∗ owns (c : Thread nD τ) arg6 fullShare xi6 ∗ owns (c : Thread nD τ) arg7 fullShare xi7
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, fun xi6 xi7 E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
      ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [HS0]
    · iexists _; iexact HS0
    iexists _; iexact HS1

end Cert.KernelIdeal.Loss

end
-- ==== Proof.LossRunC.lean ====
/-
  The loss kernel's body at the last grid point: each accumulator takes the band's contribution and is
  then copied whole into its output block.
-/
import proofs.«125553_j27504970563869_1_alg».proof.Proof.LossRuns

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: inputs at their blocks, the accumulators at what the point before left
    (`xs8`, `xs9`), the output blocks at anything before; afterwards the accumulators and the output
    blocks at their found pieces. -/
noncomputable def kernelRun1_C (c : Dev nD) (i : grid1.Coords)
    (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (hc0 : ¬cond1_0 i) (hc1 : cond1_1 i)
    (x1 : Vec F S128x8192 .f32) (x2 : Vec F S128x256 .bf16) (x3 : Vec F S8192x256 .bf16) (x4 : Vec F S128x1 .f32) (x5 : Vec F S1x8192 .f32) (xs8 xs9 : Vec F S1x1 .f32) :
    Σ' (L6 : List (View.Piece (Elt F) S1x1 .f32)) (L7 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ owns (c : Thread nD τ) arg8 fullShare xs8 ∗ owns (c : Thread nD τ) arg9 fullShare xs9
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E
              (cc1__loss_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc1__loss_kernel_eq_skeleton]; unfold cc1__loss_kernel_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩,
      ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hf4; obtain rfl := harg5.eq_unread hf5
    obtain rfl := harg8.eq_unread hfs0; obtain rfl := harg9.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [HS0]
    · iexists _; iexact HS0
    iexists _; iexact HS1

end Cert.KernelIdeal.Loss

end
-- ==== Proof.LossQ.lean ====
/-
  The shares at which the loss kernel's region holds its windows' arrays. Windows 1 and 2 both read
  the normalised embeddings, so they hold the two halves of that buffer's share; every other window's
  array is held whole.
-/
import proofs.«125553_j27504970563869_1_alg».proof.Proof.Gen.KernelIdeal.Launch

noncomputable section

namespace Cert.KernelIdeal.LossShares

open Cert.KernelIdeal Cert.KernelIdeal.Gen Idealize.ShloMosaic Idealize.SL Idealize.SL.RA

/-- Window 1 the left half, window 2 the right half, every other window the full share. -/
def qs1 : Fin 7 → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨_ + 7, h⟩ => absurd h (Nat.not_lt.2 (Nat.le_add_left _ _))

end Cert.KernelIdeal.LossShares

end
-- ==== Proof.LossPieces.lean ====
/-
  The loss kernel's region: each window's block at a grid point, read off the array as the region
  finds it (a parameter `V`), and what each kind of point leaves in the accumulators and in the output
  blocks — the pieces its run found, read back as one vector each, with the fact that they cover it.
-/
import proofs.«125553_j27504970563869_1_alg».proof.Proof.LossRunA
import proofs.«125553_j27504970563869_1_alg».proof.Proof.LossRunB
import proofs.«125553_j27504970563869_1_alg».proof.Proof.LossRunC
import proofs.«125553_j27504970563869_1_alg».proof.Proof.LossQ

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not
    (an unfetched window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each kind of point leaves: the found pieces read back -/

section Pieces
variable (c : Dev nD) (i : grid1.Coords) (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
variable (x1 : Vec F S128x8192 .f32) (x2 : Vec F S128x256 .bf16) (x3 : Vec F S8192x256 .bf16) (x4 : Vec F S128x1 .f32) (x5 : Vec F S1x8192 .f32)

/-- First point: the two accumulators. -/
def soutA_0 (hc0 : cond1_0 i) (hc1 : ¬cond1_1 i) : Vec F S1x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 x1 x2 x3 x4 x5).1)
def soutA_1 (hc0 : cond1_0 i) (hc1 : ¬cond1_1 i) : Vec F S1x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x1 x2 x3 x4 x5).2.1)
theorem scoverA_0 (hc0 : cond1_0 i) (hc1 : ¬cond1_1 i) (y : S1x1.Idx) :
    ∃ pc ∈ (kernelRun1_A c i arg1 harg1 arg2 harg2 arg3 harg3 arg4 harg4 arg5 harg5 arg6 harg6 arg7 harg7 arg8 harg8 arg9 harg9 hc0 hc1 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 hc1 x1 x2 x3 x4 x5).1 S1x1.size (by sl_kernel_rfl) y
theorem scoverA_1 (hc0 : cond1_0 i) (hc1 : ¬cond1_1 i) (y : S1x1.Idx) :
    ∃ pc ∈ (kernelRun1_A c i arg1 harg1 arg2 harg2 arg3 harg3 arg4 harg4 arg5 harg5 arg6 harg6 arg7 harg7 arg8 harg8 arg9 harg9 hc0 hc1 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 hc1 x1 x2 x3 x4 x5).2.1 S1x1.size (by sl_kernel_rfl) y

variable (xs8 xs9 : Vec F S1x1 .f32)

/-- A middle point: the two accumulators, from what the point before left. -/
def soutB_0 (hc0 : ¬cond1_0 i) (hc1 : ¬cond1_1 i) : Vec F S1x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 x1 x2 x3 x4 x5 xs8 xs9).1)
def soutB_1 (hc0 : ¬cond1_0 i) (hc1 : ¬cond1_1 i) : Vec F S1x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x1 x2 x3 x4 x5 xs8 xs9).2.1)
theorem scoverB_0 (hc0 : ¬cond1_0 i) (hc1 : ¬cond1_1 i) (y : S1x1.Idx) :
    ∃ pc ∈ (kernelRun1_B c i arg1 harg1 arg2 harg2 arg3 harg3 arg4 harg4 arg5 harg5 arg6 harg6 arg7 harg7 arg8 harg8 arg9 harg9 hc0 hc1 x1 x2 x3 x4 x5 xs8 xs9).1, y ∈ pc.1.set :=
  View.cover_of_tiledL (kernelRun1_B c i arg1 harg1 arg2 harg2 arg3 harg3 arg4 harg4 arg5 harg5 arg6 harg6 arg7 harg7 arg8 harg8 arg9 harg9 hc0 hc1 x1 x2 x3 x4 x5 xs8 xs9).1 S1x1.size (by sl_kernel_rfl) y
theorem scoverB_1 (hc0 : ¬cond1_0 i) (hc1 : ¬cond1_1 i) (y : S1x1.Idx) :
    ∃ pc ∈ (kernelRun1_B c i arg1 harg1 arg2 harg2 arg3 harg3 arg4 harg4 arg5 harg5 arg6 harg6 arg7 harg7 arg8 harg8 arg9 harg9 hc0 hc1 x1 x2 x3 x4 x5 xs8 xs9).2.1, y ∈ pc.1.set :=
  View.cover_of_tiledL (kernelRun1_B c i arg1 harg1 arg2 harg2 arg3 harg3 arg4 harg4 arg5 harg5 arg6 harg6 arg7 harg7 arg8 harg8 arg9 harg9 hc0 hc1 x1 x2 x3 x4 x5 xs8 xs9).2.1 S1x1.size (by sl_kernel_rfl) y

/-- The last point: the two output blocks and the two accumulators. -/
def outC_5 (hc0 : ¬cond1_0 i) (hc1 : cond1_1 i) : Vec F S1x1 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x1 x2 x3 x4 x5 xs8 xs9).1)
def outC_6 (hc0 : ¬cond1_0 i) (hc1 : cond1_1 i) : Vec F S1x1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 x1 x2 x3 x4 x5 xs8 xs9).2.1)
def soutC_0 (hc0 : ¬cond1_0 i) (hc1 : cond1_1 i) : Vec F S1x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 x1 x2 x3 x4 x5 xs8 xs9).2.2.1)
def soutC_1 (hc0 : ¬cond1_0 i) (hc1 : cond1_1 i) : Vec F S1x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x1 x2 x3 x4 x5 xs8 xs9).2.2.2.1)
theorem coverC_5 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).1 S1x1.size (by sl_kernel_rfl) y
theorem coverC_6 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.1 S1x1.size (by sl_kernel_rfl) y
theorem scoverC_0 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.2.1 S1x1.size (by sl_kernel_rfl) y
theorem scoverC_1 (hc0 : ¬cond1_0 i) (hc1 : cond1_1 i) (y : S1x1.Idx) :
    ∃ pc ∈ (kernelRun1_C c i arg1 harg1 arg2 harg2 arg3 harg3 arg4 harg4 arg5 harg5 arg6 harg6 arg7 harg7 arg8 harg8 arg9 harg9 hc0 hc1 x1 x2 x3 x4 x5 xs8 xs9).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x1 x2 x3 x4 x5 xs8 xs9).2.2.2.1 S1x1.size (by sl_kernel_rfl) y

end Pieces

end Cert.KernelIdeal.Loss

end
-- ==== Proof.LossData.lean ====
/-
  What the loss kernel's region holds point by point, and its body obligation.

  The pair of accumulators after position `n` is defined by recursion on `n`: the first point's pair from
  nothing, every later point's from the pair the point before left. The region's invariant names the
  pair; the two output blocks are named at the last point, where the body copies the accumulators out.
  Stated at a parameter `V`, the buffers' contents when the region is entered.
-/
import proofs.«125553_j27504970563869_1_alg».proof.Proof.LossPieces

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.LossShares (qs1)

variable (V : (c : Dev nD) → (b : Ref sig .tc) → Buf (Elt F) ((c : Thread nD τ).loc b))

/-! ## The accumulators after each point -/

/-- The pair the first point leaves. -/
def accA (c : Dev nD) (t : Fin cfg1.N) (h0 : t.val = 0) (h1 : ¬t.val = 63) : Vec F S1x1 .f32 × Vec F S1x1 .f32 :=
  (soutA_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) ((hcond1_0 t).mpr h0) (fun h => h1 ((hcond1_1 t).mp h)),
   soutA_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) ((hcond1_0 t).mpr h0) (fun h => h1 ((hcond1_1 t).mp h)))
/-- The pair a middle point leaves, from the pair before. -/
def accB (c : Dev nD) (t : Fin cfg1.N) (h0 : ¬t.val = 0) (h1 : ¬t.val = 63) (p : Vec F S1x1 .f32 × Vec F S1x1 .f32) : Vec F S1x1 .f32 × Vec F S1x1 .f32 :=
  (soutB_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) (fun h => h1 ((hcond1_1 t).mp h)),
   soutB_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) (fun h => h1 ((hcond1_1 t).mp h)))
/-- The pair the last point leaves, from the pair before. -/
def accC (c : Dev nD) (t : Fin cfg1.N) (h0 : ¬t.val = 0) (h1 : t.val = 63) (p : Vec F S1x1 .f32 × Vec F S1x1 .f32) : Vec F S1x1 .f32 × Vec F S1x1 .f32 :=
  (soutC_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1),
   soutC_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1))
/-- The two output blocks the last point leaves. -/
def outC (c : Dev nD) (t : Fin cfg1.N) (h0 : ¬t.val = 0) (h1 : t.val = 63) (p : Vec F S1x1 .f32 × Vec F S1x1 .f32) : Vec F S1x1 .f32 × Vec F S1x1 .f32 :=
  (outC_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1),
   outC_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 (fun h => h0 ((hcond1_0 t).mp h)) ((hcond1_1 t).mpr h1))

/-- THE ACCUMULATION: the pair of accumulators after the body at position `n`. -/
def accAt (c : Dev nD) : (n : ℕ) → n < cfg1.N → Vec F S1x1 .f32 × Vec F S1x1 .f32
  | 0, hn => accA V c ⟨0, hn⟩ rfl (fun h => absurd h (by decide : ¬(0 : ℕ) = 63))
  | n + 1, hn =>
    if h1 : n + 1 = 63 then accC V c ⟨n + 1, hn⟩ (Nat.succ_ne_zero n) h1 (accAt c n (Nat.lt_of_succ_lt hn))
    else accB V c ⟨n + 1, hn⟩ (Nat.succ_ne_zero n) h1 (accAt c n (Nat.lt_of_succ_lt hn))

theorem accAt_A (c : Dev nD) (t : Fin cfg1.N) (h0 : t.val = 0) (h1 : ¬t.val = 63) : accAt V c t.val t.isLt = accA V c t h0 h1 := by
  obtain ⟨n, hn⟩ := t
  cases n with
  | zero => rfl
  | succ n => exact absurd h0 (Nat.succ_ne_zero n)
theorem accAt_B (c : Dev nD) (t : Fin cfg1.N) (h0 : ¬t.val = 0) (h1 : ¬t.val = 63) :
    accAt V c t.val t.isLt = accB V c t h0 h1 (accAt V c (t.val - 1) (Nat.lt_of_le_of_lt (Nat.sub_le _ _) t.isLt)) := by
  obtain ⟨n, hn⟩ := t
  cases n with
  | zero => exact absurd rfl h0
  | succ n => exact (dif_neg h1).trans rfl
theorem accAt_C (c : Dev nD) (t : Fin cfg1.N) (h0 : ¬t.val = 0) (h1 : t.val = 63) :
    accAt V c t.val t.isLt = accC V c t h0 h1 (accAt V c (t.val - 1) (Nat.lt_of_le_of_lt (Nat.sub_le _ _) t.isLt)) := by
  obtain ⟨n, hn⟩ := t
  cases n with
  | zero => exact absurd rfl h0
  | succ n => exact (dif_pos h1).trans rfl

/-- The two output blocks after the body at point `t`: at the last point what the body copies out; at the
    other points the windows are idle and the value is not consulted. -/
def outAt (c : Dev nD) (t : Fin cfg1.N) : Vec F S1x1 .f32 × Vec F S1x1 .f32 :=
  if h1 : t.val = 63 then
    outC V c t (by omega) h1 (accAt V c (t.val - 1) (Nat.lt_of_le_of_lt (Nat.sub_le _ _) t.isLt))
  else accAt V c t.val t.isLt

theorem outAt_C (c : Dev nD) (t : Fin cfg1.N) (h0 : ¬t.val = 0) (h1 : t.val = 63) :
    outAt V c t = outC V c t h0 h1 (accAt V c (t.val - 1) (Nat.lt_of_le_of_lt (Nat.sub_le _ _) t.isLt)) := by
  unfold outAt; exact dif_pos h1

/-! ## The region's invariant -/

/-- Before position `n`: before the first point every scoped buffer the kernel does not stage at anything;
    afterwards the two accumulators at the pair the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c n hn).1 ∗ owns (c : Thread nD τ) scM1_1 fullShare (accAt V c n hn).2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c n hn).1 ∗ owns (c : Thread nD τ) scM1_1 fullShare (accAt V c n hn).2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ owns (c : Thread nD τ) scM1_0 fullShare (accAt V c (n - 1) (by omega)).1 ∗ owns (c : Thread nD τ) scM1_1 fullShare (accAt V c (n - 1) (by omega)).2) ∗ (∃ r, prngReg c r)) := by
  cases n with
  | zero => exact absurd rfl hz
  | succ n => rfl

/-! ## The proof data -/

/-- The region's proof data on core `c`: the arrays as the region finds them; after the body each input's
    buffer at its block, the two output blocks at `outAt`; the invariant `PhiS`; the twice-read array held
    in halves; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outAt V c t).1
    | ⟨6, _⟩ => (outAt V c t).2
  Φ t := PhiS V c t.val (Nat.le_of_lt_succ t.isLt)
  q := qs1
  owed _ := 0

theorem A_eq1 (c : Dev nD) (w : Fin cfg1.W) : (dat1 V c).A w = V c (Pipeline.arrRef spec1 w) := by
  dsimp only [dat1]
theorem q_eq1 (c : Dev nD) : (dat1 V c).q = qs1 := rfl
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outAt V c t).1 := by dsimp only [dat1]
theorem after1_6 (c : Dev nD) (t : Fin cfg1.N) : (dat1 V c).after 6 t = (outAt V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

/-! ## The body at any point -/

set_option maxHeartbeats 16000000 in
/-- The body at any point: the inputs' staging buffers hold their blocks; the point's position says which
    kind it is; the invariant hands the body the two accumulators at what the point before left (at
    anything at the first point) and takes them back at this point's pair; an output block is handed back
    untouched except at the last point, where it is left at what the body copies out. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · by_cases h1 : t.val = 63
    · exfalso; omega
    · -- the first point
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt_A V c t h0 h1]
      unfold accA soutA_0 soutA_1; (try dsimp only)
      rw [PhiS_castSucc V c t, PhiS_zero V c _ _ h0, PhiA1_eq]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _)
          unfold owns; iexists _; isplitr
          swap; · iexact HS1
          ipureintro; exact View.read_writes_of_cover _ _ _ _ _ (scoverA_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · by_cases h1 : t.val = 63
    · -- the last point
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outAt_C V c t h0 h1, accAt_C V c t h0 h1]
      unfold outC accC outC_5 outC_6 soutC_0 soutC_1; (try dsimp only)
      rw [PhiS_castSucc V c t, PhiS_pos V c _ _ h0]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _)
          unfold owns; iexists _; isplitr
          swap; · iexact HS1
          ipureintro; exact View.read_writes_of_cover _ _ _ _ _ (scoverC_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverC_5 c _ _ _ _ _ _ _ _ _ _ _ _ _ _ _ _ _ _ _ _ _ _ _ _ _ _ _ _)
      unfold owns; iexists _; isplitr
      swap; · iexact H6
      ipureintro; exact View.read_writes_of_cover _ _ _ _ _ (coverC_6 c _ _ _ _ _ _ _ _ _ _ _ _ _ _ _ _ _ _ _ _ _ _ _ _ _ _ _ _)
    · -- a middle point
      rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [accAt_B V c t h0 h1]
      unfold accB soutB_0 soutB_1; (try dsimp only)
      rw [PhiS_castSucc V c t, PhiS_pos V c _ _ h0]
      iintro ⟨⟨⟨HE0, HE1, HE2, HE3, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HE0 HE1 HE2 HE3 HS0 HS1 Hg]
      · isplitl [HE0 HE1 HE2 HE3 HS0 HS1]
        · isplitl [HE0]; · iexact HE0
          isplitl [HE1]; · iexact HE1
          isplitl [HE2]; · iexact HE2
          isplitl [HE3]; · iexact HE3
          isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _)
          unfold owns; iexists _; isplitr
          swap; · iexact HS1
          ipureintro; exact View.read_writes_of_cover _ _ _ _ _ (scoverB_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped buffers back, the accumulators' contents forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HE0, HE1, HE2, HE3, HS0, HS1⟩, Hg⟩
  isplitl [HE0 HE1 HE2 HE3 HS0 HS1]
  · isplitl [HE0]; · iexact HE0
    isplitl [HE1]; · iexact HE1
    isplitl [HE2]; · iexact HE2
    isplitl [HE3]; · iexact HE3
    isplitl [HS0]; · iexists _; iexact HS0
    iexists _; iexact HS1
  iexact Hg

end Cert.KernelIdeal.Loss

end
-- ==== Proof.LossShares.lean ====
/-
  One array read through two windows: how the second region's arrays are dealt out of, and returned to, a core's
  unscoped buffers.

  The region's seven windows stand on six distinct buffers: windows 1 and 2 both read the normalised embeddings.
  Each window holds its array at a share; the two windows on the common buffer hold the two halves of the full
  share, every other window the full share.  A points-to at the full share is the separating conjunction of the
  points-tos at its left and right halves, so the seven windows' arrays are exactly the six buffers, each whole
  at the full share; beside the buffers that are no window's array these are all of the core's unscoped buffers.
-/
import proofs.«125553_j27504970563869_1_alg».proof.Proof.Gen.KernelIdeal.Launch
import proofs.«125553_j27504970563869_1_alg».proof.Proof.LossQ
import Idealize.ShloMosaic.Lib.Pipeline.Regions
import Idealize.ShloMosaic.Lib.Pipeline.RegionsLoop

noncomputable section

namespace Cert.KernelIdeal.LossShares

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (UR sig nD τ) ℕ

/-- The buffers behind the seven windows' arrays are six. -/
theorem arrRefs1 : Finset.univ.image (Pipeline.arrRef spec1)
    = [main_arg2, main_v12, main_v5, main_v6, main_v13_0, main_v13_1].toFinset := by decide

/-- A whole buffer at the two halves of the full share is the buffer at the full share. -/
theorem halves_eq (ℓ : Loc nD τ sig) (f : Buf (Elt F) ℓ) :
    (iprop((ℓ ↦{fullShare.left} f) ∗ (ℓ ↦{fullShare.right} f)) : sProp 𝕄) = (ℓ ↦{fullShare} f) :=
  BI.Entails.antisymm (pointsTo_share (PosShare.mem_left_op_right fullShare)).2
    (pointsTo_share (PosShare.mem_left_op_right fullShare)).1

/-- The seven windows' arrays, read off a valuation of the buffers, are the six buffers behind them at that valuation,
    each whole at the full share. -/
theorem arrays_eq1 (c : Dev nD) (dat : Pipeline.Dat τ (Elt F) Unit ℕ (UR sig nD τ) ℕ cfg1 c) (hq : dat.q = qs1)
    (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (dat.arrays G : sProp 𝕄) = Pipeline.arrBufs spec1 c V := by
  have e0 : ((cfg1.win 0).arr.view.loc (c : Thread nD τ) ↦[(cfg1.win 0).arr.view.set]{dat.share 0} G 0 : sProp 𝕄)
      = ((c : Thread nD τ).loc main_arg2 ↦{fullShare} V main_arg2) := by
    rw [hG 0, show dat.share 0 = fullShare from by unfold Pipeline.Dat.share; rw [hq]; rfl, (arr_whole1 0).set_eq_univ]
  have e1 : ((cfg1.win 1).arr.view.loc (c : Thread nD τ) ↦[(cfg1.win 1).arr.view.set]{dat.share 1} G 1 : sProp 𝕄)
      = ((c : Thread nD τ).loc main_v12 ↦{fullShare.left} V main_v12) := by
    rw [hG 1, show dat.share 1 = fullShare.left from by unfold Pipeline.Dat.share; rw [hq]; rfl, (arr_whole1 1).set_eq_univ]
  have e2 : ((cfg1.win 2).arr.view.loc (c : Thread nD τ) ↦[(cfg1.win 2).arr.view.set]{dat.share 2} G 2 : sProp 𝕄)
      = ((c : Thread nD τ).loc main_v12 ↦{fullShare.right} V main_v12) := by
    rw [hG 2, show dat.share 2 = fullShare.right from by unfold Pipeline.Dat.share; rw [hq]; rfl, (arr_whole1 2).set_eq_univ]
  have e3 : ((cfg1.win 3).arr.view.loc (c : Thread nD τ) ↦[(cfg1.win 3).arr.view.set]{dat.share 3} G 3 : sProp 𝕄)
      = ((c : Thread nD τ).loc main_v5 ↦{fullShare} V main_v5) := by
    rw [hG 3, show dat.share 3 = fullShare from by unfold Pipeline.Dat.share; rw [hq]; rfl, (arr_whole1 3).set_eq_univ]
  have e4 : ((cfg1.win 4).arr.view.loc (c : Thread nD τ) ↦[(cfg1.win 4).arr.view.set]{dat.share 4} G 4 : sProp 𝕄)
      = ((c : Thread nD τ).loc main_v6 ↦{fullShare} V main_v6) := by
    rw [hG 4, show dat.share 4 = fullShare from by unfold Pipeline.Dat.share; rw [hq]; rfl, (arr_whole1 4).set_eq_univ]
  have e5 : ((cfg1.win 5).arr.view.loc (c : Thread nD τ) ↦[(cfg1.win 5).arr.view.set]{dat.share 5} G 5 : sProp 𝕄)
      = ((c : Thread nD τ).loc main_v13_0 ↦{fullShare} V main_v13_0) := by
    rw [hG 5, show dat.share 5 = fullShare from by unfold Pipeline.Dat.share; rw [hq]; rfl, (arr_whole1 5).set_eq_univ]
  have e6 : ((cfg1.win 6).arr.view.loc (c : Thread nD τ) ↦[(cfg1.win 6).arr.view.set]{dat.share 6} G 6 : sProp 𝕄)
      = ((c : Thread nD τ).loc main_v13_1 ↦{fullShare} V main_v13_1) := by
    rw [hG 6, show dat.share 6 = fullShare from by unfold Pipeline.Dat.share; rw [hq]; rfl, (arr_whole1 6).set_eq_univ]
  unfold Pipeline.Dat.arrays Pipeline.arrBufs
  rw [bigSep_W1, bigSep_eq_bigSepL_of_eq _ arrRefs1 (by decide)]
  refine (congrArg₂ _ e0 (congrArg₂ _ e1 (congrArg₂ _ e2 (congrArg₂ _ e3 (congrArg₂ _ e4 (congrArg₂ _ e5 e6)))))).trans ?_
  refine congrArg (BI.sep _) ?_
  refine (Std.Associative.assoc (op := (BI.sep : sProp 𝕄 → _ → _)) _ _ _).symm.trans ?_
  exact congrArg (BI.sep · _) (halves_eq (F := F) ((c : Thread nD τ).loc main_v12) (V main_v12))

/-- A core's unscoped buffers are the six buffers behind the region's arrays and the rest. -/
theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

/-- ENTRY: a core's unscoped buffers at a valuation are the region's arrays at the proof data's entry contents, those
    being read off the valuation, and the buffers that are no window's array. -/
theorem arrays_of_unscopedBufs1 (c : Dev nD) (dat : Pipeline.Dat τ (Elt F) Unit ℕ (UR sig nD τ) ℕ cfg1 c) (hq : dat.q = qs1)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [unscopedBufs_split1 c V, arrays_eq1 c dat hq V (dat.arrAt · 0) (fun w => hA w)]

/-- EXIT: the region's arrays at contents `G` and the other unscoped buffers at `V` are the core's unscoped buffers at
    any valuation that has the arrays at `G` and agrees with `V` off them. -/
theorem unscopedBufs_of_arrays1 (c : Dev nD) (dat : Pipeline.Dat τ (Elt F) Unit ℕ (UR sig nD τ) ℕ cfg1 c) (hq : dat.q = qs1)
    (V V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hr : (Pipeline.unscopedRest spec1 c V : sProp 𝕄) = Pipeline.unscopedRest spec1 c V' := by
    unfold Pipeline.unscopedRest
    exact bigSep_congr fun b hb => by rw [hrest b (Finset.mem_sdiff.mp hb).2]
  rw [unscopedBufs_split1 c V', arrays_eq1 c dat hq V' G hG, hr]

end Cert.KernelIdeal.LossShares

end
-- ==== Proof.KernelRun.lean ====
/-
  The run of the kernel program's @main from the launch to the return, at any float type `F`.

  @main is six items in order: the degree kernel's region, three stretches of host operations (the scales, the row
  norms, the normalised embeddings), the loss kernel's region, and a last stretch of two reshapes. The contents of a
  core's unscoped buffers at the seven boundaries are a fold from the launch memory: a stretch of host operations
  rewrites the buffers it writes (`StableHlo.after`), a region changes exactly its output windows' arrays, to what
  its write-backs leave (`Dat.arrAt … N`). Between two items a core holds every unscoped buffer whole at that
  boundary's contents, its generator register at some state, and owes nothing; each region splits its windows' arrays
  out of the buffers at its entry and puts them back, updated, at its exit. The loss kernel reads one array through
  two windows, so its arrays are split out at the shares `LossShares.qs1`.

  `run_all`: from any memory with zero counters every weakly fair execution of @main terminates and every unscoped
  buffer ends at the last boundary's contents `W6`. `frame`: the three arguments end as launched.
-/
import proofs.«125553_j27504970563869_1_alg».proof.Proof.Gen.KernelIdeal.Launch
import proofs.«125553_j27504970563869_1_alg».proof.Proof.Gen.KernelIdeal.Skeleton
import proofs.«125553_j27504970563869_1_alg».proof.Proof.Gen.KernelIdeal.Points
import proofs.«125553_j27504970563869_1_alg».proof.Proof.Gen.KernelIdeal.Regions
import proofs.«125553_j27504970563869_1_alg».proof.Proof.DegreeBody
import proofs.«125553_j27504970563869_1_alg».proof.Proof.LossData
import proofs.«125553_j27504970563869_1_alg».proof.Proof.LossShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references (the degree region's entry contents). -/
abbrev V0 : (c : Dev nD) → (b : Ref sig .tc) → Buf (Elt F) ((c : Thread nD τ).loc b) := fun c b => W0 m c b
/-- What the degree region leaves in its output array: the column of degrees, every block written back. -/
def o1 (c : Dev nD) : Buf (Elt F) ((c : Thread nD τ).loc main_v0) := (Deg.dat0 (V0 m) c).arrAt 1 cfg0.N
/-- After the degree region: the launch contents with the degree column updated. -/
def W1 (c : Dev nD) : Valuation τ sig (Elt F) := Function.update (W0 m c) (Proc.devRef .tc main_v0) (o1 m c)
/-- After the first stretch of host operations (the scales), -/
abbrev W2 : Dev nD → Valuation τ sig (Elt F) := fun c => StableHlo.after hostOps1 (W1 m c)
/-- after the second (the row norms), -/
abbrev W3 : Dev nD → Valuation τ sig (Elt F) := fun c => StableHlo.after hostOps1_1 (W2 m c)
/-- after the third (the normalised embeddings): the loss region's entry contents. -/
abbrev W4 : Dev nD → Valuation τ sig (Elt F) := fun c => StableHlo.after hostOps1_2 (W3 m c)
/-- The same read at the TensorCore's references. -/
abbrev V4 : (c : Dev nD) → (b : Ref sig .tc) → Buf (Elt F) ((c : Thread nD τ).loc b) := fun c b => W4 m c b
/-- What the loss region leaves in its two output arrays. -/
def o5 (c : Dev nD) : Buf (Elt F) ((c : Thread nD τ).loc main_v13_0) := (Loss.dat1 (V4 m) c).arrAt 5 cfg1.N
def o6 (c : Dev nD) : Buf (Elt F) ((c : Thread nD τ).loc main_v13_1) := (Loss.dat1 (V4 m) c).arrAt 6 cfg1.N
/-- After the loss region: its entry contents with the two results updated. -/
def W5 (c : Dev nD) : Valuation τ sig (Elt F) :=
  Function.update (Function.update (W4 m c) (Proc.devRef .tc main_v13_0) (o5 m c)) (Proc.devRef .tc main_v13_1) (o6 m c)
/-- After the last stretch of host operations: the contents at the return. -/
abbrev W6 : Dev nD → Valuation τ sig (Elt F) := fun c => StableHlo.after hostOps2 (W5 m c)

/-- The updates read back: at the updated buffer the new contents, elsewhere what was there. -/
theorem W1_v0 (c : Dev nD) : W1 m c (Proc.devRef .tc main_v0) = o1 m c := by
  unfold W1; exact Function.update_self _ _ _
theorem W1_of_ne (c : Dev nD) (b : Ref sig .tc) (hb : b ≠ main_v0) :
    W1 m c (Proc.devRef .tc b) = W0 m c (Proc.devRef .tc b) := by
  unfold W1; exact Function.update_of_ne (StableHlo.devRef_ne_of_ne hb) _ _
theorem W5_v13_1 (c : Dev nD) : W5 m c (Proc.devRef .tc main_v13_1) = o6 m c := by
  unfold W5; exact Function.update_self _ _ _
theorem W5_v13_0 (c : Dev nD) : W5 m c (Proc.devRef .tc main_v13_0) = o5 m c := by
  unfold W5
  rw [Function.update_of_ne (StableHlo.devRef_ne_of_ne (by decide : main_v13_0 ≠ main_v13_1))]
  exact Function.update_self _ _ _
theorem W5_of_ne (c : Dev nD) (b : Ref sig .tc) (h0 : b ≠ main_v13_0) (h1 : b ≠ main_v13_1) :
    W5 m c (Proc.devRef .tc b) = W4 m c (Proc.devRef .tc b) := by
  unfold W5
  rw [Function.update_of_ne (StableHlo.devRef_ne_of_ne h1), Function.update_of_ne (StableHlo.devRef_ne_of_ne h0)]
theorem W6_v14 (c : Dev nD) : W6 m c (Proc.devRef .tc main_v14) = StableHlo.after hostOps2 (W5 m c) (Proc.devRef .tc main_v14) := rfl
theorem W6_v15 (c : Dev nD) : W6 m c (Proc.devRef .tc main_v15) = StableHlo.after hostOps2 (W5 m c) (Proc.devRef .tc main_v15) := rfl

/-! ## The proof data family and the thread state -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Deg.dat0 (V0 m) c
  | ⟨1, _⟩ => fun c => Loss.dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core
    owing nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along;
    it leaves them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W6`, the generator register at some state. -/
abbrev Tₙ (c : Dev nD) : sProp 𝕄 := iprop(StableHlo.held (c : Thread nD τ) (Pipeline.ucRefs τ sig) (W6 m c) ∗ ∃ r, prngReg c r)

/-! ## Region 0 -/

/-- At the degree region's exit its input array holds what it held at entry (an input window never writes back, and
    the update misses it) and its output array the degree column. -/
theorem hF0 (c : Dev nD) (w : Fin cfg0.W) : (pdats m 0 c).arrAt w cfg0.N = (fun b : Ref sig .tc => W1 m c b) (Pipeline.arrRef spec0 w) := by
  match w with
  | ⟨0, _⟩ =>
    exact (((pdats m 0 c).arrAt_in 0 rfl _).trans (Deg.A_eq0 (V0 m) c 0)).trans (W1_of_ne m c main_arg2 (by decide)).symm
  | ⟨1, _⟩ => exact (W1_v0 m c).symm
/-- Every buffer that is no window's array is as at entry: the update is at a window's array. -/
theorem hrest0 (c : Dev nD) : ∀ b, b ∉ Finset.univ.image (Pipeline.arrRef spec0) → (fun b : Ref sig .tc => W1 m c b) b = V0 m c b :=
  fun b hb => W1_of_ne m c b fun e => hb (Finset.mem_image.mpr ⟨1, Finset.mem_univ _, e.symm⟩)

-- unification may unfold plain definitions in a metavariable's type (the pinned configuration at a numeral)
set_option backward.isDefEq.respectTransparency.types false in
/-- The degree region over the thread state: entered from every unscoped buffer at `W0`, left at `W1`. Its arrays are
    split out of the unscoped buffers and put back at the exit contents; the generator register goes into the class
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Deg.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At the loss region's exit each input window's array holds what it held at entry (the two updates miss it) and
    the two output arrays the two results. -/
theorem hF1 (c : Dev nD) (w : Fin cfg1.W) : (pdats m 1 c).arrAt w cfg1.N = (fun b : Ref sig .tc => W5 m c b) (Pipeline.arrRef spec1 w) := by
  match w with
  | ⟨0, _⟩ =>
    exact (((pdats m 1 c).arrAt_in 0 rfl _).trans (Loss.A_eq1 (V4 m) c 0)).trans (W5_of_ne m c main_arg2 (by decide) (by decide)).symm
  | ⟨1, _⟩ =>
    exact (((pdats m 1 c).arrAt_in 1 rfl _).trans (Loss.A_eq1 (V4 m) c 1)).trans (W5_of_ne m c main_v12 (by decide) (by decide)).symm
  | ⟨2, _⟩ =>
    exact (((pdats m 1 c).arrAt_in 2 rfl _).trans (Loss.A_eq1 (V4 m) c 2)).trans (W5_of_ne m c main_v12 (by decide) (by decide)).symm
  | ⟨3, _⟩ =>
    exact (((pdats m 1 c).arrAt_in 3 rfl _).trans (Loss.A_eq1 (V4 m) c 3)).trans (W5_of_ne m c main_v5 (by decide) (by decide)).symm
  | ⟨4, _⟩ =>
    exact (((pdats m 1 c).arrAt_in 4 rfl _).trans (Loss.A_eq1 (V4 m) c 4)).trans (W5_of_ne m c main_v6 (by decide) (by decide)).symm
  | ⟨5, _⟩ => exact (W5_v13_0 m c).symm
  | ⟨6, _⟩ => exact (W5_v13_1 m c).symm
/-- Every buffer that is no window's array is as at entry: both updates are at windows' arrays. -/
theorem hrest1 (c : Dev nD) : ∀ b, b ∉ Finset.univ.image (Pipeline.arrRef spec1) → (fun b : Ref sig .tc => W5 m c b) b = V4 m c b :=
  fun b hb => W5_of_ne m c b (fun e => hb (Finset.mem_image.mpr ⟨5, Finset.mem_univ _, e.symm⟩))
    (fun e => hb (Finset.mem_image.mpr ⟨6, Finset.mem_univ _, e.symm⟩))

-- as above
set_option backward.isDefEq.respectTransparency.types false in
/-- The loss region over the thread state: entered from every unscoped buffer at `W4`, left at `W5`. Two of its input
    windows read one array, so the arrays are split out of the unscoped buffers at the shares `qs1` (that array in two
    halves) and put back whole; the invariant before the first point is the class invariant, and after the last point
    it gives the scoped buffers back with the accumulators' contents forgotten. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := LossShares.arrays_of_unscopedBufs1 c (pdats m 1 c) (Loss.q_eq1 (V4 m) c) (V4 m c) (fun w => Loss.A_eq1 (V4 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Loss.hin1 (V4 m) c
    unfold Pipeline.ΦA at h
    rw [show (pdats m 1 c).Φ 0 = (Loss.dat1 (V4 m) c).Φ 0 from rfl]
    iintro ⟨Hp, -, Hr⟩
    iapply h
    isplitl [Hr]; · iexact Hr
    iexact Hp
  hout c := by
    rw [Pipeline.ownSems0_none]
    have h := Loss.hout1 (V4 m) c
    unfold Pipeline.ΦA at h
    rw [show (pdats m 1 c).Φ (Fin.last _) = (Loss.dat1 (V4 m) c).Φ (Fin.last cfg1.N) from rfl]
    iintro H
    ihave H2 := h $$ H
    icases H2 with ⟨Hr, Hp⟩
    isplitl [Hp]; · iexact Hp
    isplitr; · iempintro
    iexact Hr
  hexit c := by
    have hjoin := LossShares.unscopedBufs_of_arrays1 c (pdats m 1 c) (Loss.q_eq1 (V4 m) c)
      (V4 m c) (fun b => W5 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)) ]

-- as above
set_option backward.isDefEq.respectTransparency.types false in
/-- From any memory with zero counters, every weakly fair execution of @main on the TensorCores terminates, nothing
    faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show (iprop(StableHlo.held (c : Thread nD τ) (Pipeline.ucRefs τ sig) (W6 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-! ## The arguments end as launched -/

/-- No stretch of host operations writes an argument and no region changes one: the fold at an argument's buffer walks
    back to the launch memory. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide) (by decide)
    _ = W3 m c (Proc.devRef .tc main_arg0) := StableHlo.after_of_writes_sub hostOps1_2 _ hostOps1_2_writes (by decide)
    _ = W2 m c (Proc.devRef .tc main_arg0) := StableHlo.after_of_writes_sub hostOps1_1 _ hostOps1_1_writes (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide) (by decide)
    _ = W3 m c (Proc.devRef .tc main_arg1) := StableHlo.after_of_writes_sub hostOps1_2 _ hostOps1_2_writes (by decide)
    _ = W2 m c (Proc.devRef .tc main_arg1) := StableHlo.after_of_writes_sub hostOps1_1 _ hostOps1_1_writes (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide) (by decide)
    _ = W3 m c (Proc.devRef .tc main_arg2) := StableHlo.after_of_writes_sub hostOps1_2 _ hostOps1_2_writes (by decide)
    _ = W2 m c (Proc.devRef .tc main_arg2) := StableHlo.after_of_writes_sub hostOps1_1 _ hostOps1_1_writes (by decide)
    _ = W1 m c (Proc.devRef .tc main_arg2) := StableHlo.after_of_writes_sub hostOps1 _ hostOps1_writes (by decide)
    _ = W0 m c (Proc.devRef .tc main_arg2) := W1_of_ne m c main_arg2 (by decide)
    _ = m ((c : Thread nD τ).loc main_arg2) := rfl

/-! ## The frame -/

/-- Every final state has the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c)⟩) (run_all m ρ)

end Cert.KernelIdeal.Run

end
-- ==== Proof.LossPieceValues.lean ====
/- What each kind of grid point of the loss kernel's region leaves in its accumulators and output blocks, as the
   body's payloads of the loaded blocks: the first point leaves the band's terms added onto the freshly zeroed
   accumulators, a middle point adds them onto what the point before left, and the last point does the same and
   copies each accumulator out whole into its output block. -/
import proofs.«125553_j27504970563869_1_alg».proof.Proof.LossPieces
import Idealize.ShloMosaic.Lib.Pipeline.Value

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem pieceOffsets_zero : (![0, 0] : Fin 2 → Nat) = fun _ => 0 := funext fun a => by fin_cases a <;> rfl

section PieceValues
variable (c : Dev nD) (i : grid1.Coords) (arg1 : Memref sig .tc .vmem S128x8192 .f32) (harg1 : arg1.IsWhole) (arg2 : Memref sig .tc .vmem S128x256 .bf16) (harg2 : arg2.IsWhole)
    (arg3 : Memref sig .tc .vmem S8192x256 .bf16) (harg3 : arg3.IsWhole) (arg4 : Memref sig .tc .vmem S128x1 .f32) (harg4 : arg4.IsWhole)
    (arg5 : Memref sig .tc .vmem S1x8192 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
variable (x1 : Vec F S128x8192 .f32) (x2 : Vec F S128x256 .bf16) (x3 : Vec F S8192x256 .bf16) (x4 : Vec F S128x1 .f32) (x5 : Vec F S1x8192 .f32)

/-- First point, first accumulator: zeroed, then the band's first term taken off it. -/
theorem soutA_0_eq (hc0 : cond1_0 i) (hc1 : ¬cond1_1 i) :
    soutA_0 c i arg1 harg1 arg2 harg2 arg3 harg3 arg4 harg4 arg5 harg5 arg6 harg6 arg7 harg7 arg8 harg8 arg9 harg9 x1 x2 x3 x4 x5 hc0 hc1 = k1_pay7 x2 x3 x1 x4 x5 (k1_pay2 (F := F)) := by
  unfold soutA_0
  rw [View.read_writes_eq_canon _ _ _ (scoverA_0 c i arg1 harg1 arg2 harg2 arg3 harg3 arg4 harg4 arg5 harg5 arg6 harg6 arg7 harg7 arg8 harg8 arg9 harg9 x1 x2 x3 x4 x5 hc0 hc1)]
  unfold kernelRun1_A
  dsimp only
  try sl_unfold_words
  rw [View.canon_cons_unit_zero (S := S1x1) pieceOffsets_zero, View.readCov_unit_zero (S := S1x1) _ pieceOffsets_zero]
  simp only [View.readAt_eq_ld, harg1.read_unread, harg2.read_unread, harg3.read_unread, harg4.read_unread, harg5.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero]

/-- First point, second accumulator: zeroed, then the band's second term added onto it. -/
theorem soutA_1_eq (hc0 : cond1_0 i) (hc1 : ¬cond1_1 i) :
    soutA_1 c i arg1 harg1 arg2 harg2 arg3 harg3 arg4 harg4 arg5 harg5 arg6 harg6 arg7 harg7 arg8 harg8 arg9 harg9 x1 x2 x3 x4 x5 hc0 hc1 = k1_pay1 (k1_pay5 x2 x3 x1 x4 x5) (k1_pay6 x2 x3) (k1_pay3 (F := F)) := by
  unfold soutA_1
  rw [View.read_writes_eq_canon _ _ _ (scoverA_1 c i arg1 harg1 arg2 harg2 arg3 harg3 arg4 harg4 arg5 harg5 arg6 harg6 arg7 harg7 arg8 harg8 arg9 harg9 x1 x2 x3 x4 x5 hc0 hc1)]
  unfold kernelRun1_A
  dsimp only
  try sl_unfold_words
  rw [View.canon_cons_unit_zero (S := S1x1) pieceOffsets_zero, View.readCov_unit_zero (S := S1x1) _ pieceOffsets_zero]
  simp only [View.readAt_eq_ld, harg1.read_unread, harg2.read_unread, harg3.read_unread, harg4.read_unread, harg5.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero]

variable (xs8 xs9 : Vec F S1x1 .f32)

/-- A middle point, first accumulator: the band's first term taken off what the point before left. -/
theorem soutB_0_eq (hc0 : ¬cond1_0 i) (hc1 : ¬cond1_1 i) :
    soutB_0 c i arg1 harg1 arg2 harg2 arg3 harg3 arg4 harg4 arg5 harg5 arg6 harg6 arg7 harg7 arg8 harg8 arg9 harg9 x1 x2 x3 x4 x5 xs8 xs9 hc0 hc1 = k1_pay7 x2 x3 x1 x4 x5 xs8 := by
  unfold soutB_0
  rw [View.read_writes_eq_canon _ _ _ (scoverB_0 c i arg1 harg1 arg2 harg2 arg3 harg3 arg4 harg4 arg5 harg5 arg6 harg6 arg7 harg7 arg8 harg8 arg9 harg9 x1 x2 x3 x4 x5 xs8 xs9 hc0 hc1)]
  unfold kernelRun1_B
  dsimp only
  try sl_unfold_words
  rw [View.canon_unit_zero (S := S1x1) pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

/-- A middle point, second accumulator: the band's second term added onto what the point before left. -/
theorem soutB_1_eq (hc0 : ¬cond1_0 i) (hc1 : ¬cond1_1 i) :
    soutB_1 c i arg1 harg1 arg2 harg2 arg3 harg3 arg4 harg4 arg5 harg5 arg6 harg6 arg7 harg7 arg8 harg8 arg9 harg9 x1 x2 x3 x4 x5 xs8 xs9 hc0 hc1 = k1_pay1 (k1_pay5 x2 x3 x1 x4 x5) (k1_pay6 x2 x3) xs9 := by
  unfold soutB_1
  rw [View.read_writes_eq_canon _ _ _ (scoverB_1 c i arg1 harg1 arg2 harg2 arg3 harg3 arg4 harg4 arg5 harg5 arg6 harg6 arg7 harg7 arg8 harg8 arg9 harg9 x1 x2 x3 x4 x5 xs8 xs9 hc0 hc1)]
  unfold kernelRun1_B
  dsimp only
  try sl_unfold_words
  rw [View.canon_unit_zero (S := S1x1) pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

/-- The last point, first accumulator: as at a middle point. -/
theorem soutC_0_eq (hc0 : ¬cond1_0 i) (hc1 : cond1_1 i) :
    soutC_0 c i arg1 harg1 arg2 harg2 arg3 harg3 arg4 harg4 arg5 harg5 arg6 harg6 arg7 harg7 arg8 harg8 arg9 harg9 x1 x2 x3 x4 x5 xs8 xs9 hc0 hc1 = k1_pay7 x2 x3 x1 x4 x5 xs8 := by
  unfold soutC_0
  rw [View.read_writes_eq_canon _ _ _ (scoverC_0 c i arg1 harg1 arg2 harg2 arg3 harg3 arg4 harg4 arg5 harg5 arg6 harg6 arg7 harg7 arg8 harg8 arg9 harg9 x1 x2 x3 x4 x5 xs8 xs9 hc0 hc1)]
  unfold kernelRun1_C
  dsimp only
  try sl_unfold_words
  rw [View.canon_unit_zero (S := S1x1) pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

/-- The last point, second accumulator: as at a middle point. -/
theorem soutC_1_eq (hc0 : ¬cond1_0 i) (hc1 : cond1_1 i) :
    soutC_1 c i arg1 harg1 arg2 harg2 arg3 harg3 arg4 harg4 arg5 harg5 arg6 harg6 arg7 harg7 arg8 harg8 arg9 harg9 x1 x2 x3 x4 x5 xs8 xs9 hc0 hc1 = k1_pay1 (k1_pay5 x2 x3 x1 x4 x5) (k1_pay6 x2 x3) xs9 := by
  unfold soutC_1
  rw [View.read_writes_eq_canon _ _ _ (scoverC_1 c i arg1 harg1 arg2 harg2 arg3 harg3 arg4 harg4 arg5 harg5 arg6 harg6 arg7 harg7 arg8 harg8 arg9 harg9 x1 x2 x3 x4 x5 xs8 xs9 hc0 hc1)]
  unfold kernelRun1_C
  dsimp only
  try sl_unfold_words
  rw [View.canon_unit_zero (S := S1x1) pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

/-- The last point, first output block: the first accumulator, read back after its store, copied out whole. -/
theorem outC_5_eq (hc0 : ¬cond1_0 i) (hc1 : cond1_1 i) :
    outC_5 c i arg1 harg1 arg2 harg2 arg3 harg3 arg4 harg4 arg5 harg5 arg6 harg6 arg7 harg7 arg8 harg8 arg9 harg9 x1 x2 x3 x4 x5 xs8 xs9 hc0 hc1 = k1_pay7 x2 x3 x1 x4 x5 xs8 := by
  unfold outC_5
  rw [View.read_writes_eq_canon _ _ _ (coverC_5 c i arg1 harg1 arg2 harg2 arg3 harg3 arg4 harg4 arg5 harg5 arg6 harg6 arg7 harg7 arg8 harg8 arg9 harg9 x1 x2 x3 x4 x5 xs8 xs9 hc0 hc1)]
  unfold kernelRun1_C
  dsimp only
  try sl_unfold_words
  rw [View.canon_unit_zero (S := S1x1) pieceOffsets_zero, View.readCov_unit_zero (S := S1x1) _ pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

/-- The last point, second output block: the second accumulator, read back after its store, copied out whole. -/
theorem outC_6_eq (hc0 : ¬cond1_0 i) (hc1 : cond1_1 i) :
    outC_6 c i arg1 harg1 arg2 harg2 arg3 harg3 arg4 harg4 arg5 harg5 arg6 harg6 arg7 harg7 arg8 harg8 arg9 harg9 x1 x2 x3 x4 x5 xs8 xs9 hc0 hc1 = k1_pay1 (k1_pay5 x2 x3 x1 x4 x5) (k1_pay6 x2 x3) xs9 := by
  unfold outC_6
  rw [View.read_writes_eq_canon _ _ _ (coverC_6 c i arg1 harg1 arg2 harg2 arg3 harg3 arg4 harg4 arg5 harg5 arg6 harg6 arg7 harg7 arg8 harg8 arg9 harg9 x1 x2 x3 x4 x5 xs8 xs9 hc0 hc1)]
  unfold kernelRun1_C
  dsimp only
  try sl_unfold_words
  rw [View.canon_unit_zero (S := S1x1) pieceOffsets_zero, View.readCov_unit_zero (S := S1x1) _ pieceOffsets_zero]
  simp only [View.readAt_eq_ld, harg1.read_unread, harg2.read_unread, harg3.read_unread, harg4.read_unread, harg5.read_unread,
    harg8.read_unread, harg9.read_unread,
    View.ld_unit_zero (S := S128x8192) pieceOffsets_zero, View.ld_unit_zero (S := S128x256) pieceOffsets_zero,
    View.ld_unit_zero (S := S8192x256) pieceOffsets_zero, View.ld_unit_zero (S := S128x1) pieceOffsets_zero,
    View.ld_unit_zero (S := S1x8192) pieceOffsets_zero, View.ld_unit_zero (S := S1x1) pieceOffsets_zero]

end PieceValues

end Cert.KernelIdeal.Loss

end
-- ==== Proof.LossSpec.lean ====
/-
  The adjacency loss written index by index on the extended reals.

  For an adjacency matrix `A` (8192 × 8192) and embeddings `Z` (8192 × 256):
  the degree of row `i` is `d i = 0 + Σ_j A (i, j)`, its scale `s i = 1 / √(d i + ε)`, the normalised
  adjacency `a (i, j) = (A (i, j) · s i) · s j`; row `i` of `Z` is divided by `max (√(0 + Σ_k Z (i, k)²)) tiny`
  and the similarity is `c (i, j) = Σ_k z (i, k) · z (j, k)`.
  The two losses are `−(0 + Σ_{i, j} a (i, j) · c (i, j))` and `0 + Σ_{i, j} (1 − a (i, j)) · c (i, j)`.

  The same two numbers accumulated over 64 bands of 128 rows: band `t` contributes
  `cross t = 0 + Σ_{r < 128} (0 + Σ_j a (128 t + r, j) · c (128 t + r, j))` and
  `simSum t = 0 + Σ_{r < 128} (0 + Σ_j c (128 t + r, j))`; the first running sum starts at `0` and takes
  `+ (0 − cross t)` per band, the second `+ (simSum t − cross t)`.
  The float literals stay as their words (`Ideal.ofBits`).
-/
import Idealize.ShloMosaic.PureOps.Ideal
import Idealize.ShloMosaic.Lib.ValueIdx

noncomputable section

namespace Cert.LossSpec

open Idealize.ShloMosaic Idealize.ShloMosaic.ValueIdx

/-- An 8192 × 8192 array of extended reals. -/
abbrev Adj : Type := (⟨2, ![8192, 8192]⟩ : Shape).Idx → EReal
/-- An 8192 × 256 array of extended reals. -/
abbrev Emb : Type := (⟨2, ![8192, 256]⟩ : Shape).Idx → EReal

/-- The word of `0.0`. -/
abbrev zeroW : EReal := Ideal.ofBits .f32 0x00000000#32
/-- The word of `1.0`. -/
abbrev oneW : EReal := Ideal.ofBits .f32 0x3F800000#32
/-- The word of the degree's `1e-10`. -/
abbrev epsW : EReal := Ideal.ofBits .f32 0x2EDBE6FF#32
/-- The word of the norm's floor `1e-12`. -/
abbrev tinyW : EReal := Ideal.ofBits .f32 0x2B8CBCCC#32

/-- The degree of row `i`. -/
def deg (A : Adj) (i : Fin 8192) : EReal := zeroW + ∑ j : Fin 8192, A (ix2 i j)
/-- `1 / √(degree + ε)`. -/
def scale (A : Adj) (i : Fin 8192) : EReal := Ideal.div oneW (Ideal.sqrt (deg A i + epsW))
/-- The degree-normalised adjacency. -/
def anorm (A : Adj) (i j : Fin 8192) : EReal := (A (ix2 i j) * scale A i) * scale A j
/-- The Euclidean norm of row `i` of `Z`. -/
def rnorm (Z : Emb) (i : Fin 8192) : EReal := Ideal.sqrt (zeroW + ∑ k : Fin 256, Z (ix2 i k) * Z (ix2 i k))
/-- Row `i` of `Z` divided by its floored norm. -/
def zn (Z : Emb) (i : Fin 8192) (k : Fin 256) : EReal := Ideal.div (Z (ix2 i k)) (max (rnorm Z i) tinyW)
/-- The cosine similarity of rows `i` and `j`. -/
def sim (Z : Emb) (i j : Fin 8192) : EReal := ∑ k : Fin 256, zn Z i k * zn Z j k
/-- Normalised adjacency times similarity. -/
def prod (A : Adj) (Z : Emb) (i j : Fin 8192) : EReal := anorm A i j * sim Z i j

/-- The first loss, as one sum over the whole matrix. -/
def refHomo (A : Adj) (Z : Emb) : EReal := -(zeroW + ∑ i : Fin 8192, ∑ j : Fin 8192, prod A Z i j)
/-- The second loss, as one sum over the whole matrix. -/
def refHet (A : Adj) (Z : Emb) : EReal := zeroW + ∑ i : Fin 8192, ∑ j : Fin 8192, (oneW - anorm A i j) * sim Z i j

/-- Row `r` of band `t`: row `128 t + r` of the matrix. -/
def tileRow (t : Fin 64) (r : Fin 128) : Fin 8192 := ⟨128 * t.val + r.val, by omega⟩

/-- Band `t`'s sum of normalised adjacency times similarity, rows summed one by one. -/
def cross (A : Adj) (Z : Emb) (t : Fin 64) : EReal :=
  zeroW + ∑ r : Fin 128, (zeroW + ∑ j : Fin 8192, prod A Z (tileRow t r) j)
/-- Band `t`'s sum of similarities, rows summed one by one. -/
def simSum (Z : Emb) (t : Fin 64) : EReal :=
  zeroW + ∑ r : Fin 128, (zeroW + ∑ j : Fin 8192, sim Z (tileRow t r) j)

/-- The first running sum after the first `n` bands. -/
def accHomo (A : Adj) (Z : Emb) : ℕ → EReal
  | 0 => zeroW
  | n + 1 => if h : n < 64 then accHomo A Z n + (zeroW - cross A Z ⟨n, h⟩) else accHomo A Z n
/-- The second running sum after the first `n` bands. -/
def accHet (A : Adj) (Z : Emb) : ℕ → EReal
  | 0 => zeroW
  | n + 1 => if h : n < 64 then accHet A Z n + (simSum Z ⟨n, h⟩ - cross A Z ⟨n, h⟩) else accHet A Z n

/-- The first loss, accumulated band by band. -/
def kerHomo (A : Adj) (Z : Emb) : EReal := accHomo A Z 64
/-- The second loss, accumulated band by band. -/
def kerHet (A : Adj) (Z : Emb) : EReal := accHet A Z 64

end Cert.LossSpec

end
-- ==== Proof.LossBlocks.lean ====
/-
  The loss kernel's input blocks, read off the arrays the region finds.

  The region runs over 64 grid points. At point `t` the adjacency window holds rows `128 t … 128 t + 127` of the
  adjacency array with all 8192 columns; the first embedding window holds the same rows of the normalised
  embeddings; the second embedding window holds the whole array of normalised embeddings at every point; the
  column window holds rows `128 t … 128 t + 127` of the column of scales; and the row window holds the whole row of
  scales at every point. An element of a block sits in its array at block index × block size + its coordinate
  inside the block, on each axis; the block indices are decided once over the grid.
-/
import proofs.«125553_j27504970563869_1_alg».proof.Proof.LossPieces
import proofs.«125553_j27504970563869_1_alg».proof.Proof.LossSpec
import Idealize.ShloMosaic.Lib.ValueIdx
import Idealize.ShloMosaic.Lib.Pipeline.Value

set_option maxRecDepth 16384

noncomputable section

namespace Cert.KernelIdeal.Loss

open Cert.KernelIdeal Cert.KernelIdeal.Gen
open Idealize.ShloMosaic Idealize.ShloMosaic.TcCoe Idealize.ShloMosaic.ValueIdx
open Idealize.SL.Sem

variable {F : FTy → Type} [FloatOps F]

variable (V : (c : Dev nD) → (b : Ref sig .tc) → Buf (Elt F) ((c : Thread nD τ).loc b))

/-! ## The rows of a band -/

/-- Row `r` of the band of grid point `t`: row `128 t + r` of the matrix. -/
def row (t : Fin cfg1.N) (r : Fin 128) : Fin 8192 :=
  ⟨128 * t.val + r.val, by have := t.isLt; have hN : cfg1.N = 64 := N_1; omega⟩

/-- The band of a grid point as one of the 64 bands. -/
def band (t : Fin cfg1.N) : Fin 64 := ⟨t.val, by have := t.isLt; have hN : cfg1.N = 64 := N_1; omega⟩

/-- Row `r` of the band of point `t` is the specification's row `r` of band `t`. -/
theorem row_eq_tileRow (t : Fin cfg1.N) (r : Fin 128) : row t r = Cert.LossSpec.tileRow (band t) r := rfl

/-! ## The blocks' positions -/

/-- The printed index maps, decided over the grid: at point `t` the adjacency window, the first embedding window
    and the column window are at block row `t`, block column `0`; the second embedding window and the row window
    are at block `(0, 0)`. -/
theorem block_index1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0) :=
  (by decide +kernel : ∀ t : Fin grid1.N, _)

/-! ## The blocks read at an index -/

/-- The adjacency window's block at point `t` is rows `128 t … 128 t + 127` of the adjacency array. -/
theorem iblk1_0_apply (c : Dev nD) (t : Fin cfg1.N) (r : Fin 128) (j : Fin 8192) :
    (iblk1 V c 0 t : Vec F S128x8192 .f32) (ix2 r j) = (V c main_arg2 : Vec F S8192x8192 .f32) (ix2 (row t r) j) := by
  obtain ⟨⟨e0, e1⟩, -⟩ := block_index1 t
  unfold iblk1
  rw [View.read_apply]
  show V c main_arg2 _ = V c main_arg2 _
  congr 1
  funext a
  apply Fin.ext
  match a with
  | ⟨0, _⟩ => show win1_0.index t (0 : Fin 2) * 128 + 1 * r.val = 128 * t.val + r.val; rw [e0]; omega
  | ⟨1, _⟩ => show win1_0.index t (1 : Fin 2) * 8192 + 1 * j.val = j.val; rw [e1]; omega

/-- The first embedding window's block at point `t` is rows `128 t … 128 t + 127` of the normalised embeddings. -/
theorem iblk1_1_apply (c : Dev nD) (t : Fin cfg1.N) (r : Fin 128) (k : Fin 256) :
    (iblk1 V c 1 t : Vec F S128x256 .bf16) (ix2 r k) = (V c main_v12 : Vec F S8192x256 .bf16) (ix2 (row t r) k) := by
  obtain ⟨-, ⟨e0, e1⟩, -⟩ := block_index1 t
  unfold iblk1
  rw [View.read_apply]
  show V c main_v12 _ = V c main_v12 _
  congr 1
  funext a
  apply Fin.ext
  match a with
  | ⟨0, _⟩ => show win1_1.index t (0 : Fin 2) * 128 + 1 * r.val = 128 * t.val + r.val; rw [e0]; omega
  | ⟨1, _⟩ => show win1_1.index t (1 : Fin 2) * 256 + 1 * k.val = k.val; rw [e1]; omega

/-- The second embedding window's block is the whole array of normalised embeddings, at every point. -/
theorem iblk1_2_apply (c : Dev nD) (t : Fin cfg1.N) (j : Fin 8192) (k : Fin 256) :
    (iblk1 V c 2 t : Vec F S8192x256 .bf16) (ix2 j k) = (V c main_v12 : Vec F S8192x256 .bf16) (ix2 j k) := by
  obtain ⟨-, -, ⟨e0, e1⟩, -⟩ := block_index1 t
  unfold iblk1
  rw [View.read_apply]
  show V c main_v12 _ = V c main_v12 _
  congr 1
  funext a
  apply Fin.ext
  match a with
  | ⟨0, _⟩ => show win1_2.index t (0 : Fin 2) * 8192 + 1 * j.val = j.val; rw [e0]; omega
  | ⟨1, _⟩ => show win1_2.index t (1 : Fin 2) * 256 + 1 * k.val = k.val; rw [e1]; omega

/-- The column window's block at point `t` is rows `128 t … 128 t + 127` of the column of scales. -/
theorem iblk1_3_apply (c : Dev nD) (t : Fin cfg1.N) (r : Fin 128) :
    (iblk1 V c 3 t : Vec F S128x1 .f32) (ix2 r 0) = (V c main_v5 : Vec F S8192x1 .f32) (ix2 (row t r) 0) := by
  obtain ⟨-, -, -, ⟨e0, e1⟩, -⟩ := block_index1 t
  unfold iblk1
  rw [View.read_apply]
  show V c main_v5 _ = V c main_v5 _
  congr 1
  funext a
  apply Fin.ext
  match a with
  | ⟨0, _⟩ => show win1_3.index t (0 : Fin 2) * 128 + 1 * r.val = 128 * t.val + r.val; rw [e0]; omega
  | ⟨1, _⟩ => show win1_3.index t (1 : Fin 2) * 1 + 1 * 0 = 0; rw [e1]

/-- The row window's block is the whole row of scales, at every point. -/
theorem iblk1_4_apply (c : Dev nD) (t : Fin cfg1.N) (j : Fin 8192) :
    (iblk1 V c 4 t : Vec F S1x8192 .f32) (ix2 0 j) = (V c main_v6 : Vec F S1x8192 .f32) (ix2 0 j) := by
  obtain ⟨-, -, -, -, e0, e1⟩ := block_index1 t
  unfold iblk1
  rw [View.read_apply]
  show V c main_v6 _ = V c main_v6 _
  congr 1
  funext a
  apply Fin.ext
  match a with
  | ⟨0, _⟩ => show win1_4.index t (0 : Fin 2) * 1 + 1 * 0 = 0; rw [e0]
  | ⟨1, _⟩ => show win1_4.index t (1 : Fin 2) * 8192 + 1 * j.val = j.val; rw [e1]; omega

end Cert.KernelIdeal.Loss

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LossPayloads.lean ====
/-
  The loss kernel's seven stored values, read at an index on the extended reals.

  One band of the loss kernel holds 128 rows of the adjacency matrix (`x1`, 128 × 8192), the 128 matching rows of
  the normalised embeddings (`x2`, 128 × 256), all 8192 rows of the normalised embeddings (`x3`, 8192 × 256),
  the band's scales as a column (`x4`, 128 × 1) and all scales as a row (`x5`, 1 × 8192).
  The similarity block is the product of `x2` with the transpose of `x3`: at `(r, j)` it is
  `Σ_k x2 (r, k) · x3 (j, k)`. The band's cross term multiplies `(x1 (r, j) · x4 (r, 0)) · x5 (0, j)` by the
  similarity, sums each row over its 8192 lanes, and sums the 128 row sums; the band's similarity term sums the
  similarity block the same way. Each sum starts from the word of `0.0`, which denotes `0`, so it may be written
  with that word in front. The running sums take `+ (0.0 − cross)` and `+ (simSum − cross)`, and start from the
  word of `0.0`.
-/
import proofs.«125553_j27504970563869_1_alg».proof.Proof.Gen.KernelIdeal.Skeleton
import proofs.«125553_j27504970563869_1_alg».proof.Proof.LossSpec
import proofs.«125553_j27504970563869_1_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LossPay

open Cert.KernelIdeal Cert.KernelIdeal.Gen Idealize.ShloMosaic Idealize.ShloMosaic.ValueIdx
open scoped BigOperators

/-! ## Indices and the column sum -/

/-- A 1 × 1 vector has one index. -/
theorem idx_S1x1 (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- The index over the one reduced entry with coordinate `k` put back on the reduced axis of a column is `(k, 0)`. -/
theorem lift_col {a : ℕ} (h : (⟨2, ![a, 1]⟩ : Shape).Reduces [0] ⟨1, ![1]⟩)
    (k : Fin ((⟨2, ![a, 1]⟩ : Shape).size 0)) :
    h.lift (ix1 (0 : Fin 1)) k = ix2 (⟨k.val, k.isLt⟩ : Fin a) (0 : Fin 1) := by
  funext c; apply Fin.ext
  fin_cases c <;> rfl

/-- At the ideal values a sum down an `[a, 1]` column is the sum of the column's entries. -/
theorem multiReduction_add_col {a : ℕ} {φ : FTy} (X : FVec Ideal ⟨2, ![a, 1]⟩ φ) (acc : BitVec φ.bits)
    (h : (⟨2, ![a, 1]⟩ : Shape).Reduces [0] ⟨1, ![1]⟩) (hφ : FKind.Formats φ)
    (hacc : acc = FKind.add.neutral φ hφ) :
    multiReduction .add [0] ⟨1, ![1]⟩ X acc h hφ hacc (ix1 (0 : Fin 1)) = ∑ k : Fin a, X (ix2 k (0 : Fin 1)) := by
  refine (Ideal.multiReduction_add_single X acc h hφ hacc (ix1 (0 : Fin 1))).trans ?_
  exact Finset.sum_congr rfl fun k _ => congrArg X (lift_col h k)

/-- A `[128, 8192]` vector summed along its rows and then down the resulting column, each sum from the word of
    `0.0`, with the result cast to `[1, 1]`: the double sum, which may be written with the zero word in front of
    each sum. -/
theorem total_apply (X : FVec Ideal S128x8192 .f32) :
    shapeCast S1x1
        (multiReduction (F := Ideal) .add [0] S1
          (shapeCast S128x1 (multiReduction (F := Ideal) .add [1] S128 X 0x00000000#32 reduces_S128x8192_S128 (.inl rfl) rfl)
            shapeCasts_S128_S128x1)
          0x00000000#32 reduces_S128x1_S1 (.inl rfl) rfl)
        shapeCasts_S1_S1x1 (ix2 (0 : Fin 1) (0 : Fin 1))
      = Cert.LossSpec.zeroW + ∑ r : Fin 128, (Cert.LossSpec.zeroW + ∑ j : Fin 8192, X (ix2 r j)) := by
  have hz : Cert.LossSpec.zeroW = 0 := Ideal.ofBits_zero_f32
  rw [hz, zero_add]
  refine (Cert.RowOps.shapeCast_a_a1_apply _ shapeCasts_S1_S1x1 (0 : Fin 1) (0 : Fin 1)).trans ?_
  refine (multiReduction_add_col _ _ reduces_S128x1_S1 (.inl rfl) rfl).trans ?_
  refine Finset.sum_congr rfl fun r _ => ?_
  rw [zero_add]
  refine (Cert.RowOps.shapeCast_a_a1_apply _ shapeCasts_S128_S128x1 r (0 : Fin 1)).trans ?_
  exact Cert.RowOps.multiReduction_add_row _ _ reduces_S128x8192_S128 (.inl rfl) rfl r

/-! ## The similarity block -/

/-- The left operand's row coordinate is the output's row. -/
theorem sim_lhs0 (i : S128x8192.Idx) (q : dot_S128x256_S8192x256_S128x8192_1_1_0_0_n_n.contr.Idx) :
    (dot_S128x256_S8192x256_S128x8192_1_1_0_0_n_n.lhsIdx i q 0).val = (i 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
/-- The left operand's column coordinate is the contraction position. -/
theorem sim_lhs1 (i : S128x8192.Idx) (q : dot_S128x256_S8192x256_S128x8192_1_1_0_0_n_n.contr.Idx) :
    (dot_S128x256_S8192x256_S128x8192_1_1_0_0_n_n.lhsIdx i q 1).val = (q ⟨0, by decide⟩).val :=
  dot_S128x256_S8192x256_S128x8192_1_1_0_0_n_n.lhsIdx_val_of_single rfl i q
/-- The right operand's row coordinate is the output's column. -/
theorem sim_rhs0 (i : S128x8192.Idx) (q : dot_S128x256_S8192x256_S128x8192_1_1_0_0_n_n.contr.Idx) :
    (dot_S128x256_S8192x256_S128x8192_1_1_0_0_n_n.rhsIdx i q 0).val = (i 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
/-- The right operand's column coordinate is the contraction position. -/
theorem sim_rhs1 (i : S128x8192.Idx) (q : dot_S128x256_S8192x256_S128x8192_1_1_0_0_n_n.contr.Idx) :
    (dot_S128x256_S8192x256_S128x8192_1_1_0_0_n_n.rhsIdx i q 1).val = (q ⟨0, by decide⟩).val :=
  dot_S128x256_S8192x256_S128x8192_1_1_0_0_n_n.rhsIdx_val_of_single rfl i q

/-- The similarity block at `(r, j)` is the inner product of row `r` of `x2` with row `j` of `x3`. -/
theorem pay4_apply (x2 : Vec Ideal S128x256 .bf16) (x3 : Vec Ideal S8192x256 .bf16) (r : Fin 128) (j : Fin 8192) :
    k1_pay4 (F := Ideal) x2 x3 (ix2 r j) = ∑ k : Fin 256, x2 (ix2 r k) * x3 (ix2 j k) := by
  unfold k1_pay4
  show matmul (φ₁ := .bf16) (φ₂ := .bf16) dot_S128x256_S8192x256_S128x8192_1_1_0_0_n_n none
      (shapeCast S128x256 x2 shapeCasts_S128x256_S128x256) (shapeCast S8192x256 x3 shapeCasts_S8192x256_S8192x256)
      (constant (F := Ideal) S128x8192 .f32 0x00000000#32) (ix2 r j) = _
  rw [shapeCast_self, shapeCast_self]
  simp only [matmul]
  rw [Ideal.matmul_constant_zero_apply, ← Equiv.sum_comp (contrEquiv1 dot_S128x256_S8192x256_S128x8192_1_1_0_0_n_n 256 rfl rfl).symm]
  refine Finset.sum_congr rfl fun k _ => ?_
  have hk := contrEquiv1_symm_val dot_S128x256_S8192x256_S128x8192_1_1_0_0_n_n 256 rfl rfl k
  have el : dot_S128x256_S8192x256_S128x8192_1_1_0_0_n_n.lhsIdx (ix2 r j) ((contrEquiv1 dot_S128x256_S8192x256_S128x8192_1_1_0_0_n_n 256 rfl rfl).symm k) = ix2 r k := funext fun a => Fin.ext (by
    match a with
    | ⟨0, _⟩ => exact sim_lhs0 _ _
    | ⟨1, _⟩ => exact (sim_lhs1 _ _).trans hk)
  have er : dot_S128x256_S8192x256_S128x8192_1_1_0_0_n_n.rhsIdx (ix2 r j) ((contrEquiv1 dot_S128x256_S8192x256_S128x8192_1_1_0_0_n_n 256 rfl rfl).symm k) = ix2 j k := funext fun a => Fin.ext (by
    match a with
    | ⟨0, _⟩ => exact sim_rhs0 _ _
    | ⟨1, _⟩ => exact (sim_rhs1 _ _).trans hk)
  rw [el, er]

/-! ## The band's two sums -/

/-- The band's cross term: the sum over the band's rows of the row sums of
    `((x1 (r, j) · x4 (r, 0)) · x5 (0, j)) · similarity (r, j)`. -/
theorem pay5_apply (x2 : Vec Ideal S128x256 .bf16) (x3 : Vec Ideal S8192x256 .bf16) (x1 : Vec Ideal S128x8192 .f32)
    (x4 : Vec Ideal S128x1 .f32) (x5 : Vec Ideal S1x8192 .f32) :
    k1_pay5 (F := Ideal) x2 x3 x1 x4 x5 (ix2 0 0)
      = Cert.LossSpec.zeroW + ∑ r : Fin 128, (Cert.LossSpec.zeroW + ∑ j : Fin 8192,
          ((x1 (ix2 r j) * x4 (ix2 r 0)) * x5 (ix2 0 j)) * k1_pay4 (F := Ideal) x2 x3 (ix2 r j)) := by
  unfold k1_pay5
  refine (total_apply _).trans ?_
  refine congrArg (Cert.LossSpec.zeroW + ·) (Finset.sum_congr rfl fun r _ => ?_)
  refine congrArg (Cert.LossSpec.zeroW + ·) (Finset.sum_congr rfl fun j _ => ?_)
  rw [shapeCast_self, shapeCast_self]
  show (x1 (ix2 r j) * broadcastTo S128x8192 x4 broadcasts_S128x1_S128x8192 (ix2 r j))
      * broadcastTo S128x8192 x5 broadcasts_S1x8192_S128x8192 (ix2 r j) * k1_pay4 (F := Ideal) x2 x3 (ix2 r j) = _
  rw [Cert.RowOps.broadcastTo_a1_ab_apply, broadcastTo_1b_ab_apply]

/-- The band's similarity term: the sum over the band's rows of the row sums of the similarity. -/
theorem pay6_apply (x2 : Vec Ideal S128x256 .bf16) (x3 : Vec Ideal S8192x256 .bf16) :
    k1_pay6 (F := Ideal) x2 x3 (ix2 0 0)
      = Cert.LossSpec.zeroW + ∑ r : Fin 128, (Cert.LossSpec.zeroW + ∑ j : Fin 8192, k1_pay4 (F := Ideal) x2 x3 (ix2 r j)) := by
  unfold k1_pay6
  exact total_apply _

/-! ## The running sums -/

/-- The first running sum takes `+ (0.0 − cross)`. -/
theorem pay7_apply (x2 : Vec Ideal S128x256 .bf16) (x3 : Vec Ideal S8192x256 .bf16) (x1 : Vec Ideal S128x8192 .f32)
    (x4 : Vec Ideal S128x1 .f32) (x5 : Vec Ideal S1x8192 .f32) (v26 : Vec Ideal S1x1 .f32) :
    k1_pay7 (F := Ideal) x2 x3 x1 x4 x5 v26 (ix2 0 0)
      = v26 (ix2 0 0) + (Cert.LossSpec.zeroW - k1_pay5 (F := Ideal) x2 x3 x1 x4 x5 (ix2 0 0)) := by
  unfold k1_pay7
  exact congrFun (shapeCast_self _ shapeCasts_S1x1_S1x1) (ix2 0 0)

/-- The second running sum takes `+ (simSum − cross)`. -/
theorem pay1_apply (v21 v25 : FVec Ideal S1x1 .f32) (v33 : Vec Ideal S1x1 .f32) :
    k1_pay1 (F := Ideal) v21 v25 v33 (ix2 0 0) = v33 (ix2 0 0) + (v25 (ix2 0 0) - v21 (ix2 0 0)) := by
  unfold k1_pay1
  exact congrFun (shapeCast_self _ shapeCasts_S1x1_S1x1) (ix2 0 0)

/-- The first running sum starts from the word of `0.0`. -/
theorem pay2_apply : k1_pay2 (F := Ideal) (ix2 0 0) = Cert.LossSpec.zeroW := by
  unfold k1_pay2
  exact congrFun (shapeCast_self _ shapeCasts_S1x1_S1x1) (ix2 0 0)

/-- The second running sum starts from the word of `0.0`. -/
theorem pay3_apply : k1_pay3 (F := Ideal) (ix2 0 0) = Cert.LossSpec.zeroW := by
  unfold k1_pay3
  exact congrFun (shapeCast_self _ shapeCasts_S1x1_S1x1) (ix2 0 0)

end Cert.KernelIdeal.LossPay

end
-- ==== Proof.LossValue.lean ====
/-
  The loss kernel's accumulators, point by point, are the specification's running sums.

  At grid point `t` the kernel's blocks are band `t` of the adjacency array, band `t` and the whole of the
  normalised embeddings, band `t` of the column of scales and the whole row of scales. When the adjacency array is
  `A`, the normalised embeddings are `zn Z` and both scale arrays are `scale A`, the similarity block at `(r, j)`
  is `sim Z (128 t + r) j`, the band's cross term is `cross A Z t` and its similarity term `simSum Z t`: the
  factors `((A · scale i) · scale j) · sim` and the two nested sums stand in the same order on both sides, so no
  law of arithmetic is needed. Each point adds `0.0 − cross` to the first accumulator and `simSum − cross` to
  the second, starting from the word of `0.0`; this is the recursion that defines the specification's running
  sums, so after point `n` the accumulators hold the running sums after `n + 1` bands, and what the last point
  copies out are the running sums after all 64 bands.
-/
import proofs.«125553_j27504970563869_1_alg».proof.Proof.LossData
import proofs.«125553_j27504970563869_1_alg».proof.Proof.LossPieceValues
import proofs.«125553_j27504970563869_1_alg».proof.Proof.LossBlocks
import proofs.«125553_j27504970563869_1_alg».proof.Proof.LossPayloads
import proofs.«125553_j27504970563869_1_alg».proof.Proof.LossSpec

set_option maxRecDepth 16384

noncomputable section

namespace Cert.KernelIdeal.Loss

open Cert.KernelIdeal Cert.KernelIdeal.Gen Cert.KernelIdeal.LossPay
open Idealize.ShloMosaic Idealize.ShloMosaic.TcCoe Idealize.ShloMosaic.ValueIdx
open Idealize.SL.Sem
open Cert.LossSpec
open scoped BigOperators

/-! ## One band's terms, over blocks that hold the band -/

section Band

variable (A : Adj) (Z : Emb) (b : Fin 64)
  (x1 : Vec Ideal S128x8192 .f32) (x2 : Vec Ideal S128x256 .bf16) (x3 : Vec Ideal S8192x256 .bf16)
  (x4 : Vec Ideal S128x1 .f32) (x5 : Vec Ideal S1x8192 .f32)
  (h1 : ∀ (r : Fin 128) (j : Fin 8192), x1 (ix2 r j) = A (ix2 (tileRow b r) j))
  (h2 : ∀ (r : Fin 128) (k : Fin 256), x2 (ix2 r k) = zn Z (tileRow b r) k)
  (h3 : ∀ (j : Fin 8192) (k : Fin 256), x3 (ix2 j k) = zn Z j k)
  (h4 : ∀ r : Fin 128, x4 (ix2 r 0) = scale A (tileRow b r))
  (h5 : ∀ j : Fin 8192, x5 (ix2 0 j) = scale A j)

include h2 h3 in
/-- The similarity block at `(r, j)` is the similarity of row `r` of the band with row `j`. -/
theorem sim_block (r : Fin 128) (j : Fin 8192) :
    k1_pay4 (F := Ideal) x2 x3 (ix2 r j) = sim Z (tileRow b r) j := by
  rw [pay4_apply, sim]
  exact Finset.sum_congr rfl fun k _ => by rw [h2, h3]

include h1 h2 h3 h4 h5 in
/-- The band's cross term. -/
theorem cross_band : k1_pay5 (F := Ideal) x2 x3 x1 x4 x5 (ix2 0 0) = cross A Z b := by
  rw [pay5_apply, cross]
  refine congrArg (zeroW + ·) (Finset.sum_congr rfl fun r _ => ?_)
  refine congrArg (zeroW + ·) (Finset.sum_congr rfl fun j _ => ?_)
  rw [h1, h4, h5, sim_block Z b x2 x3 h2 h3, prod, anorm]

include h2 h3 in
/-- The band's similarity term. -/
theorem simSum_band : k1_pay6 (F := Ideal) x2 x3 (ix2 0 0) = simSum Z b := by
  rw [pay6_apply, simSum]
  refine congrArg (zeroW + ·) (Finset.sum_congr rfl fun r _ => ?_)
  refine congrArg (zeroW + ·) (Finset.sum_congr rfl fun j _ => ?_)
  exact sim_block Z b x2 x3 h2 h3 r j

include h1 h2 h3 h4 h5 in
/-- What a point leaves in the two accumulators, from what it found there. -/
theorem point_values (p0 p1 : Vec Ideal S1x1 .f32) :
    k1_pay7 (F := Ideal) x2 x3 x1 x4 x5 p0 (ix2 0 0) = p0 (ix2 0 0) + (zeroW - cross A Z b)
    ∧ k1_pay1 (F := Ideal) (k1_pay5 x2 x3 x1 x4 x5) (k1_pay6 x2 x3) p1 (ix2 0 0)
        = p1 (ix2 0 0) + (simSum Z b - cross A Z b) := by
  constructor
  · rw [pay7_apply, cross_band A Z b x1 x2 x3 x4 x5 h1 h2 h3 h4 h5]
  · rw [pay1_apply, cross_band A Z b x1 x2 x3 x4 x5 h1 h2 h3 h4 h5, simSum_band Z b x2 x3 h2 h3]

end Band

/-! ## The specification's running sums, one step -/

/-- The first running sum takes `+ (0.0 − cross n)` at band `n`. -/
theorem accHomo_succ (A : Adj) (Z : Emb) (n : ℕ) (h : n < 64) :
    accHomo A Z (n + 1) = accHomo A Z n + (zeroW - cross A Z ⟨n, h⟩) := by
  rw [accHomo, dif_pos h]

/-- The second running sum takes `+ (simSum n − cross n)` at band `n`. -/
theorem accHet_succ (A : Adj) (Z : Emb) (n : ℕ) (h : n < 64) :
    accHet A Z (n + 1) = accHet A Z n + (simSum Z ⟨n, h⟩ - cross A Z ⟨n, h⟩) := by
  rw [accHet, dif_pos h]

/-! ## What each kind of point leaves, as payloads of the point's blocks -/

section Points

variable (V : (c : Dev nD) → (b : Ref sig .tc) → Buf (Elt Ideal) ((c : Thread nD τ).loc b))

/-- The first point's pair: the payloads of its blocks, from the freshly zeroed accumulators. -/
theorem accA_values (c : Dev nD) (t : Fin cfg1.N) (h0 : t.val = 0) (h1 : ¬t.val = 63) :
    (accA V c t h0 h1).1 = k1_pay7 (F := Ideal) (iblk1 V c 1 t) (iblk1 V c 2 t) (iblk1 V c 0 t) (iblk1 V c 3 t) (iblk1 V c 4 t) (k1_pay2 (F := Ideal))
    ∧ (accA V c t h0 h1).2 = k1_pay1 (F := Ideal) (k1_pay5 (iblk1 V c 1 t) (iblk1 V c 2 t) (iblk1 V c 0 t) (iblk1 V c 3 t) (iblk1 V c 4 t)) (k1_pay6 (iblk1 V c 1 t) (iblk1 V c 2 t)) (k1_pay3 (F := Ideal)) := by
  unfold accA
  dsimp only
  exact ⟨soutA_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) _ _,
    soutA_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) _ _⟩

/-- A middle point's pair: the payloads of its blocks, from the pair before. -/
theorem accB_values (c : Dev nD) (t : Fin cfg1.N) (h0 : ¬t.val = 0) (h1 : ¬t.val = 63)
    (p : Vec Ideal S1x1 .f32 × Vec Ideal S1x1 .f32) :
    (accB V c t h0 h1 p).1 = k1_pay7 (F := Ideal) (iblk1 V c 1 t) (iblk1 V c 2 t) (iblk1 V c 0 t) (iblk1 V c 3 t) (iblk1 V c 4 t) p.1
    ∧ (accB V c t h0 h1 p).2 = k1_pay1 (F := Ideal) (k1_pay5 (iblk1 V c 1 t) (iblk1 V c 2 t) (iblk1 V c 0 t) (iblk1 V c 3 t) (iblk1 V c 4 t)) (k1_pay6 (iblk1 V c 1 t) (iblk1 V c 2 t)) p.2 := by
  unfold accB
  dsimp only
  exact ⟨soutB_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _,
    soutB_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _⟩

/-- The last point's pair: the payloads of its blocks, from the pair before. -/
theorem accC_values (c : Dev nD) (t : Fin cfg1.N) (h0 : ¬t.val = 0) (h1 : t.val = 63)
    (p : Vec Ideal S1x1 .f32 × Vec Ideal S1x1 .f32) :
    (accC V c t h0 h1 p).1 = k1_pay7 (F := Ideal) (iblk1 V c 1 t) (iblk1 V c 2 t) (iblk1 V c 0 t) (iblk1 V c 3 t) (iblk1 V c 4 t) p.1
    ∧ (accC V c t h0 h1 p).2 = k1_pay1 (F := Ideal) (k1_pay5 (iblk1 V c 1 t) (iblk1 V c 2 t) (iblk1 V c 0 t) (iblk1 V c 3 t) (iblk1 V c 4 t)) (k1_pay6 (iblk1 V c 1 t) (iblk1 V c 2 t)) p.2 := by
  unfold accC
  dsimp only
  exact ⟨soutC_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _,
    soutC_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _⟩

/-- The last point's output blocks: the same payloads, copied out. -/
theorem outC_values (c : Dev nD) (t : Fin cfg1.N) (h0 : ¬t.val = 0) (h1 : t.val = 63)
    (p : Vec Ideal S1x1 .f32 × Vec Ideal S1x1 .f32) :
    (outC V c t h0 h1 p).1 = k1_pay7 (F := Ideal) (iblk1 V c 1 t) (iblk1 V c 2 t) (iblk1 V c 0 t) (iblk1 V c 3 t) (iblk1 V c 4 t) p.1
    ∧ (outC V c t h0 h1 p).2 = k1_pay1 (F := Ideal) (k1_pay5 (iblk1 V c 1 t) (iblk1 V c 2 t) (iblk1 V c 0 t) (iblk1 V c 3 t) (iblk1 V c 4 t)) (k1_pay6 (iblk1 V c 1 t) (iblk1 V c 2 t)) p.2 := by
  unfold outC
  dsimp only
  exact ⟨outC_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _,
    outC_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t) (iblk1 V c 4 t) p.1 p.2 _ _⟩

/-! ## The accumulators are the running sums -/

section Spec

variable (c : Dev nD) (A : Adj) (Z : Emb)
  (hA : ∀ (i j : Fin 8192), (V c main_arg2 : Vec Ideal S8192x8192 .f32) (ix2 i j) = A (ix2 i j))
  (h12 : ∀ (i : Fin 8192) (k : Fin 256), (V c main_v12 : Vec Ideal S8192x256 .bf16) (ix2 i k) = zn Z i k)
  (h5 : ∀ i : Fin 8192, (V c main_v5 : Vec Ideal S8192x1 .f32) (ix2 i 0) = scale A i)
  (h6 : ∀ j : Fin 8192, (V c main_v6 : Vec Ideal S1x8192 .f32) (ix2 0 j) = scale A j)

include hA h12 h5 h6 in
/-- Point `t`'s payloads add band `t`'s terms onto what the point found. -/
theorem step_values (t : Fin cfg1.N) (p0 p1 : Vec Ideal S1x1 .f32) :
    k1_pay7 (F := Ideal) (iblk1 V c 1 t) (iblk1 V c 2 t) (iblk1 V c 0 t) (iblk1 V c 3 t) (iblk1 V c 4 t) p0 (ix2 0 0) = p0 (ix2 0 0) + (zeroW - cross A Z (band t))
    ∧ k1_pay1 (F := Ideal) (k1_pay5 (iblk1 V c 1 t) (iblk1 V c 2 t) (iblk1 V c 0 t) (iblk1 V c 3 t) (iblk1 V c 4 t)) (k1_pay6 (iblk1 V c 1 t) (iblk1 V c 2 t)) p1 (ix2 0 0)
        = p1 (ix2 0 0) + (simSum Z (band t) - cross A Z (band t)) :=
  point_values A Z (band t) (iblk1 V c 0 t) (iblk1 V c 1 t) (iblk1 V c 2 t) (iblk1 V c 3 t) (iblk1 V c 4 t)
    (fun r j => (iblk1_0_apply V c t r j).trans (hA (row t r) j))
    (fun r k => (iblk1_1_apply V c t r k).trans (h12 (row t r) k))
    (fun j k => (iblk1_2_apply V c t j k).trans (h12 j k))
    (fun r => (iblk1_3_apply V c t r).trans (h5 (row t r)))
    (fun j => (iblk1_4_apply V c t j).trans (h6 j))
    p0 p1

include hA h12 h5 h6 in
/-- After point `n` the accumulators hold the running sums after `n + 1` bands. -/
theorem accAt_spec (n : ℕ) (hn : n < cfg1.N) :
    (accAt V c n hn).1 (ix2 0 0) = accHomo A Z (n + 1) ∧ (accAt V c n hn).2 (ix2 0 0) = accHet A Z (n + 1) := by
  have hN : cfg1.N = 64 := N_1
  induction n with
  | zero =>
    obtain ⟨e0, e1⟩ := accA_values V c ⟨0, hn⟩ rfl (show ¬(0 : ℕ) = 63 by decide)
    obtain ⟨s0, s1⟩ := step_values V c A Z hA h12 h5 h6 ⟨0, hn⟩ (k1_pay2 (F := Ideal)) (k1_pay3 (F := Ideal))
    have e : accAt V c 0 hn = accA V c ⟨0, hn⟩ rfl (show ¬(0 : ℕ) = 63 by decide) := rfl
    rw [accHomo_succ A Z 0 (by norm_num), accHet_succ A Z 0 (by norm_num), e, e0, e1, s0, s1, pay2_apply, pay3_apply]
    exact ⟨rfl, rfl⟩
  | succ n ih =>
    have hn' : n < cfg1.N := Nat.lt_of_succ_lt hn
    obtain ⟨ih0, ih1⟩ := ih hn'
    have h64 : n + 1 < 64 := by omega
    obtain ⟨s0, s1⟩ := step_values V c A Z hA h12 h5 h6 ⟨n + 1, hn⟩ (accAt V c n hn').1 (accAt V c n hn').2
    rw [accHomo_succ A Z (n + 1) h64, accHet_succ A Z (n + 1) h64]
    by_cases h1 : n + 1 = 63
    · obtain ⟨e0, e1⟩ := accC_values V c ⟨n + 1, hn⟩ (Nat.succ_ne_zero n) h1 (accAt V c n hn')
      have e : accAt V c (n + 1) hn = accC V c ⟨n + 1, hn⟩ (Nat.succ_ne_zero n) h1 (accAt V c n hn') := dif_pos h1
      rw [e, e0, e1, s0, s1, ih0, ih1]
      exact ⟨rfl, rfl⟩
    · obtain ⟨e0, e1⟩ := accB_values V c ⟨n + 1, hn⟩ (Nat.succ_ne_zero n) h1 (accAt V c n hn')
      have e : accAt V c (n + 1) hn = accB V c ⟨n + 1, hn⟩ (Nat.succ_ne_zero n) h1 (accAt V c n hn') := dif_neg h1
      rw [e, e0, e1, s0, s1, ih0, ih1]
      exact ⟨rfl, rfl⟩

include hA h12 h5 h6 in
/-- What the last point copies out are the running sums after all 64 bands. -/
theorem outAt_spec (t : Fin cfg1.N) (ht : t.val = 63) :
    (outAt V c t).1 (ix2 0 0) = kerHomo A Z ∧ (outAt V c t).2 (ix2 0 0) = kerHet A Z := by
  have h0 : ¬t.val = 0 := by omega
  have hlt : t.val - 1 < cfg1.N := Nat.lt_of_le_of_lt (Nat.sub_le _ _) t.isLt
  obtain ⟨ih0, ih1⟩ := accAt_spec V c A Z hA h12 h5 h6 (t.val - 1) hlt
  obtain ⟨e0, e1⟩ := outC_values V c t h0 ht (accAt V c (t.val - 1) hlt)
  obtain ⟨s0, s1⟩ := step_values V c A Z hA h12 h5 h6 t (accAt V c (t.val - 1) hlt).1 (accAt V c (t.val - 1) hlt).2
  have h63 : t.val - 1 + 1 = 63 := by omega
  have hb : band t = ⟨63, by norm_num⟩ := Fin.ext ht
  have k0 : kerHomo A Z = accHomo A Z 63 + (zeroW - cross A Z ⟨63, by norm_num⟩) := accHomo_succ A Z 63 (by norm_num)
  have k1 : kerHet A Z = accHet A Z 63 + (simSum Z ⟨63, by norm_num⟩ - cross A Z ⟨63, by norm_num⟩) :=
    accHet_succ A Z 63 (by norm_num)
  rw [outAt_C V c t h0 ht, e0, e1, s0, s1, ih0, ih1, h63, hb, k0, k1]
  exact ⟨rfl, rfl⟩

end Spec

end Points

end Cert.KernelIdeal.Loss

end
-- ==== Proof.LossArrays.lean ====
/- The loss kernel's region, read off its proof data after all 64 grid points. Each of its two output arrays is one
   element; the output windows' block is that whole array at every point, and only the last point writes it back,
   so each output array ends holding the output block the last point's body left. The five input windows are never
   written back, so their arrays end as the region found them. -/
import proofs.«125553_j27504970563869_1_alg».proof.Proof.LossData
import Idealize.ShloMosaic.Lib.Pipeline.Value

set_option maxRecDepth 16384

noncomputable section

namespace Cert.KernelIdeal.Loss

open Cert.KernelIdeal Cert.KernelIdeal.Gen
open Idealize.ShloMosaic Idealize.ShloMosaic.TcCoe
open Idealize.SL.Sem
open Idealize.ShloMosaic.Pipeline (Dat)

variable {F : FTy → Type} [FloatOps F]

variable (V : (c : Dev nD) → (b : Ref sig .tc) → Buf (Elt F) ((c : Thread nD τ).loc b))

/-! ## Output window 5 -/

/-- The one write-back of window 5, at the last point, writes the first output block the body left there: the window's
    block is the whole one-element array, read through zero offsets. -/
theorem flushed5_eq (c : Dev nD) (t : Fin cfg1.N) (hf : (cfg1.win 5).flush t = true) :
    (dat1 V c).flushed 5 t = ((cfg1.win 5).blk t).view.read (Elt F) ((outAt V c ⟨63, by decide⟩).1 : Vec F S1x1 .f32) := by
  have hN : cfg1.N = 64 := N_1
  have h63 : t.val = 63 := by have := (flush1_5 t).mp hf; have := t.isLt; omega
  obtain rfl : t = ⟨63, by decide⟩ := Fin.ext h63
  show (cfg1.win 5).cut (grid1.coords ⟨63, by decide⟩) ((dat1 V c).after 5 ⟨63, by decide⟩) = _
  rw [after1_5]
  have hz' : (fun a => win1_5.index ⟨63, by decide⟩ a * main_v13_0.ty.shape.size a) = fun _ => 0 := funext fun a => by fin_cases a <;> rfl
  exact (Memref.read_access_unit_zero (Elt F) main_v13_0 hz' (fun a => by rw [congrFun hz' a]; simp) _).symm

/-- An index of the array is in point t's block of window 5 iff each coordinate is in the block's range on its axis. -/
theorem mem_blk5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v13_0).slice (win1_5.rect t)).set ↔ _
  rw [View.set_slice_whole, Rect.mem_set_unit]
  exact Iff.rfl

/-- The array's one element lies in the last point's block, which is written back. -/
theorem covered5 (i : S1x1.Idx) :
    ∃ t : Fin cfg1.N, (cfg1.win 5).flush t = true ∧ i ∈ ((cfg1.win 5).blk t).view.set := by
  have hi0 : (i 0).val < 1 := (i 0).isLt
  have hi1 : (i 1).val < 1 := (i 1).isLt
  refine ⟨⟨63, by decide⟩, (flush1_5 _).mpr rfl, ?_⟩
  rw [mem_blk5]
  intro a
  match a with
  | ⟨0, _⟩ => show 0 * 1 ≤ (i 0).val ∧ (i 0).val < 0 * 1 + 1; omega
  | ⟨1, _⟩ => show 0 * 1 ≤ (i 1).val ∧ (i 1).val < 0 * 1 + 1; omega

/-- After the region the first output array holds the first output block the last point left. -/
theorem out_arr5 (c : Dev nD) :
    ((dat1 V c).arrAt 5 cfg1.N : Vec F S1x1 .f32) = (outAt V c ⟨63, by decide⟩).1 :=
  (dat1 V c).arrAt_eq_of_cover 5 ((outAt V c ⟨63, by decide⟩).1 : Vec F S1x1 .f32) (fun t hf => flushed5_eq V c t hf) covered5

/-! ## Output window 6 -/

/-- The one write-back of window 6, at the last point, writes the second output block the body left there: the window's
    block is the whole one-element array, read through zero offsets. -/
theorem flushed6_eq (c : Dev nD) (t : Fin cfg1.N) (hf : (cfg1.win 6).flush t = true) :
    (dat1 V c).flushed 6 t = ((cfg1.win 6).blk t).view.read (Elt F) ((outAt V c ⟨63, by decide⟩).2 : Vec F S1x1 .f32) := by
  have hN : cfg1.N = 64 := N_1
  have h63 : t.val = 63 := by have := (flush1_6 t).mp hf; have := t.isLt; omega
  obtain rfl : t = ⟨63, by decide⟩ := Fin.ext h63
  show (cfg1.win 6).cut (grid1.coords ⟨63, by decide⟩) ((dat1 V c).after 6 ⟨63, by decide⟩) = _
  rw [after1_6]
  have hz' : (fun a => win1_6.index ⟨63, by decide⟩ a * main_v13_1.ty.shape.size a) = fun _ => 0 := funext fun a => by fin_cases a <;> rfl
  exact (Memref.read_access_unit_zero (Elt F) main_v13_1 hz' (fun a => by rw [congrFun hz' a]; simp) _).symm

/-- An index of the array is in point t's block of window 6 iff each coordinate is in the block's range on its axis. -/
theorem mem_blk6 (t : Fin cfg1.N) (i : S1x1.Idx) :
    i ∈ ((cfg1.win 6).blk t).view.set ↔ ∀ a : Fin 2, win1_6.index t a * S1x1.size a ≤ (i a).val ∧ (i a).val < win1_6.index t a * S1x1.size a + S1x1.size a := by
  show i ∈ ((View.whole main_v13_1).slice (win1_6.rect t)).set ↔ _
  rw [View.set_slice_whole, Rect.mem_set_unit]
  exact Iff.rfl

/-- The array's one element lies in the last point's block, which is written back. -/
theorem covered6 (i : S1x1.Idx) :
    ∃ t : Fin cfg1.N, (cfg1.win 6).flush t = true ∧ i ∈ ((cfg1.win 6).blk t).view.set := by
  have hi0 : (i 0).val < 1 := (i 0).isLt
  have hi1 : (i 1).val < 1 := (i 1).isLt
  refine ⟨⟨63, by decide⟩, (flush1_6 _).mpr rfl, ?_⟩
  rw [mem_blk6]
  intro a
  match a with
  | ⟨0, _⟩ => show 0 * 1 ≤ (i 0).val ∧ (i 0).val < 0 * 1 + 1; omega
  | ⟨1, _⟩ => show 0 * 1 ≤ (i 1).val ∧ (i 1).val < 0 * 1 + 1; omega

/-- After the region the second output array holds the second output block the last point left. -/
theorem out_arr6 (c : Dev nD) :
    ((dat1 V c).arrAt 6 cfg1.N : Vec F S1x1 .f32) = (outAt V c ⟨63, by decide⟩).2 :=
  (dat1 V c).arrAt_eq_of_cover 6 ((outAt V c ⟨63, by decide⟩).2 : Vec F S1x1 .f32) (fun t hf => flushed6_eq V c t hf) covered6

/-! ## The input windows' arrays -/

/-- An input window's array is never written back: it ends as the region found it. -/
theorem arr_in1_0 (c : Dev nD) : (dat1 V c).arrAt 0 cfg1.N = V c (Pipeline.arrRef spec1 0) :=
  ((dat1 V c).arrAt_in 0 rfl cfg1.N).trans (A_eq1 V c 0)
theorem arr_in1_1 (c : Dev nD) : (dat1 V c).arrAt 1 cfg1.N = V c (Pipeline.arrRef spec1 1) :=
  ((dat1 V c).arrAt_in 1 rfl cfg1.N).trans (A_eq1 V c 1)
theorem arr_in1_2 (c : Dev nD) : (dat1 V c).arrAt 2 cfg1.N = V c (Pipeline.arrRef spec1 2) :=
  ((dat1 V c).arrAt_in 2 rfl cfg1.N).trans (A_eq1 V c 2)
theorem arr_in1_3 (c : Dev nD) : (dat1 V c).arrAt 3 cfg1.N = V c (Pipeline.arrRef spec1 3) :=
  ((dat1 V c).arrAt_in 3 rfl cfg1.N).trans (A_eq1 V c 3)
theorem arr_in1_4 (c : Dev nD) : (dat1 V c).arrAt 4 cfg1.N = V c (Pipeline.arrRef spec1 4) :=
  ((dat1 V c).arrAt_in 4 rfl cfg1.N).trans (A_eq1 V c 4)

end Cert.KernelIdeal.Loss

end
-- ==== Proof.DegreeValue.lean ====
/- The first kernel region's output, read at the ideal values: after all 32 grid points the region's output array,
   an [8192, 1] column, holds at row i the degree of row i of the adjacency array as the region found it.

   Point t loads rows 256·t … 256·t + 255 of the adjacency array. Its payload at (r, 0) is the cast of the vector
   of row sums read at r, that is the sum over the lanes of row r of the block, which is row 256·t + r of the array.
   Block t of the output is rows 256·t … 256·t + 255 of the column, so what point t writes back is block t of the
   column of degrees; row i lies in block i / 256, so the blocks cover the column. The zero word is the real zero,
   so the degree's leading zero word adds nothing. -/
import proofs.«125553_j27504970563869_1_alg».proof.Proof.DegreeBody
import proofs.«125553_j27504970563869_1_alg».proof.Proof.LossSpec
import proofs.«125553_j27504970563869_1_alg».proof.Proof.LibRowOps
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Deg

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the ideal values
variable (V : (c : Dev nD) → (b : Ref sig .tc) → Buf (Elt Ideal) ((c : Thread nD τ).loc b))

/-- The zero offsets of a whole-block access. -/
theorem zero_offsets : (![0, 0] : Fin 2 → Nat) = fun _ => 0 := funext fun a => by fin_cases a <;> rfl

/-! ## The payload at an index -/

/-- The column the body stores, at (r, 0): the sum over the lanes of row r of the loaded block. -/
theorem rowSum_apply (x0 : Vec Ideal S256x8192 .f32) (r : Fin 256) (z : Fin 1) :
    (k0_pay1 (F := Ideal) x0 : S256x1.Idx → EReal) (ix2 r z) = ∑ j : Fin 8192, (x0 : S256x8192.Idx → EReal) (ix2 r j) := by
  unfold k0_pay1
  refine (Cert.RowOps.shapeCast_a_a1_apply _ shapeCasts_S256_S256x1 r z).trans ?_
  exact Cert.RowOps.multiReduction_add_row x0 0x00000000#32 reduces_S256x8192_S256 (.inl rfl) rfl r

/-! ## The blocks' rows -/

/-- The printed index maps, decided over the grid: at point t both windows are at block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows 256·t … 256·t + 255 of the adjacency array. -/
theorem iblk_apply (c : Dev nD) (t : Fin cfg0.N) (x : S256x8192.Idx) (k : S8192x8192.Idx)
    (hk0 : (k 0).val = 256 * t.val + (x 0).val) (hk1 : (k 1).val = (x 1).val) :
    (iblk0 V c 0 t : Vec Ideal S256x8192 .f32) x = (V c main_arg2 : S8192x8192.Idx → EReal) k := by
  obtain ⟨e0, e1, -, -⟩ := block_index t
  unfold iblk0
  rw [View.read_apply]
  show V c main_arg2 _ = V c main_arg2 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 8192 + 1 * (x 1).val = (k 1).val; rw [e1, hk1]; omega

/-! ## The column of degrees -/

/-- The column of row degrees of an adjacency array. -/
def degCol (A : Cert.LossSpec.Adj) : S8192x1.Idx → EReal :=
  fun i => Cert.LossSpec.deg A ⟨(i 0).val, idx2_lt0 i⟩

/-- What point t stores at (r, 0) is the degree of row 256·t + r. -/
theorem stored_apply (c : Dev nD) (t : Fin cfg0.N) (y : S256x1.Idx) (k : S8192x1.Idx)
    (hk0 : (k 0).val = 256 * t.val + (y 0).val) :
    (k0_pay1 (F := Ideal) (iblk0 V c 0 t) : S256x1.Idx → EReal) y = degCol (V c main_arg2) k := by
  obtain ⟨r, z, rfl⟩ : ∃ (r : Fin 256) (z : Fin 1), y = ix2 r z := ⟨y 0, y 1, eq_ix2 y⟩
  refine (rowSum_apply (iblk0 V c 0 t) r z).trans ?_
  unfold degCol Cert.LossSpec.deg
  rw [show Cert.LossSpec.zeroW = (0 : EReal) from Ideal.ofBits_zero_f32, zero_add]
  refine Finset.sum_congr rfl fun j _ => ?_
  exact iblk_apply V c t (ix2 r j) (ix2 (⟨(k 0).val, idx2_lt0 k⟩ : Fin 8192) j) hk0 rfl

/-- What point t writes back is block t of the column of degrees. -/
theorem flushed_eq (c : Dev nD) (t : Fin cfg0.N) :
    (dat0 V c).flushed 1 t = ((cfg0.win 1).blk t).view.read (Elt Ideal) (degCol (V c main_arg2)) := by
  show (cfg0.win 1).cut (grid0.coords t) ((dat0 V c).after 1 t) = _
  rw [after0_1]
  unfold out0_1
  rw [View.canon_unit_zero zero_offsets]
  simp only [View.ld_unit_zero (S := S256x8192) zero_offsets]
  obtain ⟨-, -, e0, -⟩ := block_index t
  funext y
  refine stored_apply V c t y (((cfg0.win 1).blk t).view.emb y) ?_
  show win0_1.index t (0 : Fin 2) * 256 + 1 * (y 0).val = 256 * t.val + (y 0).val
  rw [e0]; omega

/-! ## The cover -/

/-- An index of the column is in point t's block iff each coordinate is in the block's range on its axis. -/
theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Row i of the column lies in the block of point i / 256, which is written back. -/
theorem covered (i : S8192x1.Idx) :
    ∃ t : Fin cfg0.N, (cfg0.win 1).flush t = true ∧ i ∈ ((cfg0.win 1).blk t).view.set := by
  have hN : cfg0.N = 32 := N_0
  have hi0 : (i 0).val < 8192 := (i 0).isLt
  have hi1 : (i 1).val < 1 := (i 1).isLt
  let t : Fin cfg0.N := ⟨(i 0).val / 256, by omega⟩
  have ht : t.val = (i 0).val / 256 := rfl
  obtain ⟨-, -, e0, e1⟩ := block_index t
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; rw [e0, ht]; omega
  | ⟨1, _⟩ => show win0_1.index t (1 : Fin 2) * 1 ≤ (i 1).val ∧ (i 1).val < win0_1.index t (1 : Fin 2) * 1 + 1; rw [e1]; omega

/-! ## The array after the region -/

/-- After all 32 points the region's output array is the column of row degrees of the adjacency array as the
    region found it. -/
theorem degree_col (c : Dev nD) :
    ((dat0 (F := Ideal) V c).arrAt 1 cfg0.N : S8192x1.Idx → EReal)
      = fun i => Cert.LossSpec.deg (V c main_arg2) ⟨(i 0).val, (i 0).isLt⟩ :=
  (dat0 V c).arrAt_eq_of_cover 1 (degCol (V c main_arg2)) (fun t _ => flushed_eq V c t) covered

end Cert.KernelIdeal.Deg

end
-- ==== Proof.HostStages.lean ====
/-
  What the host operations between and after the kernel's two regions leave in the buffers, read index by index
  at the extended reals, from arbitrary contents `W` of the buffers before each stretch.

  The first stretch turns the column of degrees `d` (one entry per row) into the column of scales
  `1 / √(d i + ε)` and lays the same numbers out as a row. The next two compute, for the embeddings `Z`,
  the row norms `√(0 + Σ_k Z (i, k)²)`, floor them at `tiny` and divide each row of `Z` by its floored
  norm (the change of float format at the end is the identity on the extended reals). The last stretch
  reads the two one-by-one results as scalars. Each stretch leaves every buffer it does not write as it was.
-/
import proofs.«125553_j27504970563869_1_alg».proof.Proof.Gen.KernelIdeal.Launch
import proofs.«125553_j27504970563869_1_alg».proof.Proof.Gen.KernelIdeal.Regions
import proofs.«125553_j27504970563869_1_alg».proof.Proof.LossSpec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Host

open Idealize.ShloMosaic Idealize.ShloMosaic.ValueIdx Idealize.SL.Sem
open Cert.KernelIdeal Cert.KernelIdeal.Gen

/-! ## The first stretch: the scales as a column and as a row -/

/-- The column of scales as a function of the column of degrees `d`: `1 / √(d + ε)` at every row, the
    constants `1` and `ε` spread over the column. -/
def colTerm (d : FVec Ideal S8192x1 .f32) : FVec Ideal S8192x1 .f32 :=
  Host.divf (broadcastInDim S8192x1 ![] bcast_S_S8192x1 (constant (F := Ideal) S_ .f32 0x3F800000#32))
    (Host.sqrt (addf d (broadcastInDim S8192x1 ![] bcast_S_S8192x1 (constant (F := Ideal) S_ .f32 0x2EDBE6FF#32))))

/-- After the first stretch the scale column is `colTerm` of the degree column that was there before. -/
theorem after1_v5 (W : Valuation τ sig (Elt Ideal)) :
    (StableHlo.after hostOps1 W (Proc.devRef .tc main_v5) : S8192x1.Idx → EReal) = colTerm (W (Proc.devRef .tc main_v0)) := by
  show StableHlo.after hostOps1 W (Proc.devRef .tc main_v5) = _
  after_results <;> rfl

/-- … and the scale row is the same column under the shape `[1, 8192]`. -/
theorem after1_v6 (W : Valuation τ sig (Elt Ideal)) :
    (StableHlo.after hostOps1 W (Proc.devRef .tc main_v6) : S1x8192.Idx → EReal)
      = shapeCast S1x8192 (colTerm (W (Proc.devRef .tc main_v0))) shapeCasts_S8192x1_S1x8192 := by
  show StableHlo.after hostOps1 W (Proc.devRef .tc main_v6) = _
  after_results <;> rfl

/-- Row `i` of the scale column is `1 / √(d (i, 0) + ε)`, `d` the degree column before the stretch. -/
theorem scale_col (W : Valuation τ sig (Elt Ideal)) (d : S8192x1.Idx → EReal)
    (hd : (W (Proc.devRef .tc main_v0) : S8192x1.Idx → EReal) = d) (i : Fin 8192) :
    (StableHlo.after hostOps1 W (Proc.devRef .tc main_v5) : S8192x1.Idx → EReal) (ix2 i 0)
      = Ideal.div Cert.LossSpec.oneW (Ideal.sqrt (d (ix2 i 0) + Cert.LossSpec.epsW)) := by
  rw [after1_v5, hd]
  rfl

/-- Entry `(0, j)` of the scale row is entry `(j, 0)` of the scale column: both sit at row-major position `j`. -/
theorem scale_row (W : Valuation τ sig (Elt Ideal)) (j : Fin 8192) :
    (StableHlo.after hostOps1 W (Proc.devRef .tc main_v6) : S1x8192.Idx → EReal) (ix2 0 j)
      = (StableHlo.after hostOps1 W (Proc.devRef .tc main_v5) : S8192x1.Idx → EReal) (ix2 j 0) := by
  rw [after1_v6, after1_v5]
  refine shapeCast_apply _ _ (ix2 0 j) (ix2 j 0) ?_
  rw [Shape.rowMajor_val_two, Shape.rowMajor_val_two]
  show j.val * 1 + 0 = 0 * 8192 + j.val
  omega

/-! ## The second and third stretches: the rows of `Z` over their floored norms -/

/-- The column of row norms of `Z`: the square root of the row sums of the squares, the sums started from `0`. -/
def normTerm (Z : FVec Ideal S8192x256 .f32) : FVec Ideal S8192x1 .f32 :=
  Host.sqrt (broadcastInDim S8192x1 ![0] bcast_S8192_S8192x1_0
    (Host.reduceAdd (mulf Z Z) (constant (F := Ideal) S_ .f32 0x00000000#32) reducesTo_S8192x256_S8192_d1 h_S_))

/-- `Z` with each row divided by the larger of its norm and `tiny`, the norm column spread over the 256 columns. -/
def znTerm (Z : FVec Ideal S8192x256 .f32) : FVec Ideal S8192x256 .bf16 :=
  truncf .bf16 (Host.divf Z (broadcastInDim S8192x256 ![0, 1] bcast_S8192x1_S8192x256_0_1
    (maximumf (normTerm Z) (broadcastInDim S8192x1 ![] bcast_S_S8192x1 (constant (F := Ideal) S_ .f32 0x2B8CBCCC#32)))))
    bitsLt_bf16_f32

/-- After the two stretches the normalised embeddings are `znTerm` of the embeddings that were there before. -/
theorem after12_v12 (W : Valuation τ sig (Elt Ideal)) :
    (StableHlo.after hostOps1_2 (StableHlo.after hostOps1_1 W) (Proc.devRef .tc main_v12) : S8192x256.Idx → EReal)
      = znTerm (W (Proc.devRef .tc main_arg1)) := by
  show StableHlo.after hostOps1_2 (StableHlo.after hostOps1_1 W) (Proc.devRef .tc main_v12) = _
  after_results <;> rfl

/-- Row `i` of the norm column is `√(0 + Σ_k Z (i, k) · Z (i, k))`. -/
theorem normTerm_apply (Z : FVec Ideal S8192x256 .f32) (i : Fin 8192) :
    normTerm Z (ix2 i 0) = Cert.LossSpec.rnorm Z i := by
  unfold normTerm Cert.LossSpec.rnorm
  show Ideal.sqrt (broadcastInDim (s := S8192) S8192x1 ![0] bcast_S8192_S8192x1_0 _ (ix2 i 0)) = _
  refine congrArg Ideal.sqrt ?_
  -- the vector of row sums spread to a column: entry `(i, 0)` reads entry `i`
  rw [broadcastInDim_apply _ _ _ (ix2 i 0) (ix1 i) (fun a => by match a with | ⟨0, _⟩ => rfl)]
  -- the sum along the second axis at row `i`: the initial value plus the sum over the column `k`
  simp only [Host.reduceAdd, Ideal.hostReduceAdd_def]
  rw [Ideal.hostReduceAdd_single reducesTo_S8192x256_S8192_d1 (by decide)]
  refine congrArg₂ (· + ·) rfl (Finset.sum_congr rfl fun k _ => ?_)
  -- the index with the column `k` inserted into the row index `(i)` is `(i, k)`
  have hk : (Shape.Reduces.lift (by decide : S8192x256.Reduces [1] S8192) (ix1 i) k) = ix2 i k :=
    funext fun a => Fin.ext (by match a with | ⟨0, _⟩ => rfl | ⟨1, _⟩ => rfl)
  exact congrArg (fun t => Z t * Z t) hk

/-- Entry `(i, k)` of `znTerm Z` is `Z (i, k) / max (norm of row i) tiny`. -/
theorem znTerm_apply (Z : FVec Ideal S8192x256 .f32) (i : Fin 8192) (k : Fin 256) :
    znTerm Z (ix2 i k) = Cert.LossSpec.zn Z i k := by
  unfold znTerm Cert.LossSpec.zn
  show Ideal.div (Z (ix2 i k)) (broadcastInDim (s := S8192x1) S8192x256 ![0, 1] bcast_S8192x1_S8192x256_0_1 _ (ix2 i k)) = _
  -- the column spread over the 256 columns: entry `(i, k)` reads entry `(i, 0)`
  rw [broadcastInDim_apply _ _ _ (ix2 i k) (ix2 i 0) (fun a => by match a with | ⟨0, _⟩ => rfl | ⟨1, _⟩ => rfl)]
  show Ideal.div (Z (ix2 i k)) (max (normTerm Z (ix2 i 0)) Cert.LossSpec.tinyW) = _
  rw [normTerm_apply]

/-- Entry `(i, k)` of the normalised embeddings after the two stretches, from the embeddings before them. -/
theorem znorm_entry (W : Valuation τ sig (Elt Ideal)) (i : Fin 8192) (k : Fin 256) :
    (StableHlo.after hostOps1_2 (StableHlo.after hostOps1_1 W) (Proc.devRef .tc main_v12) : S8192x256.Idx → EReal) (ix2 i k)
      = Cert.LossSpec.zn (W (Proc.devRef .tc main_arg1)) i k := by
  rw [after12_v12]
  exact znTerm_apply _ i k

/-! ## The last stretch: the two one-by-one results as scalars -/

/-- A one-by-one array under the scalar shape reads its one entry. -/
theorem scalar_of_1x1 (x : S1x1.Idx → EReal) : shapeCast S_ x shapeCasts_S1x1_S_ = fun _ => x (ix2 0 0) := by
  funext j
  refine shapeCast_apply _ _ j (ix2 0 0) ?_
  rw [Shape.rowMajor_val_two]
  have := (S_.rowMajor j).isLt
  have h1 : S_.numel = 1 := by decide
  show 0 * 1 + 0 = (S_.rowMajor j).val
  omega

theorem out_homo (W : Valuation τ sig (Elt Ideal)) :
    (StableHlo.after hostOps2 W (Proc.devRef .tc main_v14) : S_.Idx → EReal)
      = fun _ => (W (Proc.devRef .tc main_v13_0) : S1x1.Idx → EReal) (ix2 0 0) := by
  have e : (StableHlo.after hostOps2 W (Proc.devRef .tc main_v14) : S_.Idx → EReal)
      = shapeCast S_ (W (Proc.devRef .tc main_v13_0) : S1x1.Idx → EReal) shapeCasts_S1x1_S_ := by
    show StableHlo.after hostOps2 W (Proc.devRef .tc main_v14) = _
    after_results <;> rfl
  rw [e]
  exact scalar_of_1x1 _

theorem out_het (W : Valuation τ sig (Elt Ideal)) :
    (StableHlo.after hostOps2 W (Proc.devRef .tc main_v15) : S_.Idx → EReal)
      = fun _ => (W (Proc.devRef .tc main_v13_1) : S1x1.Idx → EReal) (ix2 0 0) := by
  have e : (StableHlo.after hostOps2 W (Proc.devRef .tc main_v15) : S_.Idx → EReal)
      = shapeCast S_ (W (Proc.devRef .tc main_v13_1) : S1x1.Idx → EReal) shapeCasts_S1x1_S_ := by
    show StableHlo.after hostOps2 W (Proc.devRef .tc main_v15) = _
    after_results <;> rfl
  rw [e]
  exact scalar_of_1x1 _

/-! ## What each stretch leaves as it was -/

/-- The first stretch writes neither argument nor the degree column. -/
theorem keep1_arg1 (W : Valuation τ sig (Elt Ideal)) :
    StableHlo.after hostOps1 W (Proc.devRef .tc main_arg1) = W (Proc.devRef .tc main_arg1) :=
  StableHlo.after_of_writes_sub hostOps1 W hostOps1_writes (by decide)
theorem keep1_arg2 (W : Valuation τ sig (Elt Ideal)) :
    StableHlo.after hostOps1 W (Proc.devRef .tc main_arg2) = W (Proc.devRef .tc main_arg2) :=
  StableHlo.after_of_writes_sub hostOps1 W hostOps1_writes (by decide)
theorem keep1_v0 (W : Valuation τ sig (Elt Ideal)) :
    StableHlo.after hostOps1 W (Proc.devRef .tc main_v0) = W (Proc.devRef .tc main_v0) :=
  StableHlo.after_of_writes_sub hostOps1 W hostOps1_writes (by decide)

/-- The second stretch writes neither the adjacency nor the scales. -/
theorem keep1_1_arg2 (W : Valuation τ sig (Elt Ideal)) :
    StableHlo.after hostOps1_1 W (Proc.devRef .tc main_arg2) = W (Proc.devRef .tc main_arg2) :=
  StableHlo.after_of_writes_sub hostOps1_1 W hostOps1_1_writes (by decide)
theorem keep1_1_v5 (W : Valuation τ sig (Elt Ideal)) :
    StableHlo.after hostOps1_1 W (Proc.devRef .tc main_v5) = W (Proc.devRef .tc main_v5) :=
  StableHlo.after_of_writes_sub hostOps1_1 W hostOps1_1_writes (by decide)
theorem keep1_1_v6 (W : Valuation τ sig (Elt Ideal)) :
    StableHlo.after hostOps1_1 W (Proc.devRef .tc main_v6) = W (Proc.devRef .tc main_v6) :=
  StableHlo.after_of_writes_sub hostOps1_1 W hostOps1_1_writes (by decide)

/-- Nor does the third. -/
theorem keep1_2_arg2 (W : Valuation τ sig (Elt Ideal)) :
    StableHlo.after hostOps1_2 W (Proc.devRef .tc main_arg2) = W (Proc.devRef .tc main_arg2) :=
  StableHlo.after_of_writes_sub hostOps1_2 W hostOps1_2_writes (by decide)
theorem keep1_2_v5 (W : Valuation τ sig (Elt Ideal)) :
    StableHlo.after hostOps1_2 W (Proc.devRef .tc main_v5) = W (Proc.devRef .tc main_v5) :=
  StableHlo.after_of_writes_sub hostOps1_2 W hostOps1_2_writes (by decide)
theorem keep1_2_v6 (W : Valuation τ sig (Elt Ideal)) :
    StableHlo.after hostOps1_2 W (Proc.devRef .tc main_v6) = W (Proc.devRef .tc main_v6) :=
  StableHlo.after_of_writes_sub hostOps1_2 W hostOps1_2_writes (by decide)

/-- The second and third stretches together. -/
theorem keep12_arg2 (W : Valuation τ sig (Elt Ideal)) :
    StableHlo.after hostOps1_2 (StableHlo.after hostOps1_1 W) (Proc.devRef .tc main_arg2) = W (Proc.devRef .tc main_arg2) :=
  (keep1_2_arg2 _).trans (keep1_1_arg2 W)
theorem keep12_v5 (W : Valuation τ sig (Elt Ideal)) :
    StableHlo.after hostOps1_2 (StableHlo.after hostOps1_1 W) (Proc.devRef .tc main_v5) = W (Proc.devRef .tc main_v5) :=
  (keep1_2_v5 _).trans (keep1_1_v5 W)
theorem keep12_v6 (W : Valuation τ sig (Elt Ideal)) :
    StableHlo.after hostOps1_2 (StableHlo.after hostOps1_1 W) (Proc.devRef .tc main_v6) = W (Proc.devRef .tc main_v6) :=
  (keep1_2_v6 _).trans (keep1_1_v6 W)

end Cert.KernelIdeal.Host

end
-- ==== Proof.Bridge.lean ====
/-
  The idealized kernel program's two results are the band-by-band losses of its arguments.

  After its first region the column main_v0 holds the row degrees of the adjacency argument; the host
  operations between the regions turn it into the scale column 1 / √(degree + ε) and its row form, and
  the embeddings argument into its row-normalised form; the second region's accumulators then run
  through the 64 bands exactly as the specification's running sums do, and its two one-element output
  arrays, reshaped to scalars, are the program's results.
-/
import proofs.«125553_j27504970563869_1_alg».proof.Proof.KernelRun
import proofs.«125553_j27504970563869_1_alg».proof.Proof.LossValue
import proofs.«125553_j27504970563869_1_alg».proof.Proof.LossArrays
import proofs.«125553_j27504970563869_1_alg».proof.Proof.DegreeValue
import proofs.«125553_j27504970563869_1_alg».proof.Proof.HostStages

noncomputable section

namespace Cert.KernelIdeal.Bridge

open Cert.KernelIdeal Cert.KernelIdeal.Gen Cert.KernelIdeal.Run Cert.KernelIdeal.Host
open Idealize.ShloMosaic Idealize.ShloMosaic.TcCoe Idealize.ShloMosaic.ValueIdx Idealize.SL.Sem

variable (m : (ℓ : Loc nD τ sig) → Buf (Elt Ideal) ℓ) (c : Dev nD)

/-- The adjacency argument and the embeddings argument on core `c`. -/
abbrev adj : Cert.LossSpec.Adj := m ((c.tc : Thread nD τ).loc main_arg2)
abbrev emb : Cert.LossSpec.Emb := m ((c.tc : Thread nD τ).loc main_arg1)

/-- The adjacency argument reaches the second region as launched. -/
theorem V4_arg2 : V4 m c main_arg2 = adj m c :=
  (keep12_arg2 (W2 m c)).trans ((keep1_arg2 (W1 m c)).trans (W1_of_ne m c main_arg2 (by decide)))

/-- The normalised embeddings the second region reads. -/
theorem V4_v12 (i : Fin 8192) (k : Fin 256) :
    (V4 m c main_v12 : S8192x256.Idx → EReal) (ix2 i k) = Cert.LossSpec.zn (emb m c) i k := by
  refine (znorm_entry (W2 m c) i k).trans ?_
  rw [show W2 m c (Proc.devRef .tc main_arg1) = emb m c from
    (keep1_arg1 (W1 m c)).trans (W1_of_ne m c main_arg1 (by decide))]

/-- The first region leaves the column of row degrees. -/
theorem o1_apply (i : Fin 8192) : (o1 m c : S8192x1.Idx → EReal) (ix2 i 0) = Cert.LossSpec.deg (adj m c) i :=
  congrFun (Cert.KernelIdeal.Deg.degree_col (V0 m) c) (ix2 i 0)

/-- The scale column the second region reads. -/
theorem V4_v5 (i : Fin 8192) :
    (V4 m c main_v5 : S8192x1.Idx → EReal) (ix2 i 0) = Cert.LossSpec.scale (adj m c) i := by
  refine (congrFun (keep12_v5 (W2 m c)) (ix2 i 0)).trans ?_
  refine (scale_col (W1 m c) (o1 m c) (W1_v0 m c) i).trans ?_
  rw [o1_apply]; rfl

/-- The scale row the second region reads: the column's entries. -/
theorem V4_v6 (j : Fin 8192) :
    (V4 m c main_v6 : S1x8192.Idx → EReal) (ix2 0 j) = Cert.LossSpec.scale (adj m c) j := by
  refine (congrFun (keep12_v6 (W2 m c)) (ix2 0 j)).trans ?_
  refine (scale_row (W1 m c) j).trans ?_
  refine (scale_col (W1 m c) (o1 m c) (W1_v0 m c) j).trans ?_
  rw [o1_apply]; rfl

/-- The first result: the first loss accumulated band by band. -/
theorem res_homo : (W6 m c (Proc.devRef .tc main_v14) : S_.Idx → EReal) = fun _ => Cert.LossSpec.kerHomo (adj m c) (emb m c) := by
  refine (out_homo (W5 m c)).trans (funext fun _ => ?_)
  rw [W5_v13_0 m c]
  refine (congrFun (Cert.KernelIdeal.Loss.out_arr5 (V4 m) c) (ix2 0 0)).trans ?_
  exact (Cert.KernelIdeal.Loss.outAt_spec (V4 m) c (adj m c) (emb m c)
    (fun i j => congrFun (V4_arg2 m c) (ix2 i j)) (V4_v12 m c) (V4_v5 m c) (V4_v6 m c) ⟨63, by decide⟩ rfl).1

/-- The second result: the second loss accumulated band by band. -/
theorem res_het : (W6 m c (Proc.devRef .tc main_v15) : S_.Idx → EReal) = fun _ => Cert.LossSpec.kerHet (adj m c) (emb m c) := by
  refine (out_het (W5 m c)).trans (funext fun _ => ?_)
  rw [W5_v13_1 m c]
  refine (congrFun (Cert.KernelIdeal.Loss.out_arr6 (V4 m) c) (ix2 0 0)).trans ?_
  exact (Cert.KernelIdeal.Loss.outAt_spec (V4 m) c (adj m c) (emb m c)
    (fun i j => congrFun (V4_arg2 m c) (ix2 i j)) (V4_v12 m c) (V4_v5 m c) (V4_v6 m c) ⟨63, by decide⟩ rfl).2

end Cert.KernelIdeal.Bridge

end
-- ==== Proof.LossAlgebra.lean ====
/-
  The adjacency loss accumulated over 64 bands of 128 rows equals the loss written as one sum over the whole
  matrix, for finite inputs whose row degrees are non-negative.

  On the extended reals negation does not distribute over a sum that holds both infinities, and
  `(1 − a) · c = c − a · c` fails at the infinities, so the argument goes through finiteness: every
  intermediate value is a real number. The degree `d i` is a real `≥ 0` and `ε` a positive real, so
  `√(d i + ε)` is a positive real and the scale `1 / √(d i + ε)` a real; the row norm is a real `≥ 0` and
  the floor a positive real, so their maximum is a positive real and each normalised entry a real. Hence the
  normalised adjacency `a (i, j)` and the similarity `c (i, j)` are reals, and both losses are identities
  between finite sums of reals: the rows `0 … 8191` are the rows `128 t + r` with `t < 64`, `r < 128`;
  the first running sum after `n` bands is `−Σ_{t < n} cross t`, the second `Σ_{t < n} (simSum t − cross t)`;
  and `Σ (1 − a) · c = Σ c − Σ a · c`.
-/
import proofs.«125553_j27504970563869_1_alg».proof.Proof.LossSpec

noncomputable section

namespace Cert.LossAlgebra

open Idealize.ShloMosaic Idealize.ShloMosaic.ValueIdx Cert.LossSpec
open scoped BigOperators

/-! ## The four words as reals -/

/-- The word of `0.0` denotes `0`. -/
theorem zeroW_eq : zeroW = 0 := by
  simp [Ideal.ofBits, Ideal.ieee]

/-- The word of `1.0` denotes the real `1`. -/
theorem oneW_eq : oneW = ((1 : ℝ) : EReal) := by
  simp [Ideal.ofBits, Ideal.ieee, -EReal.coe_mul]; norm_num

/-- The word of `1e-10` denotes the positive real `14411519 · 2⁻⁵⁷`. -/
theorem epsW_pos : ∃ e : ℝ, 0 < e ∧ epsW = (e : EReal) := by
  refine ⟨14411519 * (2 : ℝ) ^ (-57 : ℤ), by positivity, ?_⟩
  simp [Ideal.ofBits, Ideal.ieee, -EReal.coe_mul]

/-- The word of `1e-12` denotes the positive real `9223372 · 2⁻⁶³`. -/
theorem tinyW_pos : ∃ e : ℝ, 0 < e ∧ tinyW = (e : EReal) := by
  refine ⟨9223372 * (2 : ℝ) ^ (-63 : ℤ), by positivity, ?_⟩
  simp [Ideal.ofBits, Ideal.ieee, -EReal.coe_mul]

/-! ## Coercion of reals into the extended reals -/

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The square root of a non-negative real is the real square root. -/
theorem sqrt_coe_of_nonneg {r : ℝ} (h : 0 ≤ r) : Ideal.sqrt (r : EReal) = ((Real.sqrt r : ℝ) : EReal) := by
  rw [Ideal.sqrt_coe, if_neg (not_lt.mpr h)]

/-- A real divided by a nonzero real is a real. -/
theorem div_coe_coe (x : ℝ) {y : ℝ} (h : y ≠ 0) : Ideal.div (x : EReal) (y : EReal) = ((x * (1 / y) : ℝ) : EReal) := by
  rw [Ideal.div_coe h, ← EReal.coe_mul]

/-! ## Every intermediate value is a real -/

/-- The scale of a row of non-negative degree is a real. -/
theorem scale_real (A : Adj) (hA : ∀ i, ∃ r : ℝ, A i = (r : EReal)) (i : Fin 8192) (hdeg : 0 ≤ deg A i) :
    ∃ s : ℝ, scale A i = (s : EReal) := by
  choose a ha using hA
  obtain ⟨e, he, hE⟩ := epsW_pos
  have hd : deg A i = ((∑ j : Fin 8192, a (ix2 i j) : ℝ) : EReal) := by
    rw [deg, zeroW_eq, zero_add, coe_sum]
    exact Finset.sum_congr rfl fun j _ => ha _
  have hd0 : 0 ≤ ∑ j : Fin 8192, a (ix2 i j) := by
    rw [hd] at hdeg; exact EReal.coe_nonneg.mp hdeg
  have hpos : 0 < ∑ j : Fin 8192, a (ix2 i j) + e := by linarith
  refine ⟨1 * (1 / Real.sqrt (∑ j : Fin 8192, a (ix2 i j) + e)), ?_⟩
  rw [scale, hd, hE, ← EReal.coe_add, sqrt_coe_of_nonneg hpos.le, oneW_eq,
    div_coe_coe _ (Real.sqrt_pos.mpr hpos).ne']

/-- The normalised adjacency is a real. -/
theorem anorm_real (A : Adj) (hA : ∀ i, ∃ r : ℝ, A i = (r : EReal))
    (hdeg : ∀ i : Fin 8192, 0 ≤ deg A i) (i j : Fin 8192) : ∃ r : ℝ, anorm A i j = (r : EReal) := by
  obtain ⟨si, hsi⟩ := scale_real A hA i (hdeg i)
  obtain ⟨sj, hsj⟩ := scale_real A hA j (hdeg j)
  obtain ⟨a, ha⟩ := hA (ix2 i j)
  exact ⟨a * si * sj, by rw [anorm, ha, hsi, hsj, ← EReal.coe_mul, ← EReal.coe_mul]⟩

/-- Each entry of a row divided by its floored norm is a real. -/
theorem zn_real (Z : Emb) (hZ : ∀ i, ∃ r : ℝ, Z i = (r : EReal)) (i : Fin 8192) (k : Fin 256) :
    ∃ r : ℝ, zn Z i k = (r : EReal) := by
  choose z hz using hZ
  obtain ⟨τ, hτ, hT⟩ := tinyW_pos
  have hsq : 0 ≤ ∑ k : Fin 256, z (ix2 i k) * z (ix2 i k) :=
    Finset.sum_nonneg fun k _ => mul_self_nonneg _
  have hr : rnorm Z i = ((Real.sqrt (∑ k : Fin 256, z (ix2 i k) * z (ix2 i k)) : ℝ) : EReal) := by
    rw [rnorm, zeroW_eq, zero_add, ← sqrt_coe_of_nonneg hsq, coe_sum]
    congr 1
    exact Finset.sum_congr rfl fun k _ => by rw [hz, ← EReal.coe_mul]
  have hm : max (Real.sqrt (∑ k : Fin 256, z (ix2 i k) * z (ix2 i k))) τ ≠ 0 :=
    (lt_of_lt_of_le hτ (le_max_right _ _)).ne'
  exact ⟨_, by rw [zn, hr, hT, coe_max, hz, div_coe_coe _ hm]⟩

/-- The similarity is a real. -/
theorem sim_real (Z : Emb) (hZ : ∀ i, ∃ r : ℝ, Z i = (r : EReal)) (i j : Fin 8192) :
    ∃ r : ℝ, sim Z i j = (r : EReal) := by
  choose w hw using zn_real Z hZ
  refine ⟨∑ k : Fin 256, w i k * w j k, ?_⟩
  rw [sim, coe_sum]
  exact Finset.sum_congr rfl fun k _ => by rw [hw, hw, ← EReal.coe_mul]

/-! ## Rows as bands -/

/-- The rows `0 … 8191` are the rows `128 t + r` with `t < 64` and `r < 128`. -/
def bandEquiv : Fin 64 × Fin 128 ≃ Fin 8192 where
  toFun p := tileRow p.1 p.2
  invFun i := (⟨i.val / 128, by omega⟩, ⟨i.val % 128, by omega⟩)
  left_inv := by
    rintro ⟨t, r⟩
    refine Prod.ext (Fin.ext ?_) (Fin.ext ?_)
    · show (128 * t.val + r.val) / 128 = t.val
      omega
    · show (128 * t.val + r.val) % 128 = r.val
      omega
  right_inv := by
    intro i
    refine Fin.ext ?_
    show 128 * (i.val / 128) + i.val % 128 = i.val
    omega

/-- A sum over all rows is the sum over the bands of the sums over each band's rows. -/
theorem sum_rows_eq_sum_bands (g : Fin 8192 → ℝ) :
    ∑ i : Fin 8192, g i = ∑ t : Fin 64, ∑ r : Fin 128, g (tileRow t r) := by
  rw [← Equiv.sum_comp bandEquiv g, Fintype.sum_prod_type]
  rfl

/-- Band `n`'s sum of a per-row real quantity; `0` beyond the last band. -/
def bandR (g : Fin 8192 → ℝ) (n : ℕ) : ℝ :=
  if h : n < 64 then ∑ r : Fin 128, g (tileRow ⟨n, h⟩ r) else 0

/-- The 64 band sums add up to the sum over all rows. -/
theorem sum_range_bandR (g : Fin 8192 → ℝ) : ∑ n ∈ Finset.range 64, bandR g n = ∑ i : Fin 8192, g i := by
  rw [Finset.sum_range, sum_rows_eq_sum_bands]
  exact Finset.sum_congr rfl fun t _ => by rw [bandR, dif_pos t.isLt]

/-! ## The sums of the specification as coerced real sums -/

/-- A band's row-by-row sum of real entries, each partial sum started from the word of `0.0`, is the coerced
    real double sum. -/
theorem band_coe (F : Fin 8192 → Fin 8192 → EReal) (f : Fin 8192 → Fin 8192 → ℝ)
    (h : ∀ i j, F i j = (f i j : EReal)) (t : Fin 64) :
    zeroW + ∑ r : Fin 128, (zeroW + ∑ j : Fin 8192, F (tileRow t r) j)
      = ((∑ r : Fin 128, ∑ j : Fin 8192, f (tileRow t r) j : ℝ) : EReal) := by
  rw [zeroW_eq, zero_add, coe_sum]
  refine Finset.sum_congr rfl fun r _ => ?_
  rw [zero_add, coe_sum]
  exact Finset.sum_congr rfl fun j _ => h _ _

/-- The whole matrix's sum of real entries, started from the word of `0.0`, is the coerced real double sum. -/
theorem whole_coe (F : Fin 8192 → Fin 8192 → EReal) (f : Fin 8192 → Fin 8192 → ℝ)
    (h : ∀ i j, F i j = (f i j : EReal)) :
    zeroW + ∑ i : Fin 8192, ∑ j : Fin 8192, F i j = ((∑ i : Fin 8192, ∑ j : Fin 8192, f i j : ℝ) : EReal) := by
  rw [zeroW_eq, zero_add, coe_sum]
  refine Finset.sum_congr rfl fun i _ => ?_
  rw [coe_sum]
  exact Finset.sum_congr rfl fun j _ => h _ _

/-! ## The running sums -/

section Running

variable (A : Adj) (Z : Emb) (p c : Fin 8192 → Fin 8192 → ℝ)
  (hp : ∀ i j, prod A Z i j = (p i j : EReal)) (hc : ∀ i j, sim Z i j = (c i j : EReal))

include hp in
/-- Band `t`'s cross term is the coerced real sum over the band. -/
theorem cross_coe (n : ℕ) (h : n < 64) :
    cross A Z ⟨n, h⟩ = ((bandR (fun i => ∑ j : Fin 8192, p i j) n : ℝ) : EReal) := by
  rw [bandR, dif_pos h]
  exact band_coe (prod A Z) p hp ⟨n, h⟩

include hc in
/-- Band `t`'s similarity term is the coerced real sum over the band. -/
theorem simSum_coe (n : ℕ) (h : n < 64) :
    simSum Z ⟨n, h⟩ = ((bandR (fun i => ∑ j : Fin 8192, c i j) n : ℝ) : EReal) := by
  rw [bandR, dif_pos h]
  exact band_coe (sim Z) c hc ⟨n, h⟩

include hp in
/-- After `n` bands the first running sum is minus the sum of the first `n` cross terms. -/
theorem accHomo_coe (n : ℕ) :
    accHomo A Z n = ((-(∑ m ∈ Finset.range n, bandR (fun i => ∑ j : Fin 8192, p i j) m) : ℝ) : EReal) := by
  induction n with
  | zero => rw [accHomo, zeroW_eq, Finset.range_zero, Finset.sum_empty, neg_zero, EReal.coe_zero]
  | succ n ih =>
    rw [accHomo, Finset.sum_range_succ]
    by_cases h : n < 64
    · rw [dif_pos h, ih, cross_coe A Z p hp n h, zeroW_eq, zero_sub, ← EReal.coe_neg, ← EReal.coe_add,
        neg_add]
    · rw [dif_neg h, ih, bandR, dif_neg h, add_zero]

include hp hc in
/-- After `n` bands the second running sum is the sum of the first `n` differences. -/
theorem accHet_coe (n : ℕ) :
    accHet A Z n = ((∑ m ∈ Finset.range n, (bandR (fun i => ∑ j : Fin 8192, c i j) m
      - bandR (fun i => ∑ j : Fin 8192, p i j) m) : ℝ) : EReal) := by
  induction n with
  | zero => rw [accHet, zeroW_eq, Finset.range_zero, Finset.sum_empty, EReal.coe_zero]
  | succ n ih =>
    rw [accHet, Finset.sum_range_succ]
    by_cases h : n < 64
    · rw [dif_pos h, ih, cross_coe A Z p hp n h, simSum_coe Z c hc n h, ← EReal.coe_sub, ← EReal.coe_add]
    · rw [dif_neg h, ih, bandR, dif_neg h, bandR, dif_neg h, sub_zero, add_zero]

end Running

/-! ## The two losses -/

/-- For finite inputs with non-negative row degrees, the band-by-band losses are the whole-matrix losses. -/
theorem ker_eq_ref (A : Cert.LossSpec.Adj) (Z : Cert.LossSpec.Emb)
    (hA : ∀ i, ∃ r : ℝ, A i = (r : EReal)) (hZ : ∀ i, ∃ r : ℝ, Z i = (r : EReal))
    (hdeg : ∀ i : Fin 8192, 0 ≤ Cert.LossSpec.deg A i) :
    Cert.LossSpec.kerHomo A Z = Cert.LossSpec.refHomo A Z ∧ Cert.LossSpec.kerHet A Z = Cert.LossSpec.refHet A Z := by
  choose an han using anorm_real A hA hdeg
  choose c hc using sim_real Z hZ
  have hp : ∀ i j, prod A Z i j = ((an i j * c i j : ℝ) : EReal) := fun i j => by
    rw [prod, han, hc, ← EReal.coe_mul]
  have hq : ∀ i j, (oneW - anorm A i j) * sim Z i j = (((1 - an i j) * c i j : ℝ) : EReal) := fun i j => by
    rw [oneW_eq, han, hc, ← EReal.coe_sub, ← EReal.coe_mul]
  constructor
  · rw [kerHomo, accHomo_coe A Z _ hp, sum_range_bandR, refHomo, whole_coe _ _ hp, EReal.coe_neg]
  · rw [kerHet, accHet_coe A Z _ c hp hc, Finset.sum_sub_distrib, sum_range_bandR, sum_range_bandR, refHet,
      whole_coe _ _ hq, ← Finset.sum_sub_distrib]
    congr 1
    refine Finset.sum_congr rfl fun i _ => ?_
    rw [← Finset.sum_sub_distrib]
    exact Finset.sum_congr rfl fun j _ => by ring

end Cert.LossAlgebra

end
-- ==== Proof.PreFacts.lean ====
/-
  What the precondition says of the inputs.

  The precondition is the conjunction of four statements, each a conjunction over every element of an array:
  `|x| < +∞` over the one-element array, over `Z` and over `A`, and `0 + Σ_j A (i, j) ≥ 0` over the rows `i` of `A`.
  On the extended reals `|x| = max x (-x)`, and `max x (-x) < ⊤` leaves out exactly `⊥` and `⊤`: every element of
  `A` and of `Z` is a real number. The row sum of `A` started from the word of `0.0` is the degree of the
  specification, so the last statement is `0 ≤ deg A i` for every row.
-/
import proofs.«125553_j27504970563869_1_alg».proof.Proof.Gen.Pre_finite_inputs
import proofs.«125553_j27504970563869_1_alg».proof.Proof.LossSpec
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The word `0x7F800000` (sign 0, exponent all ones, fraction 0) denotes `+∞`. -/
theorem ofBits_inf_f32 : Ideal.ofBits .f32 0x7F800000#32 = ⊤ := by simp [Ideal.ofBits, Ideal.ieee]

/-- A decided proposition whose bit is 1 holds. -/
theorem of_ofBool_eq_one {p : Prop} [Decidable p] (h : BitVec.ofBool (decide p) = 1#1) : p := by
  by_cases hp : p
  · exact hp
  · simp [hp] at h

/-- An extended real whose absolute value `max x (-x)` is below `⊤` is a real number: at `⊥` and at `⊤` the
    absolute value is `⊤`. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The comparison `x ≥ 0` that came out 1 says `0 ≤ x`. -/
theorem nonneg_of_cmp_oge (x : EReal) (h : Ideal.cmp .oge x 0 = 1#1) : 0 ≤ x :=
  of_ofBool_eq_one h

/-- Row `i` of the sum of `A` over its second axis, started from the word of `0.0`, is the degree of row `i`:
    the initial value plus the sum over the column `k` of `A (i, k)`. -/
theorem rowSum_apply [Facts] (A : FVec Ideal S8192x8192 .f32) (i : Fin 8192) :
    Host.reduceAdd A (constant S_ .f32 0x00000000#32) Facts.reducesTo_S8192x8192_S8192_d1 Facts.h_S_ (ix1 i)
      = Cert.LossSpec.deg A i := by
  unfold Cert.LossSpec.deg
  simp only [Host.reduceAdd, Ideal.hostReduceAdd_def]
  rw [Ideal.hostReduceAdd_single Facts.reducesTo_S8192x8192_S8192_d1 (by decide)]
  refine congrArg₂ (· + ·) rfl (Finset.sum_congr rfl fun k _ => ?_)
  -- the index with the column `k` inserted into the row index `(i)` is `(i, k)`
  exact congrArg A (funext fun a => Fin.ext (by match a with | ⟨0, _⟩ => rfl | ⟨1, _⟩ => rfl))

/-- The precondition read back: every element of `A` and of `Z` is a real number, and every degree is nonnegative. -/
theorem of_pre [Cert.Pre_finite_inputs.Facts] (a0 : FVec Ideal S1 .f32) (Z : FVec Ideal S8192x256 .f32) (A : FVec Ideal S8192x8192 .f32)
    (h : Cert.Pre_finite_inputs.fn (F := Ideal) a0 Z A = fun _ => 1#1) :
    (∀ i, ∃ r : ℝ, A i = (r : EReal)) ∧ (∀ i, ∃ r : ℝ, Z i = (r : EReal)) ∧ ∀ i : Fin 8192, 0 ≤ Cert.LossSpec.deg A i := by
  -- the one element of the result, with the operations written out
  have h0 := congrFun h ValueIdx.ix0
  dsimp only [Cert.Pre_finite_inputs.fn, Cert.Pre_finite_inputs.fn_part1] at h0
  dsimp only [andi] at h0
  -- a conjunction of bits is 1 only if each is: ((|a0| < ∞ ∧ |Z| < ∞) ∧ |A| < ∞) ∧ rows ≥ 0
  obtain ⟨h13, h17⟩ := IntOp.andi_eq_one.1 h0
  obtain ⟨h8, h12⟩ := IntOp.andi_eq_one.1 h13
  obtain ⟨_, h7⟩ := IntOp.andi_eq_one.1 h8
  refine ⟨fun i => ?_, fun i => ?_, fun i => ?_⟩
  · -- the conjunction over all of `A` is 1, so the comparison at `i` is
    have e := Host.reduce_andi_all _ _ _ _ ix0 h12 i
    have e' : Ideal.cmp .olt (max (A i) (-(A i))) (Ideal.ofBits .f32 0x7F800000#32) = 1#1 := e
    rw [ofBits_inf_f32] at e'
    exact real_of_abs_lt_top _ e'
  · -- likewise over all of `Z`
    have e := Host.reduce_andi_all _ _ _ _ ix0 h7 i
    have e' : Ideal.cmp .olt (max (Z i) (-(Z i))) (Ideal.ofBits .f32 0x7F800000#32) = 1#1 := e
    rw [ofBits_inf_f32] at e'
    exact real_of_abs_lt_top _ e'
  · -- the conjunction over the rows is 1, so row `i`'s sum compares ≥ the word of `0.0`, which is `0`
    have e := Host.reduce_andi_all _ _ _ _ ix0 h17 (ix1 i)
    have e' : Ideal.cmp .oge
        (Host.reduceAdd A (constant S_ .f32 0x00000000#32) Facts.reducesTo_S8192x8192_S8192_d1 Facts.h_S_ (ix1 i))
        (Ideal.ofBits .f32 0x00000000#32) = 1#1 := e
    rw [rowSum_apply, Ideal.ofBits_zero_f32] at e'
    exact nonneg_of_cmp_oge _ e'

end Cert.PreFacts

end
-- ==== Proof.RefValue.lean ====
/-
  The reference's two results read index by index at the extended reals.

  Each stage of the reference is read at an index built from literal coordinates: the row degree and its
  scale `1 / √(d + ε)`, the twice-scaled adjacency, the floored row norm of the embeddings, the normalised
  embeddings and their row-by-row inner products.  The two losses are then the whole-matrix sums of the
  specification, the sum over the rank-2 index set written as the double sum over its coordinates.
-/
import proofs.«125553_j27504970563869_1_alg».proof.Proof.Gen.ReferenceIdeal.Read
import proofs.«125553_j27504970563869_1_alg».proof.Proof.LossSpec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read
open Cert.LossSpec

/-! ## The composed index maps of the layout stages, at literal coordinates -/

/-- Row `i`'s `k`-th summand of the degree sits at `(i, k)`. -/
theorem idx_deg (i k : Fin 8192) : idx_main_v0 (ix1 i) k = ix2 i k :=
  funext fun a => Fin.ext (by match a with | ⟨0, _⟩ => rfl | ⟨1, _⟩ => rfl)

/-- The column of scales broadcast along a row reads column entry `(i, 0)`. -/
theorem idx_rowScale (i j : Fin 8192) : idx_main_v7 (ix2 i j) = ix2 i (0 : Fin 1) :=
  funext fun a => Fin.ext (by match a with | ⟨0, _⟩ => rfl | ⟨1, _⟩ => rfl)

/-- Column entry `(i, 0)` of the scales is the scale of row `i`. -/
theorem idx_colOfVec (i : Fin 8192) : idx_main_v6 (ix2 i (0 : Fin 1)) = ix1 i :=
  funext fun a => Fin.ext (by match a with | ⟨0, _⟩ => rfl)

/-- The row of scales broadcast down a column reads row entry `(0, j)`. -/
theorem idx_colScale (i j : Fin 8192) : idx_main_v10 (ix2 i j) = ix2 (0 : Fin 1) j :=
  funext fun a => Fin.ext (by match a with | ⟨0, _⟩ => rfl | ⟨1, _⟩ => rfl)

/-- Row entry `(0, j)` of the scales is the scale of row `j`. -/
theorem idx_rowOfVec (j : Fin 8192) : idx_main_v9 (ix2 (0 : Fin 1) j) = ix1 j :=
  funext fun a => Fin.ext (by match a with | ⟨0, _⟩ => rfl)

/-- Row `i`'s `k`-th summand of the squared norm sits at `(i, k)`. -/
theorem idx_sq (i : Fin 8192) (k : Fin 256) : idx_main_call0_v1 (ix1 i) k = ix2 i k :=
  funext fun a => Fin.ext (by match a with | ⟨0, _⟩ => rfl | ⟨1, _⟩ => rfl)

/-- Column entry `(i, 0)` of the squared norms is the squared norm of row `i`. -/
theorem idx_normCol (i : Fin 8192) : idx_main_call0_v2 (ix2 i (0 : Fin 1)) = ix1 i :=
  funext fun a => Fin.ext (by match a with | ⟨0, _⟩ => rfl)

/-- The column of floored norms broadcast along a row reads column entry `(i, 0)`. -/
theorem idx_normRow (i : Fin 8192) (k : Fin 256) : idx_main_v15 (ix2 i k) = ix2 i (0 : Fin 1) :=
  funext fun a => Fin.ext (by match a with | ⟨0, _⟩ => rfl | ⟨1, _⟩ => rfl)

/-- The transpose at `(k, j)` reads `(j, k)`. -/
theorem idx_transpose (k : Fin 256) (j : Fin 8192) : idx_main_v17 (ix2 k j) = ix2 j k :=
  funext fun a => Fin.ext (by match a with | ⟨0, _⟩ => rfl | ⟨1, _⟩ => rfl)

/-- The inner product at `(i, j)` reads its left factor at `(i, k)` … -/
theorem idx_dotLeft (i j : Fin 8192) (k : Fin 256) : lidx_main_v18 (ix2 i j) k = ix2 i k :=
  funext fun a => Fin.ext (by match a with | ⟨0, _⟩ => rfl | ⟨1, _⟩ => rfl)

/-- … and its right factor at `(k, j)`. -/
theorem idx_dotRight (i j : Fin 8192) (k : Fin 256) : ridx_main_v18 (ix2 i j) k = ix2 k j :=
  funext fun a => Fin.ext (by match a with | ⟨0, _⟩ => rfl | ⟨1, _⟩ => rfl)

/-! ## The stages at an index -/

variable (Z : (⟨S8192x256, .f32⟩ : BufTy).Contents (Elt Ideal)) (A : (⟨S8192x8192, .f32⟩ : BufTy).Contents (Elt Ideal))

/-- The reference's `1 / √(row sum + ε)` at row `i` is the specification's scale. -/
theorem scale_at (i : Fin 8192) : val_main_v5 (F := Ideal) A (ix1 i) = scale A i := by
  rw [val_main_v5_apply, val_main_v4_apply, val_main_cst_1_apply, val_main_v3_apply, val_main_v2_apply,
    val_main_v0_apply, val_main_cst_apply, val_main_v1_apply, val_main_cst_0_apply]
  simp only [idx_deg, Ideal.hostDivf_def, Ideal.hostUnary_sqrt_def, Ideal.addf_def, Ideal.ofBits_def]
  rfl

/-- The twice-scaled adjacency at `(i, j)`. -/
theorem anorm_at (i j : Fin 8192) : val_main_v11 (F := Ideal) A (ix2 i j) = anorm A i j := by
  rw [val_main_v11_apply, val_main_v8_apply, val_main_v7_apply, val_main_v6_apply, val_main_v10_apply,
    val_main_v9_apply, idx_rowScale, idx_colOfVec, idx_colScale, idx_rowOfVec, scale_at, scale_at]
  simp only [Ideal.mulf_def]
  rfl

/-- The floored norm of row `i` of the embeddings, as the column entry `(i, 0)`. -/
theorem floor_at (i : Fin 8192) : val_main_v14 (F := Ideal) Z (ix2 i (0 : Fin 1)) = max (rnorm Z i) tinyW := by
  rw [val_main_v14_apply, val_main_v12_apply, val_main_call0_v2_apply, idx_normCol, val_main_call0_v1_apply,
    val_main_call0_cst_apply, val_main_v13_apply, val_main_cst_2_apply]
  simp only [val_main_call0_v0_apply, idx_sq, Ideal.mulf_def, Ideal.hostUnary_sqrt_def, Ideal.maximumf_def,
    Ideal.ofBits_def]
  rfl

/-- The normalised embedding at `(i, k)`. -/
theorem zn_at (i : Fin 8192) (k : Fin 256) : val_main_v16 (F := Ideal) Z (ix2 i k) = zn Z i k := by
  rw [val_main_v16_apply, val_main_v15_apply, idx_normRow, floor_at]
  simp only [Ideal.hostDivf_def]
  rfl

/-- The similarity of rows `i` and `j`. -/
theorem sim_at (i j : Fin 8192) : val_main_v18 (F := Ideal) Z (ix2 i j) = sim Z i j := by
  rw [val_main_v18_apply]
  unfold sim
  refine Finset.sum_congr rfl fun k _ => ?_
  rw [idx_dotLeft, idx_dotRight, val_main_v17_apply, idx_transpose, zn_at, zn_at]

/-- The first loss's summand at `(i, j)`. -/
theorem prod_at (i j : Fin 8192) : val_main_v19 (F := Ideal) Z A (ix2 i j) = prod A Z i j := by
  rw [val_main_v19_apply, anorm_at, sim_at]
  simp only [Ideal.mulf_def]
  rfl

/-- The second loss's summand at `(i, j)`. -/
theorem het_at (i j : Fin 8192) :
    val_main_v24 (F := Ideal) Z A (ix2 i j) = (oneW - anorm A i j) * sim Z i j := by
  rw [val_main_v24_apply, val_main_v23_apply, val_main_v22_apply, val_main_cst_4_apply, anorm_at, sim_at]
  simp only [Ideal.mulf_def, Ideal.subf_def, Ideal.ofBits_def]

/-! ## The two results -/

/-- The reference's first result is the specification's first loss. -/
theorem homo_eq (Z : (⟨S8192x256, .f32⟩ : BufTy).Contents (Elt Ideal)) (A : (⟨S8192x8192, .f32⟩ : BufTy).Contents (Elt Ideal)) :
    val_main_v21 (F := Ideal) Z A = fun _ => Cert.LossSpec.refHomo A Z := by
  funext i
  rw [val_main_v21_apply, val_main_v20_apply, val_main_cst_3_apply, sum_idx2]
  simp only [prod_at, Ideal.hostNegf_def, Ideal.negf_def, Ideal.ofBits_def]
  rfl

/-- The reference's second result is the specification's second loss. -/
theorem het_eq (Z : (⟨S8192x256, .f32⟩ : BufTy).Contents (Elt Ideal)) (A : (⟨S8192x8192, .f32⟩ : BufTy).Contents (Elt Ideal)) :
    val_main_v25 (F := Ideal) Z A = fun _ => Cert.LossSpec.refHet A Z := by
  funext i
  rw [val_main_v25_apply, val_main_cst_5_apply, sum_idx2]
  simp only [het_at, Ideal.ofBits_def]
  rfl

/-! ## The run's result terms -/

/-- The term the reference's run leaves in its first result is the first loss at every index. -/
theorem run_homo (Z : (⟨S8192x256, .f32⟩ : BufTy).Contents (Elt Ideal)) (A : (⟨S8192x8192, .f32⟩ : BufTy).Contents (Elt Ideal)) :
    Host.negf (F := Ideal) (Host.reduceAdd (mulf (mulf (mulf A (broadcastInDim S8192x8192 ![0, 1] bcast_S8192x1_S8192x8192_0_1 (broadcastInDim S8192x1 ![0] bcast_S8192_S8192x1_0 (Host.divf (broadcastInDim S8192 ![] bcast_S_S8192 (constant S_ .f32 0x3F800000#32)) (Host.sqrt (addf (Host.reduceAdd A (constant S_ .f32 0x00000000#32) reducesTo_S8192x8192_S8192_d1 h_S_) (broadcastInDim S8192 ![] bcast_S_S8192 (constant S_ .f32 0x2EDBE6FF#32)))))))) (broadcastInDim S8192x8192 ![0, 1] bcast_S1x8192_S8192x8192_0_1 (broadcastInDim S1x8192 ![1] bcast_S8192_S1x8192_1 (Host.divf (broadcastInDim S8192 ![] bcast_S_S8192 (constant S_ .f32 0x3F800000#32)) (Host.sqrt (addf (Host.reduceAdd A (constant S_ .f32 0x00000000#32) reducesTo_S8192x8192_S8192_d1 h_S_) (broadcastInDim S8192 ![] bcast_S_S8192 (constant S_ .f32 0x2EDBE6FF#32)))))))) (Host.dotGeneral dot_S8192x256_S256x8192_S8192x8192_1_0_0_1_n_n none (Host.divf Z (broadcastInDim S8192x256 ![0, 1] bcast_S8192x1_S8192x256_0_1 (maximumf (Host.sqrt (broadcastInDim S8192x1 ![0] bcast_S8192_S8192x1_0 (Host.reduceAdd (mulf Z Z) (constant S_ .f32 0x00000000#32) reducesTo_S8192x256_S8192_d1 h_S_))) (broadcastInDim S8192x1 ![] bcast_S_S8192x1 (constant S_ .f32 0x2B8CBCCC#32))))) (transpose S256x8192 [1, 0] (Host.divf Z (broadcastInDim S8192x256 ![0, 1] bcast_S8192x1_S8192x256_0_1 (maximumf (Host.sqrt (broadcastInDim S8192x1 ![0] bcast_S8192_S8192x1_0 (Host.reduceAdd (mulf Z Z) (constant S_ .f32 0x00000000#32) reducesTo_S8192x256_S8192_d1 h_S_))) (broadcastInDim S8192x1 ![] bcast_S_S8192x1 (constant S_ .f32 0x2B8CBCCC#32))))) transposes_S8192x256_S256x8192_1_0))) (constant S_ .f32 0x00000000#32) reducesTo_S8192x8192_S_d0_1 h_S_)
      = fun _ => Cert.LossSpec.refHomo A Z :=
  (val_main_v21_eq (F := Ideal) Z A).trans (homo_eq Z A)

/-- The term the reference's run leaves in its second result is the second loss at every index. -/
theorem run_het (Z : (⟨S8192x256, .f32⟩ : BufTy).Contents (Elt Ideal)) (A : (⟨S8192x8192, .f32⟩ : BufTy).Contents (Elt Ideal)) :
    Host.reduceAdd (F := Ideal) (mulf (subf (broadcastInDim S8192x8192 ![] bcast_S_S8192x8192 (constant S_ .f32 0x3F800000#32)) (mulf (mulf A (broadcastInDim S8192x8192 ![0, 1] bcast_S8192x1_S8192x8192_0_1 (broadcastInDim S8192x1 ![0] bcast_S8192_S8192x1_0 (Host.divf (broadcastInDim S8192 ![] bcast_S_S8192 (constant S_ .f32 0x3F800000#32)) (Host.sqrt (addf (Host.reduceAdd A (constant S_ .f32 0x00000000#32) reducesTo_S8192x8192_S8192_d1 h_S_) (broadcastInDim S8192 ![] bcast_S_S8192 (constant S_ .f32 0x2EDBE6FF#32)))))))) (broadcastInDim S8192x8192 ![0, 1] bcast_S1x8192_S8192x8192_0_1 (broadcastInDim S1x8192 ![1] bcast_S8192_S1x8192_1 (Host.divf (broadcastInDim S8192 ![] bcast_S_S8192 (constant S_ .f32 0x3F800000#32)) (Host.sqrt (addf (Host.reduceAdd A (constant S_ .f32 0x00000000#32) reducesTo_S8192x8192_S8192_d1 h_S_) (broadcastInDim S8192 ![] bcast_S_S8192 (constant S_ .f32 0x2EDBE6FF#32))))))))) (Host.dotGeneral dot_S8192x256_S256x8192_S8192x8192_1_0_0_1_n_n none (Host.divf Z (broadcastInDim S8192x256 ![0, 1] bcast_S8192x1_S8192x256_0_1 (maximumf (Host.sqrt (broadcastInDim S8192x1 ![0] bcast_S8192_S8192x1_0 (Host.reduceAdd (mulf Z Z) (constant S_ .f32 0x00000000#32) reducesTo_S8192x256_S8192_d1 h_S_))) (broadcastInDim S8192x1 ![] bcast_S_S8192x1 (constant S_ .f32 0x2B8CBCCC#32))))) (transpose S256x8192 [1, 0] (Host.divf Z (broadcastInDim S8192x256 ![0, 1] bcast_S8192x1_S8192x256_0_1 (maximumf (Host.sqrt (broadcastInDim S8192x1 ![0] bcast_S8192_S8192x1_0 (Host.reduceAdd (mulf Z Z) (constant S_ .f32 0x00000000#32) reducesTo_S8192x256_S8192_d1 h_S_))) (broadcastInDim S8192x1 ![] bcast_S_S8192x1 (constant S_ .f32 0x2B8CBCCC#32))))) transposes_S8192x256_S256x8192_1_0))) (constant S_ .f32 0x00000000#32) reducesTo_S8192x8192_S_d0_1 h_S_
      = fun _ => Cert.LossSpec.refHet A Z :=
  (val_main_v25_eq (F := Ideal) Z A).trans (het_eq Z A)

end Cert.ReferenceIdeal.RefValue

end
-- ==== Proof.lean ====
/-
  The certificate of the adjacency loss kernel against its reference.

  Both programs take an adjacency matrix A (8192 × 8192) and embeddings Z (8192 × 256) and return two
  losses: with a = D^{-1/2} A D^{-1/2} (D the row degrees plus ε) and c the cosine similarities of the rows
  of Z, the first is −Σ a·c and the second Σ (1 − a)·c. The reference forms the whole matrices and sums
  them once. The kernel sums the degrees in a first region, normalises on the host, and in a second
  region streams A in 64 bands of 128 rows, adding −(band's Σ a·c) and (band's Σ c) − (band's Σ a·c) into
  two running sums it carries from band to band.

  On the extended reals the two agree when every intermediate is finite: a negation does not pass
  through a sum that holds both infinities, so the claim is stated for finite inputs whose row degrees
  are non-negative (then degree + ε > 0 and every scale, similarity and product is a real number).

  The three frames are the programs' runs with the results dropped; the idealization rewrote nothing;
  the value claim joins the kernel's run (its two results are the band-by-band sums), the reference's
  run (its two results are the whole-matrix sums) and the equality of the two under the precondition.
-/
import proofs.«125553_j27504970563869_1_alg».proof.Defs
import proofs.«125553_j27504970563869_1_alg».proof.Proof.Gen.Kernel
import proofs.«125553_j27504970563869_1_alg».proof.Proof.Gen.KernelIdeal
import proofs.«125553_j27504970563869_1_alg».proof.Proof.Gen.ReferenceIdeal
import proofs.«125553_j27504970563869_1_alg».proof.Proof.Gen.Pre_finite_inputs
import proofs.«125553_j27504970563869_1_alg».proof.Proof.Bits.KernelRun
import proofs.«125553_j27504970563869_1_alg».proof.Proof.Bridge
import proofs.«125553_j27504970563869_1_alg».proof.Proof.LossAlgebra
import proofs.«125553_j27504970563869_1_alg».proof.Proof.PreFacts
import proofs.«125553_j27504970563869_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Run.frame m ρ

/-- So does the kernel program read at the extended reals. -/
theorem frame_kernelIdeal : Cert.frame_KernelIdeal := fun m ρ _ => Cert.KernelIdeal.Run.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the two losses: the kernel at the
    band-by-band sums, the reference at the whole-matrix sums, equal under the precondition. -/
theorem algebraic : Cert.algebraic_KernelIdeal_ReferenceIdeal := by
  intro m ρ m' ρ' hpre hagree
  refine ⟨fun c => fun _ => Cert.LossSpec.kerHomo (Cert.KernelIdeal.Bridge.adj m c) (Cert.KernelIdeal.Bridge.emb m c),
    fun c => fun _ => Cert.LossSpec.kerHet (Cert.KernelIdeal.Bridge.adj m c) (Cert.KernelIdeal.Bridge.emb m c), ?_, ?_⟩
  · refine (θ_run Cert.KernelIdeal.defs _ _).mono (fun r h c => ⟨?_, ?_, ?_, ?_, ?_⟩) (Cert.KernelIdeal.Run.run_all m ρ)
    · exact (h c _ (Cert.KernelIdeal.Run.mem_uc Cert.KernelIdeal.main_v14 (by decide))).trans (Cert.KernelIdeal.Bridge.res_homo m c)
    · exact (h c _ (Cert.KernelIdeal.Run.mem_uc Cert.KernelIdeal.main_v15 (by decide))).trans (Cert.KernelIdeal.Bridge.res_het m c)
    · exact (h c _ (Cert.KernelIdeal.Run.mem_uc Cert.KernelIdeal.main_arg0 (by decide))).trans (Cert.KernelIdeal.Run.W6_main_arg0 m c)
    · exact (h c _ (Cert.KernelIdeal.Run.mem_uc Cert.KernelIdeal.main_arg1 (by decide))).trans (Cert.KernelIdeal.Run.W6_main_arg1 m c)
    · exact (h c _ (Cert.KernelIdeal.Run.mem_uc Cert.KernelIdeal.main_arg2 (by decide))).trans (Cert.KernelIdeal.Run.W6_main_arg2 m c)
  · refine (θ_run Cert.ReferenceIdeal.defs _ _).mono (fun r h c => ?_) (Cert.ReferenceIdeal.Value.run (F := Ideal) m' ρ')
    obtain ⟨hA, hZ, hdeg⟩ := Cert.PreFacts.of_pre _ _ _ (hpre c)
    have hker := Cert.LossAlgebra.ker_eq_ref (Cert.KernelIdeal.Bridge.adj m c) (Cert.KernelIdeal.Bridge.emb m c) hA hZ hdeg
    refine ⟨?_, ?_, (h c).2.2.1, (h c).2.2.2.1, (h c).2.2.2.2⟩
    · rw [(h c).1, Cert.ReferenceIdeal.RefValue.run_homo, (hagree c).2.2, (hagree c).2.1]
      exact funext fun _ => hker.1.symm
    · rw [(h c).2.1, Cert.ReferenceIdeal.RefValue.run_het, (hagree c).2.2, (hagree c).2.1]
      exact funext fun _ => hker.2.symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
